-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1 : Shape := ⟨2, ![8192, 1]⟩
abbrev S1 : Shape := ⟨1, ![1]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S8192x1 : S_.BroadcastsInDim S8192x1 (![] : Fin 0 → Fin S8192x1.rank)
  reducesTo_S8192x1_S_d0_1 : S8192x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S8192x1 .f32) (main_v50 : FVec F S8192x1 .f32) : IVec S_ 1 :=
  let main_v51 : IVec S8192x1 1 := cmpf .olt main_v49 main_v50
  let main_c_19 : IVec S_ 1 := constantI S_ 1 1#1
  let main_v52 : IVec S_ 1 := (fun x v => Host.reduce IntOp.andi x v reducesTo_S8192x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S4096 .f32) (main_arg8 : FVec F S4096x1024 .f32) (main_arg9 : FVec F S1024 .f32) (main_arg10 : FVec F S8192x1 .f32) (main_arg11 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S8192x1 .f32 := Host.absf main_arg10
  let main_cst_18 : FVec F S_ .f32 := constant S_ .f32 0x7F800000#32
  let main_v50 : FVec F S8192x1 .f32 := broadcastInDim S8192x1 ![] bcast_S_S8192x1 main_cst_18
  fn_part3 (F := F) main_arg11 main_v48 main_v49 main_v50

def fn_part1 {F : FTy → Type} [FloatOps F] (main_arg4 : FVec F S4096x1024 .f32) (main_arg5 : FVec F S1024 .f32) (main_arg6 : FVec F S1024x4096 .f32) (main_arg7 : FVec F S4096 .f32) (main_arg8 : FVec F S4096x1024 .f32) (main_arg9 : FVec F S1024 .f32) (main_arg10 : FVec F S8192x1 .f32) (main_arg11 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x1024 .f32) (main_arg1 : FVec F S8192x1024 .f32) (main_arg2 : FVec F S1024x4096 .f32) (main_arg3 : FVec F S4096 .f32) (main_arg4 : FVec F S4096x1024 .f32) (main_arg5 : FVec F S1024 .f32) (main_arg6 : FVec F S1024x4096 .f32) (main_arg7 : FVec F S4096 .f32) (main_arg8 : FVec F S4096x1024 .f32) (main_arg9 : FVec F S1024 .f32) (main_arg10 : FVec F S8192x1 .f32) (main_arg11 : FVec F S1 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S2048x1024 : Shape := ⟨2, ![2048, 1024]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1 : Shape := ⟨2, ![8192, 1]⟩
abbrev S1 : Shape := ⟨1, ![1]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x8192 : Shape := ⟨2, ![1, 8192]⟩
abbrev S1x1 : Shape := ⟨2, ![1, 1]⟩
abbrev S2048x8192 : Shape := ⟨2, ![2048, 8192]⟩
abbrev S2048x1 : Shape := ⟨2, ![2048, 1]⟩
abbrev S1024x1024 : Shape := ⟨2, ![1024, 1024]⟩
abbrev S1024x1 : Shape := ⟨2, ![1024, 1]⟩

abbrev nBuf : Space → Nat
  | .hbm => 26
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S8192x1, .f32⟩
  | .hbm, ⟨11, _⟩ => ⟨S1, .f32⟩
  | .hbm, ⟨12, _⟩ => ⟨S1024x4096, .bf16⟩
  | .hbm, ⟨13, _⟩ => ⟨S4096x1024, .bf16⟩
  | .hbm, ⟨14, _⟩ => ⟨S1x4096, .f32⟩
  | .hbm, ⟨15, _⟩ => ⟨S1x1024, .f32⟩
  | .hbm, ⟨16, _⟩ => ⟨S2048x1024, .bf16⟩
  | .hbm, ⟨17, _⟩ => ⟨S1024x4096, .bf16⟩
  | .hbm, ⟨18, _⟩ => ⟨S4096x1024, .bf16⟩
  | .hbm, ⟨19, _⟩ => ⟨S1x4096, .f32⟩
  | .hbm, ⟨20, _⟩ => ⟨S1x1024, .f32⟩
  | .hbm, ⟨21, _⟩ => ⟨S8192x1024, .bf16⟩
  | .hbm, ⟨22, _⟩ => ⟨S1x8192, .f32⟩
  | .hbm, ⟨23, _⟩ => ⟨S1x1, .f32⟩
  | .hbm, ⟨24, _⟩ => ⟨S2048x8192, .f32⟩
  | .hbm, ⟨25, _⟩ => ⟨S2048x1, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1024x4096, .bf16⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1x1, .f32⟩
  | .local _ .vmem, ⟨23, _⟩ => ⟨S1024x1024, .f32⟩
  | .local _ .vmem, ⟨24, _⟩ => ⟨S1024x1024, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  packedbf16_S256x1024_S256x1024_0_0 : (Rect.unit (s := S256x1024) ![0, 0] S256x1024.size inb_S256x1024_S256x1024_0_0).PackedRows (EltTy.packing .bf16)
  shapeCasts_S8192x1_S1x8192 : S8192x1.ShapeCasts S1x8192
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  reduces_S1024x1024_S1024 : S1024x1024.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x1024.size a
  hwx1_5 : ∀ i : grid1.Coords, EltTy.bits .bf16 = 32 ∨ (Rect.block (s := S8192x1024) S256x1024.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S2048x1024.size a
  hwx2_0 : ∀ i : grid2.Coords, EltTy.bits .bf16 = 32 ∨ (Rect.block (s := S2048x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S2048x8192.size a
  hwx2_4 : ∀ i : grid2.Coords, EltTy.bits .f32 = 32 ∨ (Rect.block (s := S2048x8192) S1024x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S2048x1.size a
  hwx2_5 : ∀ i : grid2.Coords, EltTy.bits .f32 = 32 ∨ (Rect.block (s := S2048x1) S1024x1.size (cc2_transform_5 i) (hinb2_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12_0) S1024x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12_1) S1024x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1 : Shape := ⟨2, ![8192, 1]⟩
abbrev S1 : Shape := ⟨1, ![1]⟩
abbrev S2048x4096 : Shape := ⟨2, ![2048, 4096]⟩
abbrev S1x4096 : Shape := ⟨2, ![1, 4096]⟩
abbrev S_ : Shape := ⟨0, ![]⟩
abbrev S1x1024 : Shape := ⟨2, ![1, 1024]⟩
abbrev S8192x4096 : Shape := ⟨2, ![8192, 4096]⟩
abbrev S2048 : Shape := ⟨1, ![2048]⟩
abbrev S2048x1 : Shape := ⟨2, ![2048, 1]⟩
abbrev S8192 : Shape := ⟨1, ![8192]⟩
abbrev S1024x8192 : Shape := ⟨2, ![1024, 8192]⟩
abbrev S2048x8192 : Shape := ⟨2, ![2048, 8192]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S8192x1, .f32⟩
  | .hbm, ⟨11, _⟩ => ⟨S1, .f32⟩
  | .hbm, ⟨12, _⟩ => ⟨S2048x4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1024x8192, .f32⟩
  | .hbm, ⟨55, _⟩ => ⟨S2048x8192, .f32⟩
  | .hbm, ⟨56, _⟩ => ⟨S_, .f32⟩
  | .hbm, ⟨57, _⟩ => ⟨S2048x8192, .f32⟩
  | .hbm, ⟨58, _⟩ => ⟨S2048x8192, .f32⟩
  | .hbm, ⟨59, _⟩ => ⟨S_, .f32⟩
  | .hbm, ⟨60, _⟩ => ⟨S2048x8192, .f32⟩
  | .hbm, ⟨61, _⟩ => ⟨S2048x8192, .f32⟩
  | .hbm, ⟨62, _⟩ => ⟨S2048x1, .f32⟩
  | .hbm, ⟨63, _⟩ => ⟨S1x1, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_call3_v2 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1x1024_S8192x1024_0_1 : S1x1024.BroadcastsInDim S8192x1024 (![0, 1] : Fin 2 → Fin S8192x1024.rank)
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S2048x8192 : S_.BroadcastsInDim S2048x8192 (![] : Fin 0 → Fin S2048x8192.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x1024_S1024x4096_S2048x4096_1_0_0_1_n_n_wf : DotDims.WF S2048x1024 S1024x4096 S2048x4096 [1] [0] [0] [1] [] []
  dot_S2048x4096_S4096x1024_S2048x1024_1_0_0_1_n_n_wf : DotDims.WF S2048x4096 S4096x1024 S2048x1024 [1] [0] [0] [1] [] []
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []
  dot_S2048x1024_S1024x8192_S2048x8192_1_0_0_1_n_n_wf : DotDims.WF S2048x1024 S1024x8192 S2048x8192 [1] [0] [0] [1] [] []
  dot_S2048x8192_S8192x1_S2048x1_1_0_0_1_n_n_wf : DotDims.WF S2048x8192 S8192x1 S2048x1 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S2048x1024_S1024x8192_S2048x8192_1_0_0_1_n_n : DotDims S2048x1024 S1024x8192 S2048x8192 where
  lhsContracting := [1]
  rhsContracting := [0]
  lhsNonContracting := [0]
  rhsNonContracting := [1]
  lhsBatch := []
  rhsBatch := []
  wf := dot_S2048x1024_S1024x8192_S2048x8192_1_0_0_1_n_n_wf
def dot_S2048x8192_S8192x1_S2048x1_1_0_0_1_n_n : DotDims S2048x8192 S8192x1 S2048x1 where
  lhsContracting := [1]
  rhsContracting := [0]
  lhsNonContracting := [0]
  rhsNonContracting := [1]
  lhsBatch := []
  rhsBatch := []
  wf := dot_S2048x8192_S8192x1_S2048x1_1_0_0_1_n_n_wf

class Facts : Prop extends Facts₀ where

variable [Facts]
-- ==== Proof.K.Run.lean ====
/-
  The run of the whole program at any float instance.

  The program is six segments in order: a stretch of host operations, the first encoder's pallas_call, a host
  stretch, the second encoder's pallas_call, a host stretch, the cosine/value pallas_call. Between two segments
  each TensorCore holds every unscoped buffer whole at contents that are a fold from the launch memory: a host
  stretch applies its operations, a pallas_call replaces its windows' arrays by what its write-backs leave and
  keeps every other buffer. Given, per pallas_call, the proof data and the body's triple (a record below), every
  weakly fair execution terminates and every final memory holds each unscoped buffer at the last fold; no
  segment writes an argument, so each argument array ends as launched.
-/
import proofs.«168271_j46969762349635_2_alg».proof.Proof.Gen.Kernel.Launch
import proofs.«168271_j46969762349635_2_alg».proof.Proof.Gen.Kernel.Skeleton
import proofs.«168271_j46969762349635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run needs of pallas_call 0, for any contents `V` its arrays hold when it is entered: what each window's
    staging buffer holds after the body at each point (the proof data), its arrays read off `V`, every array held
    whole, nothing owed to another core, the body's triple at every point, and the invariant between points: what the
    launch hands over gives it before the first point, and after the last it gives that back. -/
structure Half0 (F : FTy → Type) [FloatOps F] where
  dat : ((c : Dev nD) → (b : Ref sig .tc) → Buf (Elt F) ((c : Thread nD τ).loc b)) → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What the run needs of pallas_call 1, for any contents `V` its arrays hold when it is entered: what each window's
    staging buffer holds after the body at each point (the proof data), its arrays read off `V`, every array held
    whole, nothing owed to another core, the body's triple at every point, and the invariant between points: what the
    launch hands over gives it before the first point, and after the last it gives that back. -/
structure Half1 (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- What the run needs of pallas_call 2, for any contents `V` its arrays hold when it is entered: what each window's
    staging buffer holds after the body at each point (the proof data), its arrays read off `V`, every array held
    whole, nothing owed to another core, the body's triple at every point, and the invariant between points: what the
    launch hands over gives it before the first point, and after the last it gives that back. -/
structure Half2 (F : FTy → Type) [FloatOps F] where
  dat : ((c : Dev nD) → (b : Ref sig .tc) → Buf (Elt F) ((c : Thread nD τ).loc b)) → (c : Dev nD) → Dat τ (Elt F) Unit ℕ (UR sig nD τ) ℕ cfg2 c
  hA : ∀ V c w, (dat V c).A w = V c (Pipeline.arrRef spec2 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

variable (m : (ℓ : Loc nD τ sig) → Buf (Elt F) ℓ) (ρ : Dev nD → PrngReg)
variable (H0 : Half0 F) (H1 : Half1 F) (H2 : Half2 F)

/-! ## The buffer contents between segments -/

/-- Each core's buffers at launch. -/
abbrev W0 : Dev nD → Valuation τ sig (Elt F) := fun c b => (s₀ m ρ).mem ((c : Dev nD), b)

/-- After the host stretch before pallas_call 0: the contents pallas_call 0 is entered with. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After pallas_call 0: its arrays at what its write-backs leave, every other buffer as it was entered. -/
def W2 (c : Dev nD) : Valuation τ sig (Elt F) :=
  Pipeline.withArrays spec0 c (W1 m ρ c) fun w => (H0.dat (V1 m ρ) c).arrAt w cfg0.N
theorem W2_arr (c : Dev nD) (w : Fin cfg0.W) :
    W2 m ρ H0 c (Proc.devRef .tc (Pipeline.arrRef spec0 w)) = (H0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ H0 c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ H0 c b
theorem hF0 (c : Dev nD) (w : Fin cfg0.W) : (H0.dat (V1 m ρ) c).arrAt w cfg0.N = V2 m ρ H0 c (Pipeline.arrRef spec0 w) :=
  (W2_arr m ρ H0 c w).symm
theorem hrest0 (c : Dev nD) : ∀ b, b ∉ Finset.univ.image (Pipeline.arrRef spec0) → V2 m ρ H0 c b = V1 m ρ c b :=
  fun b hb => W2_of_ne m ρ H0 c b fun w e => hb (Finset.mem_image.mpr ⟨w, Finset.mem_univ _, e⟩)

/-- After the host stretch before pallas_call 1: the contents pallas_call 1 is entered with. -/
abbrev W3 : Dev nD → Valuation τ sig (Elt F) := fun c => StableHlo.after hostOps1 (W2 m ρ H0 c)
/-- The same read at the TensorCore's references. -/
abbrev V3 : (c : Dev nD) → (b : Ref sig .tc) → Buf (Elt F) ((c : Thread nD τ).loc b) := fun c b => W3 m ρ H0 c b
/-- After pallas_call 1: its arrays at what its write-backs leave, every other buffer as it was entered. -/
def W4 (c : Dev nD) : Valuation τ sig (Elt F) :=
  Pipeline.withArrays spec1 c (W3 m ρ H0 c) fun w => (H1.dat (V3 m ρ H0) c).arrAt w cfg1.N
theorem W4_arr (c : Dev nD) (w : Fin cfg1.W) :
    W4 m ρ H0 H1 c (Proc.devRef .tc (Pipeline.arrRef spec1 w)) = (H1.dat (V3 m ρ H0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ H0 H1 c (Proc.devRef .tc b) = W3 m ρ H0 c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ H0 H1 c b
theorem hF1 (c : Dev nD) (w : Fin cfg1.W) : (H1.dat (V3 m ρ H0) c).arrAt w cfg1.N = V4 m ρ H0 H1 c (Pipeline.arrRef spec1 w) :=
  (W4_arr m ρ H0 H1 c w).symm
theorem hrest1 (c : Dev nD) : ∀ b, b ∉ Finset.univ.image (Pipeline.arrRef spec1) → V4 m ρ H0 H1 c b = V3 m ρ H0 c b :=
  fun b hb => W4_of_ne m ρ H0 H1 c b fun w e => hb (Finset.mem_image.mpr ⟨w, Finset.mem_univ _, e⟩)

/-- After the host stretch before pallas_call 2: the contents pallas_call 2 is entered with. -/
abbrev W5 : Dev nD → Valuation τ sig (Elt F) := fun c => StableHlo.after hostOps2 (W4 m ρ H0 H1 c)
/-- The same read at the TensorCore's references. -/
abbrev V5 : (c : Dev nD) → (b : Ref sig .tc) → Buf (Elt F) ((c : Thread nD τ).loc b) := fun c b => W5 m ρ H0 H1 c b
/-- After pallas_call 2: its arrays at what its write-backs leave, every other buffer as it was entered. -/
def W6 (c : Dev nD) : Valuation τ sig (Elt F) :=
  Pipeline.withArrays spec2 c (W5 m ρ H0 H1 c) fun w => (H2.dat (V5 m ρ H0 H1) c).arrAt w cfg2.N
theorem W6_arr (c : Dev nD) (w : Fin cfg2.W) :
    W6 m ρ H0 H1 H2 c (Proc.devRef .tc (Pipeline.arrRef spec2 w)) = (H2.dat (V5 m ρ H0 H1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ H0 H1 H2 c (Proc.devRef .tc b) = W5 m ρ H0 H1 c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ H0 H1 H2 c b
theorem hF2 (c : Dev nD) (w : Fin cfg2.W) : (H2.dat (V5 m ρ H0 H1) c).arrAt w cfg2.N = V6 m ρ H0 H1 H2 c (Pipeline.arrRef spec2 w) :=
  (W6_arr m ρ H0 H1 H2 c w).symm
theorem hrest2 (c : Dev nD) : ∀ b, b ∉ Finset.univ.image (Pipeline.arrRef spec2) → V6 m ρ H0 H1 H2 c b = V5 m ρ H0 H1 c b :=
  fun b hb => W6_of_ne m ρ H0 H1 H2 c b fun w e => hb (Finset.mem_image.mpr ⟨w, Finset.mem_univ _, e⟩)

/-! ## No segment writes an argument -/

/-- No operation of a host stretch writes the reference in question: each writes one result buffer, a different one. -/
macro "host_keeps" : tactic => `(tactic| (
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W6_main_arg0 (c : Dev nD) : W6 m ρ H0 H1 H2 c (Proc.devRef .tc main_arg0) = m ((c : Thread nD τ).loc main_arg0) :=
  calc W6 m ρ H0 H1 H2 c (Proc.devRef .tc main_arg0)
    _ = W5 m ρ H0 H1 c (Proc.devRef .tc main_arg0) := W6_of_ne m ρ H0 H1 H2 c main_arg0 (by decide)
    _ = W4 m ρ H0 H1 c (Proc.devRef .tc main_arg0) := StableHlo.after_of_forall_not_mem (b := Proc.devRef .tc main_arg0) _ _ (List.forall_iff_forall_mem.mp (by host_keeps))
    _ = W3 m ρ H0 c (Proc.devRef .tc main_arg0) := W4_of_ne m ρ H0 H1 c main_arg0 (by decide)
    _ = W2 m ρ H0 c (Proc.devRef .tc main_arg0) := StableHlo.after_of_forall_not_mem (b := Proc.devRef .tc main_arg0) _ _ (List.forall_iff_forall_mem.mp (by host_keeps))
    _ = W1 m ρ c (Proc.devRef .tc main_arg0) := (W2_arr m ρ H0 c 0).trans (((H0.dat (V1 m ρ) c).arrAt_in 0 rfl _).trans (H0.hA (V1 m ρ) c 0))
    _ = W0 m ρ c (Proc.devRef .tc main_arg0) := StableHlo.after_of_forall_not_mem (b := Proc.devRef .tc main_arg0) _ _ (List.forall_iff_forall_mem.mp (by host_keeps))
    _ = m ((c : Thread nD τ).loc main_arg0) := rfl

theorem W6_main_arg1 (c : Dev nD) : W6 m ρ H0 H1 H2 c (Proc.devRef .tc main_arg1) = m ((c : Thread nD τ).loc main_arg1) :=
  calc W6 m ρ H0 H1 H2 c (Proc.devRef .tc main_arg1)
    _ = W5 m ρ H0 H1 c (Proc.devRef .tc main_arg1) := W6_of_ne m ρ H0 H1 H2 c main_arg1 (by decide)
    _ = W4 m ρ H0 H1 c (Proc.devRef .tc main_arg1) := StableHlo.after_of_forall_not_mem (b := Proc.devRef .tc main_arg1) _ _ (List.forall_iff_forall_mem.mp (by host_keeps))
    _ = W3 m ρ H0 c (Proc.devRef .tc main_arg1) := (W4_arr m ρ H0 H1 c 0).trans (((H1.dat (V3 m ρ H0) c).arrAt_in 0 rfl _).trans (H1.hA (V3 m ρ H0) c 0))
    _ = W2 m ρ H0 c (Proc.devRef .tc main_arg1) := StableHlo.after_of_forall_not_mem (b := Proc.devRef .tc main_arg1) _ _ (List.forall_iff_forall_mem.mp (by host_keeps))
    _ = W1 m ρ c (Proc.devRef .tc main_arg1) := W2_of_ne m ρ H0 c main_arg1 (by decide)
    _ = W0 m ρ c (Proc.devRef .tc main_arg1) := StableHlo.after_of_forall_not_mem (b := Proc.devRef .tc main_arg1) _ _ (List.forall_iff_forall_mem.mp (by host_keeps))
    _ = m ((c : Thread nD τ).loc main_arg1) := rfl

theorem W6_main_arg2 (c : Dev nD) : W6 m ρ H0 H1 H2 c (Proc.devRef .tc main_arg2) = m ((c : Thread nD τ).loc main_arg2) :=
  calc W6 m ρ H0 H1 H2 c (Proc.devRef .tc main_arg2)
    _ = W5 m ρ H0 H1 c (Proc.devRef .tc main_arg2) := W6_of_ne m ρ H0 H1 H2 c main_arg2 (by decide)
    _ = W4 m ρ H0 H1 c (Proc.devRef .tc main_arg2) := StableHlo.after_of_forall_not_mem (b := Proc.devRef .tc main_arg2) _ _ (List.forall_iff_forall_mem.mp (by host_keeps))
    _ = W3 m ρ H0 c (Proc.devRef .tc main_arg2) := W4_of_ne m ρ H0 H1 c main_arg2 (by decide)
    _ = W2 m ρ H0 c (Proc.devRef .tc main_arg2) := StableHlo.after_of_forall_not_mem (b := Proc.devRef .tc main_arg2) _ _ (List.forall_iff_forall_mem.mp (by host_keeps))
    _ = W1 m ρ c (Proc.devRef .tc main_arg2) := W2_of_ne m ρ H0 c main_arg2 (by decide)
    _ = W0 m ρ c (Proc.devRef .tc main_arg2) := StableHlo.after_of_forall_not_mem (b := Proc.devRef .tc main_arg2) _ _ (List.forall_iff_forall_mem.mp (by host_keeps))
    _ = m ((c : Thread nD τ).loc main_arg2) := rfl

theorem W6_main_arg3 (c : Dev nD) : W6 m ρ H0 H1 H2 c (Proc.devRef .tc main_arg3) = m ((c : Thread nD τ).loc main_arg3) :=
  calc W6 m ρ H0 H1 H2 c (Proc.devRef .tc main_arg3)
    _ = W5 m ρ H0 H1 c (Proc.devRef .tc main_arg3) := W6_of_ne m ρ H0 H1 H2 c main_arg3 (by decide)
    _ = W4 m ρ H0 H1 c (Proc.devRef .tc main_arg3) := StableHlo.after_of_forall_not_mem (b := Proc.devRef .tc main_arg3) _ _ (List.forall_iff_forall_mem.mp (by host_keeps))
    _ = W3 m ρ H0 c (Proc.devRef .tc main_arg3) := W4_of_ne m ρ H0 H1 c main_arg3 (by decide)
    _ = W2 m ρ H0 c (Proc.devRef .tc main_arg3) := StableHlo.after_of_forall_not_mem (b := Proc.devRef .tc main_arg3) _ _ (List.forall_iff_forall_mem.mp (by host_keeps))
    _ = W1 m ρ c (Proc.devRef .tc main_arg3) := W2_of_ne m ρ H0 c main_arg3 (by decide)
    _ = W0 m ρ c (Proc.devRef .tc main_arg3) := StableHlo.after_of_forall_not_mem (b := Proc.devRef .tc main_arg3) _ _ (List.forall_iff_forall_mem.mp (by host_keeps))
    _ = m ((c : Thread nD τ).loc main_arg3) := rfl

theorem W6_main_arg4 (c : Dev nD) : W6 m ρ H0 H1 H2 c (Proc.devRef .tc main_arg4) = m ((c : Thread nD τ).loc main_arg4) :=
  calc W6 m ρ H0 H1 H2 c (Proc.devRef .tc main_arg4)
    _ = W5 m ρ H0 H1 c (Proc.devRef .tc main_arg4) := W6_of_ne m ρ H0 H1 H2 c main_arg4 (by decide)
    _ = W4 m ρ H0 H1 c (Proc.devRef .tc main_arg4) := StableHlo.after_of_forall_not_mem (b := Proc.devRef .tc main_arg4) _ _ (List.forall_iff_forall_mem.mp (by host_keeps))
    _ = W3 m ρ H0 c (Proc.devRef .tc main_arg4) := W4_of_ne m ρ H0 H1 c main_arg4 (by decide)
    _ = W2 m ρ H0 c (Proc.devRef .tc main_arg4) := StableHlo.after_of_forall_not_mem (b := Proc.devRef .tc main_arg4) _ _ (List.forall_iff_forall_mem.mp (by host_keeps))
    _ = W1 m ρ c (Proc.devRef .tc main_arg4) := W2_of_ne m ρ H0 c main_arg4 (by decide)
    _ = W0 m ρ c (Proc.devRef .tc main_arg4) := StableHlo.after_of_forall_not_mem (b := Proc.devRef .tc main_arg4) _ _ (List.forall_iff_forall_mem.mp (by host_keeps))
    _ = m ((c : Thread nD τ).loc main_arg4) := rfl

theorem W6_main_arg5 (c : Dev nD) : W6 m ρ H0 H1 H2 c (Proc.devRef .tc main_arg5) = m ((c : Thread nD τ).loc main_arg5) :=
  calc W6 m ρ H0 H1 H2 c (Proc.devRef .tc main_arg5)
    _ = W5 m ρ H0 H1 c (Proc.devRef .tc main_arg5) := W6_of_ne m ρ H0 H1 H2 c main_arg5 (by decide)
    _ = W4 m ρ H0 H1 c (Proc.devRef .tc main_arg5) := StableHlo.after_of_forall_not_mem (b := Proc.devRef .tc main_arg5) _ _ (List.forall_iff_forall_mem.mp (by host_keeps))
    _ = W3 m ρ H0 c (Proc.devRef .tc main_arg5) := W4_of_ne m ρ H0 H1 c main_arg5 (by decide)
    _ = W2 m ρ H0 c (Proc.devRef .tc main_arg5) := StableHlo.after_of_forall_not_mem (b := Proc.devRef .tc main_arg5) _ _ (List.forall_iff_forall_mem.mp (by host_keeps))
    _ = W1 m ρ c (Proc.devRef .tc main_arg5) := W2_of_ne m ρ H0 c main_arg5 (by decide)
    _ = W0 m ρ c (Proc.devRef .tc main_arg5) := StableHlo.after_of_forall_not_mem (b := Proc.devRef .tc main_arg5) _ _ (List.forall_iff_forall_mem.mp (by host_keeps))
    _ = m ((c : Thread nD τ).loc main_arg5) := rfl

theorem W6_main_arg6 (c : Dev nD) : W6 m ρ H0 H1 H2 c (Proc.devRef .tc main_arg6) = m ((c : Thread nD τ).loc main_arg6) :=
  calc W6 m ρ H0 H1 H2 c (Proc.devRef .tc main_arg6)
    _ = W5 m ρ H0 H1 c (Proc.devRef .tc main_arg6) := W6_of_ne m ρ H0 H1 H2 c main_arg6 (by decide)
    _ = W4 m ρ H0 H1 c (Proc.devRef .tc main_arg6) := StableHlo.after_of_forall_not_mem (b := Proc.devRef .tc main_arg6) _ _ (List.forall_iff_forall_mem.mp (by host_keeps))
    _ = W3 m ρ H0 c (Proc.devRef .tc main_arg6) := W4_of_ne m ρ H0 H1 c main_arg6 (by decide)
    _ = W2 m ρ H0 c (Proc.devRef .tc main_arg6) := StableHlo.after_of_forall_not_mem (b := Proc.devRef .tc main_arg6) _ _ (List.forall_iff_forall_mem.mp (by host_keeps))
    _ = W1 m ρ c (Proc.devRef .tc main_arg6) := W2_of_ne m ρ H0 c main_arg6 (by decide)
    _ = W0 m ρ c (Proc.devRef .tc main_arg6) := StableHlo.after_of_forall_not_mem (b := Proc.devRef .tc main_arg6) _ _ (List.forall_iff_forall_mem.mp (by host_keeps))
    _ = m ((c : Thread nD τ).loc main_arg6) := rfl

theorem W6_main_arg7 (c : Dev nD) : W6 m ρ H0 H1 H2 c (Proc.devRef .tc main_arg7) = m ((c : Thread nD τ).loc main_arg7) :=
  calc W6 m ρ H0 H1 H2 c (Proc.devRef .tc main_arg7)
    _ = W5 m ρ H0 H1 c (Proc.devRef .tc main_arg7) := W6_of_ne m ρ H0 H1 H2 c main_arg7 (by decide)
    _ = W4 m ρ H0 H1 c (Proc.devRef .tc main_arg7) := StableHlo.after_of_forall_not_mem (b := Proc.devRef .tc main_arg7) _ _ (List.forall_iff_forall_mem.mp (by host_keeps))
    _ = W3 m ρ H0 c (Proc.devRef .tc main_arg7) := W4_of_ne m ρ H0 H1 c main_arg7 (by decide)
    _ = W2 m ρ H0 c (Proc.devRef .tc main_arg7) := StableHlo.after_of_forall_not_mem (b := Proc.devRef .tc main_arg7) _ _ (List.forall_iff_forall_mem.mp (by host_keeps))
    _ = W1 m ρ c (Proc.devRef .tc main_arg7) := W2_of_ne m ρ H0 c main_arg7 (by decide)
    _ = W0 m ρ c (Proc.devRef .tc main_arg7) := StableHlo.after_of_forall_not_mem (b := Proc.devRef .tc main_arg7) _ _ (List.forall_iff_forall_mem.mp (by host_keeps))
    _ = m ((c : Thread nD τ).loc main_arg7) := rfl

theorem W6_main_arg8 (c : Dev nD) : W6 m ρ H0 H1 H2 c (Proc.devRef .tc main_arg8) = m ((c : Thread nD τ).loc main_arg8) :=
  calc W6 m ρ H0 H1 H2 c (Proc.devRef .tc main_arg8)
    _ = W5 m ρ H0 H1 c (Proc.devRef .tc main_arg8) := W6_of_ne m ρ H0 H1 H2 c main_arg8 (by decide)
    _ = W4 m ρ H0 H1 c (Proc.devRef .tc main_arg8) := StableHlo.after_of_forall_not_mem (b := Proc.devRef .tc main_arg8) _ _ (List.forall_iff_forall_mem.mp (by host_keeps))
    _ = W3 m ρ H0 c (Proc.devRef .tc main_arg8) := W4_of_ne m ρ H0 H1 c main_arg8 (by decide)
    _ = W2 m ρ H0 c (Proc.devRef .tc main_arg8) := StableHlo.after_of_forall_not_mem (b := Proc.devRef .tc main_arg8) _ _ (List.forall_iff_forall_mem.mp (by host_keeps))
    _ = W1 m ρ c (Proc.devRef .tc main_arg8) := W2_of_ne m ρ H0 c main_arg8 (by decide)
    _ = W0 m ρ c (Proc.devRef .tc main_arg8) := StableHlo.after_of_forall_not_mem (b := Proc.devRef .tc main_arg8) _ _ (List.forall_iff_forall_mem.mp (by host_keeps))
    _ = m ((c : Thread nD τ).loc main_arg8) := rfl

theorem W6_main_arg9 (c : Dev nD) : W6 m ρ H0 H1 H2 c (Proc.devRef .tc main_arg9) = m ((c : Thread nD τ).loc main_arg9) :=
  calc W6 m ρ H0 H1 H2 c (Proc.devRef .tc main_arg9)
    _ = W5 m ρ H0 H1 c (Proc.devRef .tc main_arg9) := W6_of_ne m ρ H0 H1 H2 c main_arg9 (by decide)
    _ = W4 m ρ H0 H1 c (Proc.devRef .tc main_arg9) := StableHlo.after_of_forall_not_mem (b := Proc.devRef .tc main_arg9) _ _ (List.forall_iff_forall_mem.mp (by host_keeps))
    _ = W3 m ρ H0 c (Proc.devRef .tc main_arg9) := W4_of_ne m ρ H0 H1 c main_arg9 (by decide)
    _ = W2 m ρ H0 c (Proc.devRef .tc main_arg9) := StableHlo.after_of_forall_not_mem (b := Proc.devRef .tc main_arg9) _ _ (List.forall_iff_forall_mem.mp (by host_keeps))
    _ = W1 m ρ c (Proc.devRef .tc main_arg9) := W2_of_ne m ρ H0 c main_arg9 (by decide)
    _ = W0 m ρ c (Proc.devRef .tc main_arg9) := StableHlo.after_of_forall_not_mem (b := Proc.devRef .tc main_arg9) _ _ (List.forall_iff_forall_mem.mp (by host_keeps))
    _ = m ((c : Thread nD τ).loc main_arg9) := rfl

theorem W6_main_arg10 (c : Dev nD) : W6 m ρ H0 H1 H2 c (Proc.devRef .tc main_arg10) = m ((c : Thread nD τ).loc main_arg10) :=
  calc W6 m ρ H0 H1 H2 c (Proc.devRef .tc main_arg10)
    _ = W5 m ρ H0 H1 c (Proc.devRef .tc main_arg10) := W6_of_ne m ρ H0 H1 H2 c main_arg10 (by decide)
    _ = W4 m ρ H0 H1 c (Proc.devRef .tc main_arg10) := StableHlo.after_of_forall_not_mem (b := Proc.devRef .tc main_arg10) _ _ (List.forall_iff_forall_mem.mp (by host_keeps))
    _ = W3 m ρ H0 c (Proc.devRef .tc main_arg10) := W4_of_ne m ρ H0 H1 c main_arg10 (by decide)
    _ = W2 m ρ H0 c (Proc.devRef .tc main_arg10) := StableHlo.after_of_forall_not_mem (b := Proc.devRef .tc main_arg10) _ _ (List.forall_iff_forall_mem.mp (by host_keeps))
    _ = W1 m ρ c (Proc.devRef .tc main_arg10) := W2_of_ne m ρ H0 c main_arg10 (by decide)
    _ = W0 m ρ c (Proc.devRef .tc main_arg10) := StableHlo.after_of_forall_not_mem (b := Proc.devRef .tc main_arg10) _ _ (List.forall_iff_forall_mem.mp (by host_keeps))
    _ = m ((c : Thread nD τ).loc main_arg10) := rfl

theorem W6_main_arg11 (c : Dev nD) : W6 m ρ H0 H1 H2 c (Proc.devRef .tc main_arg11) = m ((c : Thread nD τ).loc main_arg11) :=
  calc W6 m ρ H0 H1 H2 c (Proc.devRef .tc main_arg11)
    _ = W5 m ρ H0 H1 c (Proc.devRef .tc main_arg11) := W6_of_ne m ρ H0 H1 H2 c main_arg11 (by decide)
    _ = W4 m ρ H0 H1 c (Proc.devRef .tc main_arg11) := StableHlo.after_of_forall_not_mem (b := Proc.devRef .tc main_arg11) _ _ (List.forall_iff_forall_mem.mp (by host_keeps))
    _ = W3 m ρ H0 c (Proc.devRef .tc main_arg11) := W4_of_ne m ρ H0 H1 c main_arg11 (by decide)
    _ = W2 m ρ H0 c (Proc.devRef .tc main_arg11) := StableHlo.after_of_forall_not_mem (b := Proc.devRef .tc main_arg11) _ _ (List.forall_iff_forall_mem.mp (by host_keeps))
    _ = W1 m ρ c (Proc.devRef .tc main_arg11) := W2_of_ne m ρ H0 c main_arg11 (by decide)
    _ = W0 m ρ c (Proc.devRef .tc main_arg11) := StableHlo.after_of_forall_not_mem (b := Proc.devRef .tc main_arg11) _ _ (List.forall_iff_forall_mem.mp (by host_keeps))
    _ = m ((c : Thread nD τ).loc main_arg11) := rfl

/-! ## The proof data family and the thread state -/

/-- No pallas_call has a prefetched table. -/
abbrev adm : (p : Fin 3) → (pcfgs (F := F) p).Adm := fun p => (cfgs p).toPCfg_adm
/-- Each pallas_call's proof data at the contents it is entered with. -/
def pdats : (p : Fin 3) → (c : Dev nD) → Dat τ (Elt F) Unit ℕ (UR sig nD τ) ℕ (Pipeline.pin (pcfgs (F := F)) adm p) c
  | ⟨0, _⟩ => fun c => H0.dat (V1 m ρ) c
  | ⟨1, _⟩ => fun c => H1.dat (V3 m ρ H0) c
  | ⟨2, _⟩ => fun c => H2.dat (V5 m ρ H0 H1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last fold, the generator register at some state. -/
abbrev Tₙ (c : Dev nD) : sProp 𝕄 := iprop(StableHlo.held (c : Thread nD τ) (Pipeline.ucRefs τ sig) (W6 m ρ H0 H1 H2 c) ∗ ∃ r, prngReg c r)

/-! ## The pallas_calls as segments -/

set_option backward.isDefEq.respectTransparency.types false in
/-- Pallas_call 0 as a segment: entered with every unscoped buffer at the contents the host stretch before it left, left
    with its arrays at what its write-backs leave and every other buffer as entered; the generator register goes into
    the invariant and comes back; the core owes nothing; the kernel has no semaphore of its own. -/
def reg0 : Pipeline.RegionSeg (pcfgs (F := F)) adm (pdats m ρ H0 H1 H2) () defs₀ 𝒱₀ L lv 0 where
  win := launch0.win.to₀
  block_pos := launch0.block_pos
  stage_whole := launch0.stage_whole
  K := PEmpty
  osem k := k.elim
  ho := Pipeline.OwnSemFacts.none _
  hbody c := (H0.hbody (V1 m ρ) c).loose
  hwaits := Pipeline.hwaits_of_owed_zero _ _ _ _ L lv 0 fun c t => H0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ H0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ H0 H1 H2) launch0.win launch0.arr_whole c
      ((pdats m ρ H0 H1 H2 0 c).share_full fun w => H0.hq (V1 m ρ) c w) (V1 m ρ c) fun w => H0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 H2 0 c).owed 0 = 0 from H0.howed (V1 m ρ) c 0]
      icases HO with ⟨%W, HO⟩; iexists W; isplitr
      · ipureintro; intro x _; exact Or.inl (by rw [show (pdats m ρ H0 H1 H2 0 c).recorded 0 = Set.univ from H0.hrec (V1 m ρ) c 0]; trivial)
      iexact HO
    isplitl [Hp]; · iexact Hp
    iexact Hrest
  hin c := by
    refine BIBase.Entails.trans ?_ (H0.hin (V1 m ρ) c)
    unfold Pipeline.ΦA
    iintro ⟨Hp, -, Hr⟩
    isplitl [Hr]; · iexact Hr
    iexact Hp
  hout c := by
    rw [Pipeline.ownSems0_none]
    refine BIBase.Entails.trans (H0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ H0 H1 H2) ((pdats m ρ H0 H1 H2 0 c).share_full fun w => H0.hq (V1 m ρ) c w)
      (V1 m ρ c) (V2 m ρ H0 c) ((pdats m ρ H0 H1 H2 0 c).arrAt · cfg0.N) (hF0 m ρ H0 c) (hrest0 m ρ H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ H0 H1 H2 0 c).owed (Fin.last _) = 0 from H0.howed (V1 m ρ) c _]
    icases HO with ⟨%W, -, HO⟩; iexists W; iexact HO

set_option backward.isDefEq.respectTransparency.types false in
/-- Pallas_call 1 as a segment: entered with every unscoped buffer at the contents the host stretch before it left, left
    with its arrays at what its write-backs leave and every other buffer as entered; the generator register goes into
    the invariant and comes back; the core owes nothing; the kernel has no semaphore of its own. -/
def reg1 : Pipeline.RegionSeg (pcfgs (F := F)) adm (pdats m ρ H0 H1 H2) () defs₀ 𝒱₀ L lv 1 where
  win := launch1.win.to₀
  block_pos := launch1.block_pos
  stage_whole := launch1.stage_whole
  K := PEmpty
  osem k := k.elim
  ho := Pipeline.OwnSemFacts.none _
  hbody c := (H1.hbody (V3 m ρ H0) c).loose
  hwaits := Pipeline.hwaits_of_owed_zero _ _ _ _ L lv 1 fun c t => H1.howed (V3 m ρ H0) c t
  pre c := iprop(StableHlo.held (c : Thread nD τ) (Pipeline.ucRefs τ sig) (W3 m ρ H0 c) ∗ R c)
  post c := iprop(StableHlo.held (c : Thread nD τ) (Pipeline.ucRefs τ sig) (W4 m ρ H0 H1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ H0 c)
  hentry c := by
    rw [Pipeline.ownSems0_none]
    have hsplit := Pipeline.arrays_of_unscopedBufs (p := 1) (pcfgs (F := F)) adm (pdats m ρ H0 H1 H2) launch1.win launch1.arr_whole c
      ((pdats m ρ H0 H1 H2 1 c).share_full fun w => H1.hq (V3 m ρ H0) c w) (V3 m ρ H0 c) fun w => H1.hA (V3 m ρ H0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 H2 1 c).owed 0 = 0 from H1.howed (V3 m ρ H0) c 0]
      icases HO with ⟨%W, HO⟩; iexists W; isplitr
      · ipureintro; intro x _; exact Or.inl (by rw [show (pdats m ρ H0 H1 H2 1 c).recorded 0 = Set.univ from H1.hrec (V3 m ρ H0) c 0]; trivial)
      iexact HO
    isplitl [Hp]; · iexact Hp
    iexact Hrest
  hin c := by
    refine BIBase.Entails.trans ?_ (H1.hin (V3 m ρ H0) c)
    unfold Pipeline.ΦA
    iintro ⟨Hp, -, Hr⟩
    isplitl [Hr]; · iexact Hr
    iexact Hp
  hout c := by
    rw [Pipeline.ownSems0_none]
    refine BIBase.Entails.trans (H1.hout (V3 m ρ H0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ H0 H1 H2) ((pdats m ρ H0 H1 H2 1 c).share_full fun w => H1.hq (V3 m ρ H0) c w)
      (V3 m ρ H0 c) (V4 m ρ H0 H1 c) ((pdats m ρ H0 H1 H2 1 c).arrAt · cfg1.N) (hF1 m ρ H0 H1 c) (hrest1 m ρ H0 H1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ H0 H1 H2 1 c).owed (Fin.last _) = 0 from H1.howed (V3 m ρ H0) c _]
    icases HO with ⟨%W, -, HO⟩; iexists W; iexact HO

set_option backward.isDefEq.respectTransparency.types false in
/-- Pallas_call 2 as a segment: entered with every unscoped buffer at the contents the host stretch before it left, left
    with its arrays at what its write-backs leave and every other buffer as entered; the generator register goes into
    the invariant and comes back; the core owes nothing; the kernel has no semaphore of its own. -/
def reg2 : Pipeline.RegionSeg (pcfgs (F := F)) adm (pdats m ρ H0 H1 H2) () defs₀ 𝒱₀ L lv 2 where
  win := launch2.win.to₀
  block_pos := launch2.block_pos
  stage_whole := launch2.stage_whole
  K := PEmpty
  osem k := k.elim
  ho := Pipeline.OwnSemFacts.none _
  hbody c := (H2.hbody (V5 m ρ H0 H1) c).loose
  hwaits := Pipeline.hwaits_of_owed_zero _ _ _ _ L lv 2 fun c t => H2.howed (V5 m ρ H0 H1) c t
  pre c := iprop(StableHlo.held (c : Thread nD τ) (Pipeline.ucRefs τ sig) (W5 m ρ H0 H1 c) ∗ R c)
  post c := iprop(Tₙ m ρ H0 H1 H2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ H0 H1 c)
  hentry c := by
    rw [Pipeline.ownSems0_none]
    have hsplit := Pipeline.arrays_of_unscopedBufs (p := 2) (pcfgs (F := F)) adm (pdats m ρ H0 H1 H2) launch2.win launch2.arr_whole c
      ((pdats m ρ H0 H1 H2 2 c).share_full fun w => H2.hq (V5 m ρ H0 H1) c w) (V5 m ρ H0 H1 c) fun w => H2.hA (V5 m ρ H0 H1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 H2 2 c).owed 0 = 0 from H2.howed (V5 m ρ H0 H1) c 0]
      icases HO with ⟨%W, HO⟩; iexists W; isplitr
      · ipureintro; intro x _; exact Or.inl (by rw [show (pdats m ρ H0 H1 H2 2 c).recorded 0 = Set.univ from H2.hrec (V5 m ρ H0 H1) c 0]; trivial)
      iexact HO
    isplitl [Hp]; · iexact Hp
    iexact Hrest
  hin c := by
    refine BIBase.Entails.trans ?_ (H2.hin (V5 m ρ H0 H1) c)
    unfold Pipeline.ΦA
    iintro ⟨Hp, -, Hr⟩
    isplitl [Hr]; · iexact Hr
    iexact Hp
  hout c := by
    rw [Pipeline.ownSems0_none]
    refine BIBase.Entails.trans (H2.hout (V5 m ρ H0 H1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ H0 H1 H2) ((pdats m ρ H0 H1 H2 2 c).share_full fun w => H2.hq (V5 m ρ H0 H1) c w)
      (V5 m ρ H0 H1 c) (V6 m ρ H0 H1 H2 c) ((pdats m ρ H0 H1 H2 2 c).arrAt · cfg2.N) (hF2 m ρ H0 H1 H2 c) (hrest2 m ρ H0 H1 H2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ H0 H1 H2 2 c).owed (Fin.last _) = 0 from H2.howed (V5 m ρ H0 H1) c _]
    icases HO with ⟨%W, -, HO⟩; iexists W; iexact HO

/-! ## The program as segments, and the launch -/

abbrev segs : List (Pipeline.Seg (pcfgs (F := F)) adm (pdats m ρ H0 H1 H2) () defs₀ 𝒱₀ L lv) :=
  [ .host (hseg hostOps0 hostOps0_sub hostOps0_fresh (W0 m ρ)),
    .region (reg0 m ρ H0 H1 H2),
    .host (hseg hostOps1 hostOps1_sub hostOps1_fresh (W2 m ρ H0)),
    .region (reg1 m ρ H0 H1 H2),
    .host (hseg hostOps2 hostOps2_sub hostOps2_fresh (W4 m ρ H0 H1)),
    .region (reg2 m ρ H0 H1 H2) ]
/-- The program is the run of its segments. -/
theorem main_run (c : Dev nD) : main (F := F) c = Pipeline.Seg.run (segs m ρ H0 H1 H2) := (main_chain c).trans (by chain_rfl)

set_option backward.isDefEq.respectTransparency.types false in
/-- THE RUN: every weakly fair execution of the program from memory `m` with zero counters terminates, nothing
    faulting, and every final memory holds every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ H0 H1 H2 c b) :=
  Pipeline.θ_run_regions_kit (pcfgs (F := F)) adm (pdats m ρ H0 H1 H2) () cellOf_inj emb₁ defs₀ 𝒱₀ L lv m ρ main (segs m ρ H0 H1 H2)
    (fun c Q => by rw [main_run m ρ H0 H1 H2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ H0 H1 H2)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ H0 H1 H2 c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ H0 H1 H2 c) s')
      isplitl [Hh] <;> iassumption)
    (hQ := fun s h c => h c)

include H0 H1 H2 in
/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ H0 H1 H2 c),
    (h c _ (mem_uc main_arg1 (by decide))).trans (W6_main_arg1 m ρ H0 H1 H2 c),
    (h c _ (mem_uc main_arg2 (by decide))).trans (W6_main_arg2 m ρ H0 H1 H2 c),
    (h c _ (mem_uc main_arg3 (by decide))).trans (W6_main_arg3 m ρ H0 H1 H2 c),
    (h c _ (mem_uc main_arg4 (by decide))).trans (W6_main_arg4 m ρ H0 H1 H2 c),
    (h c _ (mem_uc main_arg5 (by decide))).trans (W6_main_arg5 m ρ H0 H1 H2 c),
    (h c _ (mem_uc main_arg6 (by decide))).trans (W6_main_arg6 m ρ H0 H1 H2 c),
    (h c _ (mem_uc main_arg7 (by decide))).trans (W6_main_arg7 m ρ H0 H1 H2 c),
    (h c _ (mem_uc main_arg8 (by decide))).trans (W6_main_arg8 m ρ H0 H1 H2 c),
    (h c _ (mem_uc main_arg9 (by decide))).trans (W6_main_arg9 m ρ H0 H1 H2 c),
    (h c _ (mem_uc main_arg10 (by decide))).trans (W6_main_arg10 m ρ H0 H1 H2 c),
    (h c _ (mem_uc main_arg11 (by decide))).trans (W6_main_arg11 m ρ H0 H1 H2 c)⟩) (run_all m ρ H0 H1 H2)

/-- The two result arrays at the end: what the last pallas_call's write-backs leave. -/
theorem W6_out0 (c : Dev nD) : W6 m ρ H0 H1 H2 c (Proc.devRef .tc main_v12_0) = (H2.dat (V5 m ρ H0 H1) c).arrAt 4 cfg2.N :=
  W6_arr m ρ H0 H1 H2 c 4
theorem W6_out1 (c : Dev nD) : W6 m ρ H0 H1 H2 c (Proc.devRef .tc main_v12_1) = (H2.dat (V5 m ρ H0 H1) c).arrAt 5 cfg2.N :=
  W6_arr m ρ H0 H1 H2 c 5

end Cert.Kernel.Fr

end
-- ==== Proof.K.Enc0.lean ====
/-
  The first encoder call's half of the frame, at any float instance.

  The call runs its body once per block of 256 rows. At each point the body reads five input windows — the block of
  rows and the four parameter arrays, whole — and writes one output window, the block of encoded rows. This file
  states, at an arbitrary content `V` of the core's buffers when the call is entered: what each window's block is
  (`iblk0`), what the body leaves in the output window's buffer as a function of the five input blocks
  (`out0_5`: the body's one store, which covers the whole buffer), the body's triple on whole staging buffers
  (`sound_kernel0`), the pipeline's proof data (`dat0`) and the body obligation at every point
  (`body_obligation0`).
-/
import proofs.«168271_j46969762349635_2_alg».proof.Proof.Gen.Kernel.Launch
import proofs.«168271_j46969762349635_2_alg».proof.Proof.Gen.Kernel.Skeleton
import proofs.«168271_j46969762349635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 4096 coordinates is decided one coordinate at a time
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered: everything below is stated at this parameter
variable (V : (c : Dev nD) → (b : Ref sig .tc) → Buf (Elt F) ((c : Thread nD τ).loc b))

/-! ## The windows' blocks -/

/-- Window `w`'s block at point `t`, read off the window's array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline fetched it
    there or not (when it did not, the block index has not moved since the fetch), for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the pipeline fetched it
    there or not (when it did not, the block index has not moved since the fetch), for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the pipeline fetched it
    there or not (when it did not, the block index has not moved since the fetch), for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, whether the pipeline fetched it
    there or not (when it did not, the block index has not moved since the fetch), for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block at every point, whether the pipeline fetched it
    there or not (when it did not, the block index has not moved since the fetch), for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer, whole -/

abbrev rA0 : Rect S256x1024 := Rect.unit (s := S256x1024) ![0, 0] S256x1024.size inb_S256x1024_S256x1024_0_0
abbrev rB0 : Rect S1024x4096 := Rect.unit (s := S1024x4096) ![0, 0] S1024x4096.size inb_S1024x4096_S1024x4096_0_0
abbrev rC0 : Rect S1x4096 := Rect.unit (s := S1x4096) ![0, 0] S1x4096.size inb_S1x4096_S1x4096_0_0
abbrev rD0 : Rect S4096x1024 := Rect.unit (s := S4096x1024) ![0, 0] S4096x1024.size inb_S4096x1024_S4096x1024_0_0
abbrev rE0 : Rect S1x1024 := Rect.unit (s := S1x1024) ![0, 0] S1x1024.size inb_S1x1024_S1x1024_0_0

/-! ## What the body leaves in the output window's buffer -/

/-- The output window's staging buffer after the body, from the five input blocks: the body's one store, of the
    encoded rows, over the whole buffer. -/
def out0_5 (x0 : Vec F S256x1024 .f32) (x1 : Vec F S1024x4096 .bf16) (x2 : Vec F S1x4096 .f32) (x3 : Vec F S4096x1024 .bf16) (x4 : Vec F S1x1024 .f32) : Vec F S256x1024 .bf16 :=
  View.canon [⟨rA0, k0_pay1 (View.ld x0 rA0) (View.ld x1 rB0) (View.ld x2 rC0) (View.ld x3 rD0) (View.ld x4 rE0)⟩]

/-- The one store's rectangle is the whole buffer, so it covers every index. -/
theorem cover0_5 (p0 : Vec F S256x1024 .bf16) (y : S256x1024.Idx) :
    ∃ pc ∈ ([⟨rA0, p0⟩] : List (View.Piece (Elt F) S256x1024 .bf16)), y ∈ pc.1.set :=
  View.cover_of_tiled [⟨rA0, p0⟩] S256x1024.size (by rfl) y

/-! ## The body's triple -/

set_option maxHeartbeats 1000000 in
/-- The body on whole staging buffers, the five inputs' at contents `x0 … x4` and the output's at anything, runs to
    a continuation that holds the inputs' as they were and the output's at `out0_5` of the inputs'. The body is
    five loads, a load of the output buffer whose value nothing reads, and one store of the payload. -/
theorem sound_kernel0 (c : Dev nD) (E : Set ℕ) (i : grid0.Coords) (arg1 : Memref sig .tc .vmem S256x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S256x1024 .bf16) (harg6 : arg6.IsWhole)
    (x0 : Vec F S256x1024 .f32) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__encode_kernel i arg1 harg1 arg2 harg2 arg3 harg3 arg4 harg4 arg5 harg5 arg6 harg6) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The call's proof data on core `c`: the arrays as the call finds them; after the body at point `t` each input
    window's buffer still at its block and the output window's at `out0_5` of the five input blocks; the invariant
    that leaves the rest of the core's state untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is handed at point `t`: the invariant, the core's debts, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input windows' buffers hold their blocks, so the body's triple applies; the invariant
    and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Enc1.lean ====
/-
  The second encoder call's half of the frame, at any float instance.

  The call runs its body once per block of 256 rows. At each point the body reads five input windows — the block of
  rows and the four parameter arrays, whole — and writes one output window, the block of encoded rows. This file
  states, at an arbitrary content `V` of the core's buffers when the call is entered: what each window's block is
  (`iblk1`), what the body leaves in the output window's buffer as a function of the five input blocks
  (`out1_5`: the body's one store, which covers the whole buffer), the body's triple on whole staging buffers
  (`sound_kernel1`), the pipeline's proof data (`dat1`) and the body obligation at every point
  (`body_obligation1`).
-/
import proofs.«168271_j46969762349635_2_alg».proof.Proof.Gen.Kernel.Launch
import proofs.«168271_j46969762349635_2_alg».proof.Proof.Gen.Kernel.Skeleton
import proofs.«168271_j46969762349635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 4096 coordinates is decided one coordinate at a time
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered: everything below is stated at this parameter
variable (V : (c : Dev nD) → (b : Ref sig .tc) → Buf (Elt F) ((c : Thread nD τ).loc b))

/-! ## The windows' blocks -/

/-- Window `w`'s block at point `t`, read off the window's array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the pipeline fetched it
    there or not (when it did not, the block index has not moved since the fetch), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the pipeline fetched it
    there or not (when it did not, the block index has not moved since the fetch), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the pipeline fetched it
    there or not (when it did not, the block index has not moved since the fetch), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the pipeline fetched it
    there or not (when it did not, the block index has not moved since the fetch), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether the pipeline fetched it
    there or not (when it did not, the block index has not moved since the fetch), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each staging buffer, whole -/

abbrev rA1 : Rect S256x1024 := Rect.unit (s := S256x1024) ![0, 0] S256x1024.size inb_S256x1024_S256x1024_0_0
abbrev rB1 : Rect S1024x4096 := Rect.unit (s := S1024x4096) ![0, 0] S1024x4096.size inb_S1024x4096_S1024x4096_0_0
abbrev rC1 : Rect S1x4096 := Rect.unit (s := S1x4096) ![0, 0] S1x4096.size inb_S1x4096_S1x4096_0_0
abbrev rD1 : Rect S4096x1024 := Rect.unit (s := S4096x1024) ![0, 0] S4096x1024.size inb_S4096x1024_S4096x1024_0_0
abbrev rE1 : Rect S1x1024 := Rect.unit (s := S1x1024) ![0, 0] S1x1024.size inb_S1x1024_S1x1024_0_0

/-! ## What the body leaves in the output window's buffer -/

/-- The output window's staging buffer after the body, from the five input blocks: the body's one store, of the
    encoded rows, over the whole buffer. -/
def out1_5 (x0 : Vec F S256x1024 .f32) (x1 : Vec F S1024x4096 .bf16) (x2 : Vec F S1x4096 .f32) (x3 : Vec F S4096x1024 .bf16) (x4 : Vec F S1x1024 .f32) : Vec F S256x1024 .bf16 :=
  View.canon [⟨rA1, k1_pay1 (View.ld x0 rA1) (View.ld x1 rB1) (View.ld x2 rC1) (View.ld x3 rD1) (View.ld x4 rE1)⟩]

/-- The one store's rectangle is the whole buffer, so it covers every index. -/
theorem cover1_5 (p0 : Vec F S256x1024 .bf16) (y : S256x1024.Idx) :
    ∃ pc ∈ ([⟨rA1, p0⟩] : List (View.Piece (Elt F) S256x1024 .bf16)), y ∈ pc.1.set :=
  View.cover_of_tiled [⟨rA1, p0⟩] S256x1024.size (by rfl) y

/-! ## The body's triple -/

set_option maxHeartbeats 1000000 in
/-- The body on whole staging buffers, the five inputs' at contents `x0 … x4` and the output's at anything, runs to
    a continuation that holds the inputs' as they were and the output's at `out1_5` of the inputs'. The body is
    five loads, a load of the output buffer whose value nothing reads, and one store of the payload. -/
theorem sound_kernel1 (c : Dev nD) (E : Set ℕ) (i : grid1.Coords) (arg1 : Memref sig .tc .vmem S256x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S256x1024 .bf16) (harg6 : arg6.IsWhole)
    (x0 : Vec F S256x1024 .f32) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__encode_kernel i arg1 harg1 arg2 harg2 arg3 harg3 arg4 harg4 arg5 harg5 arg6 harg6) K := by
  simp only [cc1__encode_kernel_eq_skeleton]; unfold cc1__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The call's proof data on core `c`: the arrays as the call finds them; after the body at point `t` each input
    window's buffer still at its block and the output window's at `out1_5` of the five input blocks; the invariant
    that leaves the rest of the core's state untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input window's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is handed at point `t`: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input windows' buffers hold their blocks, so the body's triple applies; the invariant
    and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Cos.Runs.lean ====
/-
  The cosine/value call (the third of the program's three pipelined calls; grid 2 x 8, point t = 8 i + j)
  — what its three whole-body runs and its frame share, at a parameter V: the contents of the core's
  buffers when the call is entered.

  Along a row i of the grid the body adds, for j = 0 .. 7, the 1024 x 1024 block of logits of the message
  block i against the speaker block j, weighted by the value weights, into a column accumulator of 1024
  numbers it keeps in a scratch buffer. At j = 0 it first sets the accumulator to zero; at j = 7 it adds the
  value bias, applies the logistic function and stores the column of values. The block of logits is stored
  at every point.
-/
import proofs.«168271_j46969762349635_2_alg».proof.Proof.Gen.Kernel.Launch
import proofs.«168271_j46969762349635_2_alg».proof.Proof.Gen.Kernel.Skeleton
import proofs.«168271_j46969762349635_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered
variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the block was fetched there or
    is the one fetched at an earlier point (its index has not moved since), for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the block was fetched there or
    is the one fetched at an earlier point (its index has not moved since), for any proof data whose array is the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the block was fetched there or
    is the one fetched at an earlier point (its index has not moved since), for any proof data whose array is the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the block was fetched there or
    is the one fetched at an earlier point (its index has not moved since), for any proof data whose array is the
    entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The first conditional's condition (the column coordinate is 0), as the body computes it from the coordinates. -/
abbrev cond2_0 (i : grid2.Coords) : Prop := (Scalar.cmpi .ne (Scalar.extui (Scalar.cmpi .eq (BitVec.ofNat 32 (i 1).val) 0#32)) 0#32) = 1#1
/-- It holds at the first point of each row of the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (the column coordinate is 7). -/
abbrev cond2_1 (i : grid2.Coords) : Prop := k2_cond2 i = 1#1
/-- It holds at the last point of each row of the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- At the first point of a row the column of values is not stored: window 5 is idle there, -/
theorem idleAt2_5_A : ∀ t : Fin cfg2.N, cond2_0 (grid2.coords t) → ¬cond2_1 (grid2.coords t) → cfg2.idle 5 (grid2.coords t) = true := by decide +kernel
/-- and is not written back. -/
theorem noFlush2_5_A : ∀ t : Fin cfg2.N, cond2_0 (grid2.coords t) → ¬cond2_1 (grid2.coords t) → (cfg2.win 5).flush t = false := by decide +kernel
/-- The same at the inner points of a row. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At the last point of a row the column of values is stored: window 5 is live there. -/
theorem liveAt2_5_C : ∀ t : Fin cfg2.N, ¬cond2_0 (grid2.coords t) → cond2_1 (grid2.coords t) → cfg2.idle 5 (grid2.coords t) = false := by decide +kernel

/-! ## The memrefs the body is called with -/

/-- One staging buffer of each output window, through which its contents are stated (which one does not matter:
    what is read back after covering writes does not depend on the view). -/
abbrev VO2_4 : View sig .tc .vmem S1024x1024 .f32 := (Memref.whole cc2_stg4_0 : Memref sig .tc .vmem S1024x1024 .f32).view
abbrev VO2_5 : View sig .tc .vmem S1024x1 .f32 := (Memref.whole cc2_stg5_0 : Memref sig .tc .vmem S1024x1 .f32).view
/-- Each window's current staging memref at point `t`, as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1 .f32 := win2_5.stage (cfg2.slots t 5)
abbrev hs2_5 (t : Fin cfg2.N) : (ms2_5 t).IsWhole := hstage2_5 ((cfg2.slots t 5).cast nbuf2_5)
/-- The accumulator: a whole scoped buffer of the call's own, passed beside the windows. -/
abbrev scM2_0 : Memref sig .tc .vmem S1024x1 .f32 := Memref.whole cc2_scratch0
/-- The accumulator as a view: what it holds is stated through it. -/
abbrev VS2_0 : View sig .tc .vmem S1024x1 .f32 := scM2_0.view

/-! ## The call's invariant -/

/-- The staging buffers of the other two calls, each whole at some contents: scoped buffers this call never touches. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the call — the scoped buffers that are no staging buffer of its own, each at some contents, and
    the generator register at some state — with the accumulator spelled as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ d, owns (c : Thread nD τ) scM2_0 fullShare d)) ∗ (∃ r, prngReg c r)) := by
  unfold Pipeline.ΦA; rw [scopedRest2_eq]; simp only [scM2_0, owns_whole]; try rfl

/-- The same with the other calls' buffers gathered. -/
theorem PhiA2_split (c : Dev nD) :
    (Pipeline.ΦA spec2 c : sProp 𝕄) ⊢ iprop(iprop(others2 (F := F) c ∗ (∃ d, owns (c : Thread nD τ) scM2_0 fullShare d)) ∗ (∃ r, prngReg c r)) := by
  rw [PhiA2_eq]; unfold others2
  iintro ⟨⟨A0, A1, A2, A3, A4, A5, A6, A7, A8, A9, A10, A11, A12, A13, A14, A15, HS⟩, Hg⟩
  isplitr [Hg]
  · isplitr [HS]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iexact HS
  · iexact Hg

theorem PhiA2_join (c : Dev nD) :
    iprop(iprop(others2 (F := F) c ∗ (∃ d, owns (c : Thread nD τ) scM2_0 fullShare d)) ∗ (∃ r, prngReg c r)) ⊢ (Pipeline.ΦA spec2 c : sProp 𝕄) := by
  rw [PhiA2_eq]; unfold others2
  iintro ⟨⟨⟨A0, A1, A2, A3, A4, A5, A6, A7, A8, A9, A10, A11, A12, A13, A14, A15⟩, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    iexact HS
  · iexact Hg

end Cert.Kernel.Fr

end
-- ==== Proof.K.Cos.RunA.lean ====
/-
  The whole-body run of the cosine/value call's kernel at the first point of a row of the grid.
-/
import proofs.«168271_j46969762349635_2_alg».proof.Proof.K.Cos.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT OF A ROW (the column coordinate is 0, not 7). On whole memrefs — the four inputs' at their contents
    `x0 .. x3`, the logits' buffer and the accumulator at anything, the values' buffer at contents `xi5` — the body sets the
    accumulator to zero, stores the block of logits, adds the block's weighted row sums to the accumulator, and leaves the
    values' buffer untouched. The pieces each buffer ends with (last store first) are the witness: `.1` the logits'
    buffer's, `.2.1` the values' buffer's (none), `.2.2.1` the accumulator's. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) :
    Σ' (L4 : List (View.Piece (Elt F) S1024x1024 .f32)) (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_value_kernel i arg2 harg2 arg3 harg3 arg4 harg4 arg5 harg5 arg6 harg6 arg7 harg7 arg8 harg8) K } := by
  refine ⟨?_, [], ?_, fun xi5 E K => ?run⟩
  case run =>
    simp only [cc2__cosine_value_kernel_eq_skeleton]; unfold cc2__cosine_value_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.K.Cos.RunB.lean ====
/-
  The whole-body run of the cosine/value call's kernel at an inner point of a row of the grid.
-/
import proofs.«168271_j46969762349635_2_alg».proof.Proof.K.Cos.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- AN INNER POINT OF A ROW (the column coordinate is neither 0 nor 7). On whole memrefs — the four inputs' at their contents
    `x0 .. x3`, the logits' buffer at anything, the values' buffer at contents `xi5`, the accumulator at what the point
    before left, `xs0` — the body stores the block of logits, adds the block's weighted row sums to the accumulator, and
    leaves the values' buffer untouched. The pieces each buffer ends with (last store first) are the witness: `.1` the
    logits' buffer's, `.2.1` the values' buffer's (none), `.2.2.1` the accumulator's. -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) :
    Σ' (L4 : List (View.Piece (Elt F) S1024x1024 .f32)) (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_value_kernel i arg2 harg2 arg3 harg3 arg4 harg4 arg5 harg5 arg6 harg6 arg7 harg7 arg8 harg8) K } := by
  refine ⟨?_, [], ?_, fun xi5 E K => ?run⟩
  case run =>
    simp only [cc2__cosine_value_kernel_eq_skeleton]; unfold cc2__cosine_value_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.Kernel.Fr

end
-- ==== Proof.K.Cos.RunC.lean ====
/-
  The whole-body run of the cosine/value call's kernel at the last point of a row of the grid.
-/
import proofs.«168271_j46969762349635_2_alg».proof.Proof.K.Cos.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT OF A ROW (the column coordinate is 7, not 0). On whole memrefs — the four inputs' at their contents
    `x0 .. x3`, the logits' and the values' buffers at anything, the accumulator at what the point before left, `xs0` —
    the body stores the block of logits, adds the block's weighted row sums to the accumulator, and stores the logistic
    function of the accumulator plus the value bias into the values' buffer. The pieces each buffer ends with (last store
    first) are the witness: `.1` the logits' buffer's, `.2.1` the values' buffer's, `.2.2.1` the accumulator's. -/
noncomputable def kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) :
    Σ' (L4 : List (View.Piece (Elt F) S1024x1024 .f32)) (L5 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_value_kernel i arg2 harg2 arg3 harg3 arg4 harg4 arg5 harg5 arg6 harg6 arg7 harg7 arg8 harg8) K } := by
  refine ⟨?_, ?_, ?_, fun E K => ?run⟩
  case run =>
    simp only [cc2__cosine_value_kernel_eq_skeleton]; unfold cc2__cosine_value_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Fr

end
-- ==== Proof.K.Cos.lean ====
/-
  The cosine/value call's half of the frame, at a parameter V (the contents of the core's buffers when the call is
  entered): what its two output windows' staging buffers and its accumulator hold after the body at each point of the
  2 x 8 grid, the proof data of its pipeline, and the body obligation.

  The three runs (kernelRun2_A at the first point of a row, kernelRun2_B at an inner point, kernelRun2_C at the last point)
  each carry three lists of pieces, last store first:
    .1      the pieces of window 4's buffer (the 1024 x 1024 block of logits),
    .2.1    the pieces of window 5's buffer (the column of 1024 values; empty at the first and the inner points),
    .2.2.1  the pieces of the accumulator (the scratch column of 1024 numbers).
  Along a row the accumulator after point j holds the sum over the speaker blocks 0 .. j of the weighted row sums of the
  logits; the first point stores zeros into it before adding, so what it held before a row does not matter.
-/
import proofs.«168271_j46969762349635_2_alg».proof.Proof.K.Cos.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered
variable (V : (c : Dev nD) → (b : Ref sig .tc) → Buf (Elt F) ((c : Thread nD τ).loc b))

/-! ## What each case leaves -/

/-- At the first point of a row the one store into window 4's buffer is whole, so the pieces cover it. -/
theorem cover2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) (y : S1024x1024.Idx) :
    ∃ pc ∈ (kernelRun2_A c i arg2 harg2 arg3 harg3 arg4 harg4 arg5 harg5 arg6 harg6 arg7 harg7 arg8 harg8 hc0 hc1 x0 x1 x2 x3).1, y ∈ pc.1.set :=
  View.cover_of_tiledL (kernelRun2_A c i arg2 harg2 arg3 harg3 arg4 harg4 arg5 harg5 arg6 harg6 arg7 harg7 arg8 harg8 hc0 hc1 x0 x1 x2 x3).1 S1024x1024.size (by sl_kernel_rfl) y

/-- What the first point of a row leaves in window 4's buffer: its pieces read back. -/
def out2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) : Vec F S1024x1024 .f32 :=
  VO2_4.read (Elt F) (VO2_4.writes (Elt F) VO2_4.junk (kernelRun2_A c i arg2 harg2 arg3 harg3 arg4 harg4 arg5 harg5 arg6 harg6 arg7 harg7 arg8 harg8 hc0 hc1 x0 x1 x2 x3).1)

/-- At the first point of a row nothing is stored into window 5's buffer (the window is idle there and is not written back): no
    pieces — a placeholder that nothing consults. -/
def out2_A_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) : Vec F S1024x1 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3).2.1)

/-- At the first point of a row the stores into the accumulator are whole, so the pieces cover it. -/
theorem scover2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) (y : S1024x1.Idx) :
    ∃ pc ∈ (kernelRun2_A c i arg2 harg2 arg3 harg3 arg4 harg4 arg5 harg5 arg6 harg6 arg7 harg7 arg8 harg8 hc0 hc1 x0 x1 x2 x3).2.2.1, y ∈ pc.1.set :=
  View.cover_of_tiledL (kernelRun2_A c i arg2 harg2 arg3 harg3 arg4 harg4 arg5 harg5 arg6 harg6 arg7 harg7 arg8 harg8 hc0 hc1 x0 x1 x2 x3).2.2.1 S1024x1.size (by sl_kernel_rfl) y

/-- What the first point of a row leaves in the accumulator: its pieces read back. -/
def sout2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) : Vec F S1024x1 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3).2.2.1)

/-- At an inner point of a row the one store into window 4's buffer is whole, so the pieces cover it. -/
theorem cover2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) (y : S1024x1024.Idx) :
    ∃ pc ∈ (kernelRun2_B c i arg2 harg2 arg3 harg3 arg4 harg4 arg5 harg5 arg6 harg6 arg7 harg7 arg8 harg8 hc0 hc1 x0 x1 x2 x3 xs0).1, y ∈ pc.1.set :=
  View.cover_of_tiledL (kernelRun2_B c i arg2 harg2 arg3 harg3 arg4 harg4 arg5 harg5 arg6 harg6 arg7 harg7 arg8 harg8 hc0 hc1 x0 x1 x2 x3 xs0).1 S1024x1024.size (by sl_kernel_rfl) y

/-- What an inner point of a row leaves in window 4's buffer: its pieces read back. -/
def out2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) : Vec F S1024x1024 .f32 :=
  VO2_4.read (Elt F) (VO2_4.writes (Elt F) VO2_4.junk (kernelRun2_B c i arg2 harg2 arg3 harg3 arg4 harg4 arg5 harg5 arg6 harg6 arg7 harg7 arg8 harg8 hc0 hc1 x0 x1 x2 x3 xs0).1)

/-- At an inner point of a row nothing is stored into window 5's buffer (the window is idle there and is not written back): no
    pieces — a placeholder that nothing consults. -/
def out2_B_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 xs0).2.1)

/-- At an inner point of a row the stores into the accumulator are whole, so the pieces cover it. -/
theorem scover2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) (y : S1024x1.Idx) :
    ∃ pc ∈ (kernelRun2_B c i arg2 harg2 arg3 harg3 arg4 harg4 arg5 harg5 arg6 harg6 arg7 harg7 arg8 harg8 hc0 hc1 x0 x1 x2 x3 xs0).2.2.1, y ∈ pc.1.set :=
  View.cover_of_tiledL (kernelRun2_B c i arg2 harg2 arg3 harg3 arg4 harg4 arg5 harg5 arg6 harg6 arg7 harg7 arg8 harg8 hc0 hc1 x0 x1 x2 x3 xs0).2.2.1 S1024x1.size (by sl_kernel_rfl) y

/-- What an inner point of a row leaves in the accumulator: its pieces read back. -/
def sout2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).2.2.1)

/-- At the last point of a row the one store into window 4's buffer is whole, so the pieces cover it. -/
theorem cover2_C_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) (y : S1024x1024.Idx) :
    ∃ pc ∈ (kernelRun2_C c i arg2 harg2 arg3 harg3 arg4 harg4 arg5 harg5 arg6 harg6 arg7 harg7 arg8 harg8 hc0 hc1 x0 x1 x2 x3 xs0).1, y ∈ pc.1.set :=
  View.cover_of_tiledL (kernelRun2_C c i arg2 harg2 arg3 harg3 arg4 harg4 arg5 harg5 arg6 harg6 arg7 harg7 arg8 harg8 hc0 hc1 x0 x1 x2 x3 xs0).1 S1024x1024.size (by sl_kernel_rfl) y

/-- What the last point of a row leaves in window 4's buffer: its pieces read back. -/
def out2_C_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) : Vec F S1024x1024 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 x3 xs0).1)

/-- At the last point of a row the one store into window 5's buffer is whole, so the pieces cover it. -/
theorem cover2_C_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) (y : S1024x1.Idx) :
    ∃ pc ∈ (kernelRun2_C c i arg2 harg2 arg3 harg3 arg4 harg4 arg5 harg5 arg6 harg6 arg7 harg7 arg8 harg8 hc0 hc1 x0 x1 x2 x3 xs0).2.1, y ∈ pc.1.set :=
  View.cover_of_tiledL (kernelRun2_C c i arg2 harg2 arg3 harg3 arg4 harg4 arg5 harg5 arg6 harg6 arg7 harg7 arg8 harg8 hc0 hc1 x0 x1 x2 x3 xs0).2.1 S1024x1.size (by sl_kernel_rfl) y

/-- What the last point of a row leaves in window 5's buffer: its pieces read back. -/
def out2_C_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)

/-- At the last point of a row the stores into the accumulator are whole, so the pieces cover it. -/
theorem scover2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) (y : S1024x1.Idx) :
    ∃ pc ∈ (kernelRun2_C c i arg2 harg2 arg3 harg3 arg4 harg4 arg5 harg5 arg6 harg6 arg7 harg7 arg8 harg8 hc0 hc1 x0 x1 x2 x3 xs0).2.2.1, y ∈ pc.1.set :=
  View.cover_of_tiledL (kernelRun2_C c i arg2 harg2 arg3 harg3 arg4 harg4 arg5 harg5 arg6 harg6 arg7 harg7 arg8 harg8 hc0 hc1 x0 x1 x2 x3 xs0).2.2.1 S1024x1.size (by sl_kernel_rfl) y

/-- What the last point of a row leaves in the accumulator: its pieces read back. -/
def sout2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. After the body at position `n`: (window 4's buffer, window 5's buffer, the accumulator) — the case the
    position's column coordinate selects, run at the point's memrefs and input blocks, the accumulator at an inner or a last
    point starting from what position `n - 1` left in it. -/
def outsAt2 (c : Dev nD) : (n : ℕ) → n < cfg2.N → Vec F S1024x1024 .f32 × Vec F S1024x1 .f32 × Vec F S1024x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)

/-- `outsAt2` at the first point of a row. -/
theorem outsAt2_A (c : Dev nD) (t : Fin cfg2.N) (h0 : t.val % 8 = 0) (h1 : ¬t.val % 8 = 7) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at an inner point of a row: over what the point before left in the accumulator. -/
theorem outsAt2_B (c : Dev nD) (t : Fin cfg2.N) (h0 : ¬t.val % 8 = 0) (h1 : ¬t.val % 8 = 7) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a row: over what the point before left in the accumulator. -/
theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The call's invariant, point by point -/

/-- Before position `n`: before the first point what the launch hands the call (every scoped buffer that is no staging buffer
    of this call at some contents, the generator register at some state); afterwards the same with the accumulator at what
    the point before left in it. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare ((outsAt2 V c n hn).2.2)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare ((outsAt2 V c (n - 1) (by omega)).2.2)) ∗ (∃ r, prngReg c r)) := by
  cases n with
  | zero => exact absurd rfl hz
  | succ n => rfl

/-! ## The pipeline's proof data -/

/-- The proof data of the call's pipeline on core `c`: the arrays as the call finds them; after the body at point `t` each
    input's buffer at its block, window 4's and window 5's at `outsAt2`'s first two components; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at the first point of a row: the inputs' memrefs hold their blocks; the run applies; the invariant hands the body the
    accumulator (at anything: the case sets it to zero before reading what it holds) and takes it back at this point's contents; the core owes nothing throughout. -/
theorem sound_body2_A (c : Dev nD) (t : Fin cfg2.N) (h0 : t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
  rw [outsAt2_A V c t h0 h1]
  unfold out2_A_4 sout2_A_0; (try dsimp only)
  by_cases hz : t.val = 0
  · rw [PhiS2_castSucc V c t, PhiS2_zero V c _ _ hz]
    refine BIBase.Entails.trans (Laws.sep_mono_left (PhiA2_split c)) ?_
    iintro ⟨⟨⟨HR, HS0⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover2_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _)
    iexists _; iexact H5
  · rw [PhiS2_castSucc V c t, PhiS2_pos V c _ _ hz]
    iintro ⟨⟨⟨HR, HS0⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexists _; iexact HS0
    iintro ⟨H0, H1, H2, H3, ⟨%e4, H4⟩, H5, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover2_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _)
    iexists _; iexact H5

set_option maxHeartbeats 4800000 in
/-- The body at an inner point of a row: the inputs' memrefs hold their blocks; the run applies; the invariant hands the body the
    accumulator at what the point before left and takes it back at this point's contents; the core owes nothing throughout. -/
theorem sound_body2_B (c : Dev nD) (t : Fin cfg2.N) (h0 : ¬t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
  rw [outsAt2_B V c t h0 h1]
  unfold out2_B_4 sout2_B_0; (try dsimp only)
  have hz : t.val ≠ 0 := by omega
  rw [PhiS2_castSucc V c t, PhiS2_pos V c _ _ hz]
  iintro ⟨⟨⟨HR, HS0⟩, Hg⟩, Ho, ⟨%d0, H0⟩, ⟨%d1, H1⟩, ⟨%d2, H2⟩, ⟨%d3, H3⟩, ⟨%d4, H4⟩, ⟨%d5, H5⟩⟩
  iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%e4, H4⟩, H5, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover2_B_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_B_4 c _ _ _ _ _ _ _ _ _ _ _ _ _ _ _ _ _ _ _ _ _ _)
  iexists _; iexact H5

set_option maxHeartbeats 4800000 in
/-- The body at the last point of a row: the inputs' memrefs hold their blocks; the run applies; the invariant hands the body the
    accumulator at what the point before left and takes it back at this point's contents; the core owes nothing throughout. -/
theorem sound_body2_C (c : Dev nD) (t : Fin cfg2.N) (h0 : ¬t.val % 8 = 0) (h1 : t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5_C t (fun h => h0 ((hcond2_0 t).mp h)) ((hcond2_1 t).mpr h1)], after2_5]
  rw [outsAt2_C V c t h0 h1]
  unfold out2_C_4 out2_C_5 sout2_C_0; (try dsimp only)
  have hz : t.val ≠ 0 := by omega
  rw [PhiS2_castSucc V c t, PhiS2_pos V c _ _ hz]
  iintro ⟨⟨⟨HR, HS0⟩, Hg⟩, Ho, ⟨%d0, H0⟩, ⟨%d1, H1⟩, ⟨%d2, H2⟩, ⟨%d3, H3⟩, ⟨%d4, H4⟩, ⟨%d5, H5⟩⟩
  iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover2_C_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_C_4 c _ _ _ _ _ _ _ _ _ _ _ _ _ _ _ _ _ _ _ _ _ _)
  unfold owns; iexists _; isplitr
  swap; · iexact H5
  ipureintro; exact View.read_writes_of_cover _ _ _ _ _ (cover2_C_5 c _ _ _ _ _ _ _ _ _ _ _ _ _ _ _ _ _ _ _ _ _ _)

/-- The body at any point: the column coordinate selects the case. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 8 = 0
  · exact sound_body2_A V c t h0 (by omega)
  · by_cases h1 : t.val % 8 = 7
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_join c)
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Fr

end
-- ==== Proof.K.Inst.lean ====
/-
  The frame of the whole program at any float instance, from the three pallas_calls' halves.

  The run of the program asks of each pallas_call a record: its proof data at any entry contents, the facts that the
  data's arrays are those contents, held whole, with nothing owed, the body's triple at every point, and the
  invariant's two ends. The two encoder calls keep the plain invariant, so its ends are identities; the cosine/value
  call carries a scratch buffer across points and supplies its own two ends. With the three records the run's
  conclusion holds outright: every weakly fair execution terminates and every argument array ends as launched.
-/
import proofs.«168271_j46969762349635_2_alg».proof.Proof.K.Run
import proofs.«168271_j46969762349635_2_alg».proof.Proof.K.Enc0
import proofs.«168271_j46969762349635_2_alg».proof.Proof.K.Enc1
import proofs.«168271_j46969762349635_2_alg».proof.Proof.K.Cos

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the run needs of pallas_call 0, from its proof data and its body's triple. -/
def half0 : Half0 F where
  dat := dat0
  hA := fun V c w => A_eq0 V c w
  hq := fun _ _ _ => rfl
  howed := fun _ _ _ => rfl
  hrec := fun _ _ _ => rfl
  hbody := fun V c => body_obligation0 V c
  hin := fun _ _ => .rfl
  hout := fun _ _ => .rfl

/-- What the run needs of pallas_call 1, from its proof data and its body's triple. -/
def half1 : Half1 F where
  dat := dat1
  hA := fun V c w => A_eq1 V c w
  hq := fun _ _ _ => rfl
  howed := fun _ _ _ => rfl
  hrec := fun _ _ _ => rfl
  hbody := fun V c => body_obligation1 V c
  hin := fun _ _ => .rfl
  hout := fun _ _ => .rfl

/-- What the run needs of pallas_call 2, from its proof data and its body's triple. -/
def half2 : Half2 F where
  dat := dat2
  hA := fun V c w => A_eq2 V c w
  hq := fun _ _ _ => rfl
  howed := fun _ _ _ => rfl
  hrec := fun _ _ _ => rfl
  hbody := fun V c => body_obligation2 V c
  hin := fun V c => hin2 V c
  hout := fun V c => hout2 V c

/-- THE FRAME at any float instance: every weakly fair execution of the program from memory `m` with zero counters
    terminates, nothing faulting, and every argument array ends as launched. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame m ρ half0 half1 half2

end Cert.Kernel.Fr

end
-- ==== Proof.KI.Run.lean ====
/-
  The run of the whole program at any float instance.

  The program is six segments in order: a stretch of host operations, the first encoder's pallas_call, a host
  stretch, the second encoder's pallas_call, a host stretch, the cosine/value pallas_call. Between two segments
  each TensorCore holds every unscoped buffer whole at contents that are a fold from the launch memory: a host
  stretch applies its operations, a pallas_call replaces its windows' arrays by what its write-backs leave and
  keeps every other buffer. Given, per pallas_call, the proof data and the body's triple (a record below), every
  weakly fair execution terminates and every final memory holds each unscoped buffer at the last fold; no
  segment writes an argument, so each argument array ends as launched.
-/
import proofs.«168271_j46969762349635_2_alg».proof.Proof.Gen.KernelIdeal.Launch
import proofs.«168271_j46969762349635_2_alg».proof.Proof.Gen.KernelIdeal.Skeleton
import proofs.«168271_j46969762349635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run needs of pallas_call 0, for any contents `V` its arrays hold when it is entered: what each window's
    staging buffer holds after the body at each point (the proof data), its arrays read off `V`, every array held
    whole, nothing owed to another core, the body's triple at every point, and the invariant between points: what the
    launch hands over gives it before the first point, and after the last it gives that back. -/
structure Half0 (F : FTy → Type) [FloatOps F] where
  dat : ((c : Dev nD) → (b : Ref sig .tc) → Buf (Elt F) ((c : Thread nD τ).loc b)) → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What the run needs of pallas_call 1, for any contents `V` its arrays hold when it is entered: what each window's
    staging buffer holds after the body at each point (the proof data), its arrays read off `V`, every array held
    whole, nothing owed to another core, the body's triple at every point, and the invariant between points: what the
    launch hands over gives it before the first point, and after the last it gives that back. -/
structure Half1 (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- What the run needs of pallas_call 2, for any contents `V` its arrays hold when it is entered: what each window's
    staging buffer holds after the body at each point (the proof data), its arrays read off `V`, every array held
    whole, nothing owed to another core, the body's triple at every point, and the invariant between points: what the
    launch hands over gives it before the first point, and after the last it gives that back. -/
structure Half2 (F : FTy → Type) [FloatOps F] where
  dat : ((c : Dev nD) → (b : Ref sig .tc) → Buf (Elt F) ((c : Thread nD τ).loc b)) → (c : Dev nD) → Dat τ (Elt F) Unit ℕ (UR sig nD τ) ℕ cfg2 c
  hA : ∀ V c w, (dat V c).A w = V c (Pipeline.arrRef spec2 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

variable (m : (ℓ : Loc nD τ sig) → Buf (Elt F) ℓ) (ρ : Dev nD → PrngReg)
variable (H0 : Half0 F) (H1 : Half1 F) (H2 : Half2 F)

/-! ## The buffer contents between segments -/

/-- Each core's buffers at launch. -/
abbrev W0 : Dev nD → Valuation τ sig (Elt F) := fun c b => (s₀ m ρ).mem ((c : Dev nD), b)

/-- After the host stretch before pallas_call 0: the contents pallas_call 0 is entered with. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After pallas_call 0: its arrays at what its write-backs leave, every other buffer as it was entered. -/
def W2 (c : Dev nD) : Valuation τ sig (Elt F) :=
  Pipeline.withArrays spec0 c (W1 m ρ c) fun w => (H0.dat (V1 m ρ) c).arrAt w cfg0.N
theorem W2_arr (c : Dev nD) (w : Fin cfg0.W) :
    W2 m ρ H0 c (Proc.devRef .tc (Pipeline.arrRef spec0 w)) = (H0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ H0 c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ H0 c b
theorem hF0 (c : Dev nD) (w : Fin cfg0.W) : (H0.dat (V1 m ρ) c).arrAt w cfg0.N = V2 m ρ H0 c (Pipeline.arrRef spec0 w) :=
  (W2_arr m ρ H0 c w).symm
theorem hrest0 (c : Dev nD) : ∀ b, b ∉ Finset.univ.image (Pipeline.arrRef spec0) → V2 m ρ H0 c b = V1 m ρ c b :=
  fun b hb => W2_of_ne m ρ H0 c b fun w e => hb (Finset.mem_image.mpr ⟨w, Finset.mem_univ _, e⟩)

/-- After the host stretch before pallas_call 1: the contents pallas_call 1 is entered with. -/
abbrev W3 : Dev nD → Valuation τ sig (Elt F) := fun c => StableHlo.after hostOps1 (W2 m ρ H0 c)
/-- The same read at the TensorCore's references. -/
abbrev V3 : (c : Dev nD) → (b : Ref sig .tc) → Buf (Elt F) ((c : Thread nD τ).loc b) := fun c b => W3 m ρ H0 c b
/-- After pallas_call 1: its arrays at what its write-backs leave, every other buffer as it was entered. -/
def W4 (c : Dev nD) : Valuation τ sig (Elt F) :=
  Pipeline.withArrays spec1 c (W3 m ρ H0 c) fun w => (H1.dat (V3 m ρ H0) c).arrAt w cfg1.N
theorem W4_arr (c : Dev nD) (w : Fin cfg1.W) :
    W4 m ρ H0 H1 c (Proc.devRef .tc (Pipeline.arrRef spec1 w)) = (H1.dat (V3 m ρ H0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ H0 H1 c (Proc.devRef .tc b) = W3 m ρ H0 c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ H0 H1 c b
theorem hF1 (c : Dev nD) (w : Fin cfg1.W) : (H1.dat (V3 m ρ H0) c).arrAt w cfg1.N = V4 m ρ H0 H1 c (Pipeline.arrRef spec1 w) :=
  (W4_arr m ρ H0 H1 c w).symm
theorem hrest1 (c : Dev nD) : ∀ b, b ∉ Finset.univ.image (Pipeline.arrRef spec1) → V4 m ρ H0 H1 c b = V3 m ρ H0 c b :=
  fun b hb => W4_of_ne m ρ H0 H1 c b fun w e => hb (Finset.mem_image.mpr ⟨w, Finset.mem_univ _, e⟩)

/-- After the host stretch before pallas_call 2: the contents pallas_call 2 is entered with. -/
abbrev W5 : Dev nD → Valuation τ sig (Elt F) := fun c => StableHlo.after hostOps2 (W4 m ρ H0 H1 c)
/-- The same read at the TensorCore's references. -/
abbrev V5 : (c : Dev nD) → (b : Ref sig .tc) → Buf (Elt F) ((c : Thread nD τ).loc b) := fun c b => W5 m ρ H0 H1 c b
/-- After pallas_call 2: its arrays at what its write-backs leave, every other buffer as it was entered. -/
def W6 (c : Dev nD) : Valuation τ sig (Elt F) :=
  Pipeline.withArrays spec2 c (W5 m ρ H0 H1 c) fun w => (H2.dat (V5 m ρ H0 H1) c).arrAt w cfg2.N
theorem W6_arr (c : Dev nD) (w : Fin cfg2.W) :
    W6 m ρ H0 H1 H2 c (Proc.devRef .tc (Pipeline.arrRef spec2 w)) = (H2.dat (V5 m ρ H0 H1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ H0 H1 H2 c (Proc.devRef .tc b) = W5 m ρ H0 H1 c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ H0 H1 H2 c b
theorem hF2 (c : Dev nD) (w : Fin cfg2.W) : (H2.dat (V5 m ρ H0 H1) c).arrAt w cfg2.N = V6 m ρ H0 H1 H2 c (Pipeline.arrRef spec2 w) :=
  (W6_arr m ρ H0 H1 H2 c w).symm
theorem hrest2 (c : Dev nD) : ∀ b, b ∉ Finset.univ.image (Pipeline.arrRef spec2) → V6 m ρ H0 H1 H2 c b = V5 m ρ H0 H1 c b :=
  fun b hb => W6_of_ne m ρ H0 H1 H2 c b fun w e => hb (Finset.mem_image.mpr ⟨w, Finset.mem_univ _, e⟩)

/-! ## No segment writes an argument -/

/-- No operation of a host stretch writes the reference in question: each writes one result buffer, a different one. -/
macro "host_keeps" : tactic => `(tactic| (
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W6_main_arg0 (c : Dev nD) : W6 m ρ H0 H1 H2 c (Proc.devRef .tc main_arg0) = m ((c : Thread nD τ).loc main_arg0) :=
  calc W6 m ρ H0 H1 H2 c (Proc.devRef .tc main_arg0)
    _ = W5 m ρ H0 H1 c (Proc.devRef .tc main_arg0) := W6_of_ne m ρ H0 H1 H2 c main_arg0 (by decide)
    _ = W4 m ρ H0 H1 c (Proc.devRef .tc main_arg0) := StableHlo.after_of_forall_not_mem (b := Proc.devRef .tc main_arg0) _ _ (List.forall_iff_forall_mem.mp (by host_keeps))
    _ = W3 m ρ H0 c (Proc.devRef .tc main_arg0) := W4_of_ne m ρ H0 H1 c main_arg0 (by decide)
    _ = W2 m ρ H0 c (Proc.devRef .tc main_arg0) := StableHlo.after_of_forall_not_mem (b := Proc.devRef .tc main_arg0) _ _ (List.forall_iff_forall_mem.mp (by host_keeps))
    _ = W1 m ρ c (Proc.devRef .tc main_arg0) := (W2_arr m ρ H0 c 0).trans (((H0.dat (V1 m ρ) c).arrAt_in 0 rfl _).trans (H0.hA (V1 m ρ) c 0))
    _ = W0 m ρ c (Proc.devRef .tc main_arg0) := StableHlo.after_of_forall_not_mem (b := Proc.devRef .tc main_arg0) _ _ (List.forall_iff_forall_mem.mp (by host_keeps))
    _ = m ((c : Thread nD τ).loc main_arg0) := rfl

theorem W6_main_arg1 (c : Dev nD) : W6 m ρ H0 H1 H2 c (Proc.devRef .tc main_arg1) = m ((c : Thread nD τ).loc main_arg1) :=
  calc W6 m ρ H0 H1 H2 c (Proc.devRef .tc main_arg1)
    _ = W5 m ρ H0 H1 c (Proc.devRef .tc main_arg1) := W6_of_ne m ρ H0 H1 H2 c main_arg1 (by decide)
    _ = W4 m ρ H0 H1 c (Proc.devRef .tc main_arg1) := StableHlo.after_of_forall_not_mem (b := Proc.devRef .tc main_arg1) _ _ (List.forall_iff_forall_mem.mp (by host_keeps))
    _ = W3 m ρ H0 c (Proc.devRef .tc main_arg1) := (W4_arr m ρ H0 H1 c 0).trans (((H1.dat (V3 m ρ H0) c).arrAt_in 0 rfl _).trans (H1.hA (V3 m ρ H0) c 0))
    _ = W2 m ρ H0 c (Proc.devRef .tc main_arg1) := StableHlo.after_of_forall_not_mem (b := Proc.devRef .tc main_arg1) _ _ (List.forall_iff_forall_mem.mp (by host_keeps))
    _ = W1 m ρ c (Proc.devRef .tc main_arg1) := W2_of_ne m ρ H0 c main_arg1 (by decide)
    _ = W0 m ρ c (Proc.devRef .tc main_arg1) := StableHlo.after_of_forall_not_mem (b := Proc.devRef .tc main_arg1) _ _ (List.forall_iff_forall_mem.mp (by host_keeps))
    _ = m ((c : Thread nD τ).loc main_arg1) := rfl

theorem W6_main_arg2 (c : Dev nD) : W6 m ρ H0 H1 H2 c (Proc.devRef .tc main_arg2) = m ((c : Thread nD τ).loc main_arg2) :=
  calc W6 m ρ H0 H1 H2 c (Proc.devRef .tc main_arg2)
    _ = W5 m ρ H0 H1 c (Proc.devRef .tc main_arg2) := W6_of_ne m ρ H0 H1 H2 c main_arg2 (by decide)
    _ = W4 m ρ H0 H1 c (Proc.devRef .tc main_arg2) := StableHlo.after_of_forall_not_mem (b := Proc.devRef .tc main_arg2) _ _ (List.forall_iff_forall_mem.mp (by host_keeps))
    _ = W3 m ρ H0 c (Proc.devRef .tc main_arg2) := W4_of_ne m ρ H0 H1 c main_arg2 (by decide)
    _ = W2 m ρ H0 c (Proc.devRef .tc main_arg2) := StableHlo.after_of_forall_not_mem (b := Proc.devRef .tc main_arg2) _ _ (List.forall_iff_forall_mem.mp (by host_keeps))
    _ = W1 m ρ c (Proc.devRef .tc main_arg2) := W2_of_ne m ρ H0 c main_arg2 (by decide)
    _ = W0 m ρ c (Proc.devRef .tc main_arg2) := StableHlo.after_of_forall_not_mem (b := Proc.devRef .tc main_arg2) _ _ (List.forall_iff_forall_mem.mp (by host_keeps))
    _ = m ((c : Thread nD τ).loc main_arg2) := rfl

theorem W6_main_arg3 (c : Dev nD) : W6 m ρ H0 H1 H2 c (Proc.devRef .tc main_arg3) = m ((c : Thread nD τ).loc main_arg3) :=
  calc W6 m ρ H0 H1 H2 c (Proc.devRef .tc main_arg3)
    _ = W5 m ρ H0 H1 c (Proc.devRef .tc main_arg3) := W6_of_ne m ρ H0 H1 H2 c main_arg3 (by decide)
    _ = W4 m ρ H0 H1 c (Proc.devRef .tc main_arg3) := StableHlo.after_of_forall_not_mem (b := Proc.devRef .tc main_arg3) _ _ (List.forall_iff_forall_mem.mp (by host_keeps))
    _ = W3 m ρ H0 c (Proc.devRef .tc main_arg3) := W4_of_ne m ρ H0 H1 c main_arg3 (by decide)
    _ = W2 m ρ H0 c (Proc.devRef .tc main_arg3) := StableHlo.after_of_forall_not_mem (b := Proc.devRef .tc main_arg3) _ _ (List.forall_iff_forall_mem.mp (by host_keeps))
    _ = W1 m ρ c (Proc.devRef .tc main_arg3) := W2_of_ne m ρ H0 c main_arg3 (by decide)
    _ = W0 m ρ c (Proc.devRef .tc main_arg3) := StableHlo.after_of_forall_not_mem (b := Proc.devRef .tc main_arg3) _ _ (List.forall_iff_forall_mem.mp (by host_keeps))
    _ = m ((c : Thread nD τ).loc main_arg3) := rfl

theorem W6_main_arg4 (c : Dev nD) : W6 m ρ H0 H1 H2 c (Proc.devRef .tc main_arg4) = m ((c : Thread nD τ).loc main_arg4) :=
  calc W6 m ρ H0 H1 H2 c (Proc.devRef .tc main_arg4)
    _ = W5 m ρ H0 H1 c (Proc.devRef .tc main_arg4) := W6_of_ne m ρ H0 H1 H2 c main_arg4 (by decide)
    _ = W4 m ρ H0 H1 c (Proc.devRef .tc main_arg4) := StableHlo.after_of_forall_not_mem (b := Proc.devRef .tc main_arg4) _ _ (List.forall_iff_forall_mem.mp (by host_keeps))
    _ = W3 m ρ H0 c (Proc.devRef .tc main_arg4) := W4_of_ne m ρ H0 H1 c main_arg4 (by decide)
    _ = W2 m ρ H0 c (Proc.devRef .tc main_arg4) := StableHlo.after_of_forall_not_mem (b := Proc.devRef .tc main_arg4) _ _ (List.forall_iff_forall_mem.mp (by host_keeps))
    _ = W1 m ρ c (Proc.devRef .tc main_arg4) := W2_of_ne m ρ H0 c main_arg4 (by decide)
    _ = W0 m ρ c (Proc.devRef .tc main_arg4) := StableHlo.after_of_forall_not_mem (b := Proc.devRef .tc main_arg4) _ _ (List.forall_iff_forall_mem.mp (by host_keeps))
    _ = m ((c : Thread nD τ).loc main_arg4) := rfl

theorem W6_main_arg5 (c : Dev nD) : W6 m ρ H0 H1 H2 c (Proc.devRef .tc main_arg5) = m ((c : Thread nD τ).loc main_arg5) :=
  calc W6 m ρ H0 H1 H2 c (Proc.devRef .tc main_arg5)
    _ = W5 m ρ H0 H1 c (Proc.devRef .tc main_arg5) := W6_of_ne m ρ H0 H1 H2 c main_arg5 (by decide)
    _ = W4 m ρ H0 H1 c (Proc.devRef .tc main_arg5) := StableHlo.after_of_forall_not_mem (b := Proc.devRef .tc main_arg5) _ _ (List.forall_iff_forall_mem.mp (by host_keeps))
    _ = W3 m ρ H0 c (Proc.devRef .tc main_arg5) := W4_of_ne m ρ H0 H1 c main_arg5 (by decide)
    _ = W2 m ρ H0 c (Proc.devRef .tc main_arg5) := StableHlo.after_of_forall_not_mem (b := Proc.devRef .tc main_arg5) _ _ (List.forall_iff_forall_mem.mp (by host_keeps))
    _ = W1 m ρ c (Proc.devRef .tc main_arg5) := W2_of_ne m ρ H0 c main_arg5 (by decide)
    _ = W0 m ρ c (Proc.devRef .tc main_arg5) := StableHlo.after_of_forall_not_mem (b := Proc.devRef .tc main_arg5) _ _ (List.forall_iff_forall_mem.mp (by host_keeps))
    _ = m ((c : Thread nD τ).loc main_arg5) := rfl

theorem W6_main_arg6 (c : Dev nD) : W6 m ρ H0 H1 H2 c (Proc.devRef .tc main_arg6) = m ((c : Thread nD τ).loc main_arg6) :=
  calc W6 m ρ H0 H1 H2 c (Proc.devRef .tc main_arg6)
    _ = W5 m ρ H0 H1 c (Proc.devRef .tc main_arg6) := W6_of_ne m ρ H0 H1 H2 c main_arg6 (by decide)
    _ = W4 m ρ H0 H1 c (Proc.devRef .tc main_arg6) := StableHlo.after_of_forall_not_mem (b := Proc.devRef .tc main_arg6) _ _ (List.forall_iff_forall_mem.mp (by host_keeps))
    _ = W3 m ρ H0 c (Proc.devRef .tc main_arg6) := W4_of_ne m ρ H0 H1 c main_arg6 (by decide)
    _ = W2 m ρ H0 c (Proc.devRef .tc main_arg6) := StableHlo.after_of_forall_not_mem (b := Proc.devRef .tc main_arg6) _ _ (List.forall_iff_forall_mem.mp (by host_keeps))
    _ = W1 m ρ c (Proc.devRef .tc main_arg6) := W2_of_ne m ρ H0 c main_arg6 (by decide)
    _ = W0 m ρ c (Proc.devRef .tc main_arg6) := StableHlo.after_of_forall_not_mem (b := Proc.devRef .tc main_arg6) _ _ (List.forall_iff_forall_mem.mp (by host_keeps))
    _ = m ((c : Thread nD τ).loc main_arg6) := rfl

theorem W6_main_arg7 (c : Dev nD) : W6 m ρ H0 H1 H2 c (Proc.devRef .tc main_arg7) = m ((c : Thread nD τ).loc main_arg7) :=
  calc W6 m ρ H0 H1 H2 c (Proc.devRef .tc main_arg7)
    _ = W5 m ρ H0 H1 c (Proc.devRef .tc main_arg7) := W6_of_ne m ρ H0 H1 H2 c main_arg7 (by decide)
    _ = W4 m ρ H0 H1 c (Proc.devRef .tc main_arg7) := StableHlo.after_of_forall_not_mem (b := Proc.devRef .tc main_arg7) _ _ (List.forall_iff_forall_mem.mp (by host_keeps))
    _ = W3 m ρ H0 c (Proc.devRef .tc main_arg7) := W4_of_ne m ρ H0 H1 c main_arg7 (by decide)
    _ = W2 m ρ H0 c (Proc.devRef .tc main_arg7) := StableHlo.after_of_forall_not_mem (b := Proc.devRef .tc main_arg7) _ _ (List.forall_iff_forall_mem.mp (by host_keeps))
    _ = W1 m ρ c (Proc.devRef .tc main_arg7) := W2_of_ne m ρ H0 c main_arg7 (by decide)
    _ = W0 m ρ c (Proc.devRef .tc main_arg7) := StableHlo.after_of_forall_not_mem (b := Proc.devRef .tc main_arg7) _ _ (List.forall_iff_forall_mem.mp (by host_keeps))
    _ = m ((c : Thread nD τ).loc main_arg7) := rfl

theorem W6_main_arg8 (c : Dev nD) : W6 m ρ H0 H1 H2 c (Proc.devRef .tc main_arg8) = m ((c : Thread nD τ).loc main_arg8) :=
  calc W6 m ρ H0 H1 H2 c (Proc.devRef .tc main_arg8)
    _ = W5 m ρ H0 H1 c (Proc.devRef .tc main_arg8) := W6_of_ne m ρ H0 H1 H2 c main_arg8 (by decide)
    _ = W4 m ρ H0 H1 c (Proc.devRef .tc main_arg8) := StableHlo.after_of_forall_not_mem (b := Proc.devRef .tc main_arg8) _ _ (List.forall_iff_forall_mem.mp (by host_keeps))
    _ = W3 m ρ H0 c (Proc.devRef .tc main_arg8) := W4_of_ne m ρ H0 H1 c main_arg8 (by decide)
    _ = W2 m ρ H0 c (Proc.devRef .tc main_arg8) := StableHlo.after_of_forall_not_mem (b := Proc.devRef .tc main_arg8) _ _ (List.forall_iff_forall_mem.mp (by host_keeps))
    _ = W1 m ρ c (Proc.devRef .tc main_arg8) := W2_of_ne m ρ H0 c main_arg8 (by decide)
    _ = W0 m ρ c (Proc.devRef .tc main_arg8) := StableHlo.after_of_forall_not_mem (b := Proc.devRef .tc main_arg8) _ _ (List.forall_iff_forall_mem.mp (by host_keeps))
    _ = m ((c : Thread nD τ).loc main_arg8) := rfl

theorem W6_main_arg9 (c : Dev nD) : W6 m ρ H0 H1 H2 c (Proc.devRef .tc main_arg9) = m ((c : Thread nD τ).loc main_arg9) :=
  calc W6 m ρ H0 H1 H2 c (Proc.devRef .tc main_arg9)
    _ = W5 m ρ H0 H1 c (Proc.devRef .tc main_arg9) := W6_of_ne m ρ H0 H1 H2 c main_arg9 (by decide)
    _ = W4 m ρ H0 H1 c (Proc.devRef .tc main_arg9) := StableHlo.after_of_forall_not_mem (b := Proc.devRef .tc main_arg9) _ _ (List.forall_iff_forall_mem.mp (by host_keeps))
    _ = W3 m ρ H0 c (Proc.devRef .tc main_arg9) := W4_of_ne m ρ H0 H1 c main_arg9 (by decide)
    _ = W2 m ρ H0 c (Proc.devRef .tc main_arg9) := StableHlo.after_of_forall_not_mem (b := Proc.devRef .tc main_arg9) _ _ (List.forall_iff_forall_mem.mp (by host_keeps))
    _ = W1 m ρ c (Proc.devRef .tc main_arg9) := W2_of_ne m ρ H0 c main_arg9 (by decide)
    _ = W0 m ρ c (Proc.devRef .tc main_arg9) := StableHlo.after_of_forall_not_mem (b := Proc.devRef .tc main_arg9) _ _ (List.forall_iff_forall_mem.mp (by host_keeps))
    _ = m ((c : Thread nD τ).loc main_arg9) := rfl

theorem W6_main_arg10 (c : Dev nD) : W6 m ρ H0 H1 H2 c (Proc.devRef .tc main_arg10) = m ((c : Thread nD τ).loc main_arg10) :=
  calc W6 m ρ H0 H1 H2 c (Proc.devRef .tc main_arg10)
    _ = W5 m ρ H0 H1 c (Proc.devRef .tc main_arg10) := W6_of_ne m ρ H0 H1 H2 c main_arg10 (by decide)
    _ = W4 m ρ H0 H1 c (Proc.devRef .tc main_arg10) := StableHlo.after_of_forall_not_mem (b := Proc.devRef .tc main_arg10) _ _ (List.forall_iff_forall_mem.mp (by host_keeps))
    _ = W3 m ρ H0 c (Proc.devRef .tc main_arg10) := W4_of_ne m ρ H0 H1 c main_arg10 (by decide)
    _ = W2 m ρ H0 c (Proc.devRef .tc main_arg10) := StableHlo.after_of_forall_not_mem (b := Proc.devRef .tc main_arg10) _ _ (List.forall_iff_forall_mem.mp (by host_keeps))
    _ = W1 m ρ c (Proc.devRef .tc main_arg10) := W2_of_ne m ρ H0 c main_arg10 (by decide)
    _ = W0 m ρ c (Proc.devRef .tc main_arg10) := StableHlo.after_of_forall_not_mem (b := Proc.devRef .tc main_arg10) _ _ (List.forall_iff_forall_mem.mp (by host_keeps))
    _ = m ((c : Thread nD τ).loc main_arg10) := rfl

theorem W6_main_arg11 (c : Dev nD) : W6 m ρ H0 H1 H2 c (Proc.devRef .tc main_arg11) = m ((c : Thread nD τ).loc main_arg11) :=
  calc W6 m ρ H0 H1 H2 c (Proc.devRef .tc main_arg11)
    _ = W5 m ρ H0 H1 c (Proc.devRef .tc main_arg11) := W6_of_ne m ρ H0 H1 H2 c main_arg11 (by decide)
    _ = W4 m ρ H0 H1 c (Proc.devRef .tc main_arg11) := StableHlo.after_of_forall_not_mem (b := Proc.devRef .tc main_arg11) _ _ (List.forall_iff_forall_mem.mp (by host_keeps))
    _ = W3 m ρ H0 c (Proc.devRef .tc main_arg11) := W4_of_ne m ρ H0 H1 c main_arg11 (by decide)
    _ = W2 m ρ H0 c (Proc.devRef .tc main_arg11) := StableHlo.after_of_forall_not_mem (b := Proc.devRef .tc main_arg11) _ _ (List.forall_iff_forall_mem.mp (by host_keeps))
    _ = W1 m ρ c (Proc.devRef .tc main_arg11) := W2_of_ne m ρ H0 c main_arg11 (by decide)
    _ = W0 m ρ c (Proc.devRef .tc main_arg11) := StableHlo.after_of_forall_not_mem (b := Proc.devRef .tc main_arg11) _ _ (List.forall_iff_forall_mem.mp (by host_keeps))
    _ = m ((c : Thread nD τ).loc main_arg11) := rfl

/-! ## The proof data family and the thread state -/

/-- No pallas_call has a prefetched table. -/
abbrev adm : (p : Fin 3) → (pcfgs (F := F) p).Adm := fun p => (cfgs p).toPCfg_adm
/-- Each pallas_call's proof data at the contents it is entered with. -/
def pdats : (p : Fin 3) → (c : Dev nD) → Dat τ (Elt F) Unit ℕ (UR sig nD τ) ℕ (Pipeline.pin (pcfgs (F := F)) adm p) c
  | ⟨0, _⟩ => fun c => H0.dat (V1 m ρ) c
  | ⟨1, _⟩ => fun c => H1.dat (V3 m ρ H0) c
  | ⟨2, _⟩ => fun c => H2.dat (V5 m ρ H0 H1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last fold, the generator register at some state. -/
abbrev Tₙ (c : Dev nD) : sProp 𝕄 := iprop(StableHlo.held (c : Thread nD τ) (Pipeline.ucRefs τ sig) (W6 m ρ H0 H1 H2 c) ∗ ∃ r, prngReg c r)

/-! ## The pallas_calls as segments -/

set_option backward.isDefEq.respectTransparency.types false in
/-- Pallas_call 0 as a segment: entered with every unscoped buffer at the contents the host stretch before it left, left
    with its arrays at what its write-backs leave and every other buffer as entered; the generator register goes into
    the invariant and comes back; the core owes nothing; the kernel has no semaphore of its own. -/
def reg0 : Pipeline.RegionSeg (pcfgs (F := F)) adm (pdats m ρ H0 H1 H2) () defs₀ 𝒱₀ L lv 0 where
  win := launch0.win.to₀
  block_pos := launch0.block_pos
  stage_whole := launch0.stage_whole
  K := PEmpty
  osem k := k.elim
  ho := Pipeline.OwnSemFacts.none _
  hbody c := (H0.hbody (V1 m ρ) c).loose
  hwaits := Pipeline.hwaits_of_owed_zero _ _ _ _ L lv 0 fun c t => H0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ H0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ H0 H1 H2) launch0.win launch0.arr_whole c
      ((pdats m ρ H0 H1 H2 0 c).share_full fun w => H0.hq (V1 m ρ) c w) (V1 m ρ c) fun w => H0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 H2 0 c).owed 0 = 0 from H0.howed (V1 m ρ) c 0]
      icases HO with ⟨%W, HO⟩; iexists W; isplitr
      · ipureintro; intro x _; exact Or.inl (by rw [show (pdats m ρ H0 H1 H2 0 c).recorded 0 = Set.univ from H0.hrec (V1 m ρ) c 0]; trivial)
      iexact HO
    isplitl [Hp]; · iexact Hp
    iexact Hrest
  hin c := by
    refine BIBase.Entails.trans ?_ (H0.hin (V1 m ρ) c)
    unfold Pipeline.ΦA
    iintro ⟨Hp, -, Hr⟩
    isplitl [Hr]; · iexact Hr
    iexact Hp
  hout c := by
    rw [Pipeline.ownSems0_none]
    refine BIBase.Entails.trans (H0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ H0 H1 H2) ((pdats m ρ H0 H1 H2 0 c).share_full fun w => H0.hq (V1 m ρ) c w)
      (V1 m ρ c) (V2 m ρ H0 c) ((pdats m ρ H0 H1 H2 0 c).arrAt · cfg0.N) (hF0 m ρ H0 c) (hrest0 m ρ H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ H0 H1 H2 0 c).owed (Fin.last _) = 0 from H0.howed (V1 m ρ) c _]
    icases HO with ⟨%W, -, HO⟩; iexists W; iexact HO

set_option backward.isDefEq.respectTransparency.types false in
/-- Pallas_call 1 as a segment: entered with every unscoped buffer at the contents the host stretch before it left, left
    with its arrays at what its write-backs leave and every other buffer as entered; the generator register goes into
    the invariant and comes back; the core owes nothing; the kernel has no semaphore of its own. -/
def reg1 : Pipeline.RegionSeg (pcfgs (F := F)) adm (pdats m ρ H0 H1 H2) () defs₀ 𝒱₀ L lv 1 where
  win := launch1.win.to₀
  block_pos := launch1.block_pos
  stage_whole := launch1.stage_whole
  K := PEmpty
  osem k := k.elim
  ho := Pipeline.OwnSemFacts.none _
  hbody c := (H1.hbody (V3 m ρ H0) c).loose
  hwaits := Pipeline.hwaits_of_owed_zero _ _ _ _ L lv 1 fun c t => H1.howed (V3 m ρ H0) c t
  pre c := iprop(StableHlo.held (c : Thread nD τ) (Pipeline.ucRefs τ sig) (W3 m ρ H0 c) ∗ R c)
  post c := iprop(StableHlo.held (c : Thread nD τ) (Pipeline.ucRefs τ sig) (W4 m ρ H0 H1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ H0 c)
  hentry c := by
    rw [Pipeline.ownSems0_none]
    have hsplit := Pipeline.arrays_of_unscopedBufs (p := 1) (pcfgs (F := F)) adm (pdats m ρ H0 H1 H2) launch1.win launch1.arr_whole c
      ((pdats m ρ H0 H1 H2 1 c).share_full fun w => H1.hq (V3 m ρ H0) c w) (V3 m ρ H0 c) fun w => H1.hA (V3 m ρ H0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 H2 1 c).owed 0 = 0 from H1.howed (V3 m ρ H0) c 0]
      icases HO with ⟨%W, HO⟩; iexists W; isplitr
      · ipureintro; intro x _; exact Or.inl (by rw [show (pdats m ρ H0 H1 H2 1 c).recorded 0 = Set.univ from H1.hrec (V3 m ρ H0) c 0]; trivial)
      iexact HO
    isplitl [Hp]; · iexact Hp
    iexact Hrest
  hin c := by
    refine BIBase.Entails.trans ?_ (H1.hin (V3 m ρ H0) c)
    unfold Pipeline.ΦA
    iintro ⟨Hp, -, Hr⟩
    isplitl [Hr]; · iexact Hr
    iexact Hp
  hout c := by
    rw [Pipeline.ownSems0_none]
    refine BIBase.Entails.trans (H1.hout (V3 m ρ H0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ H0 H1 H2) ((pdats m ρ H0 H1 H2 1 c).share_full fun w => H1.hq (V3 m ρ H0) c w)
      (V3 m ρ H0 c) (V4 m ρ H0 H1 c) ((pdats m ρ H0 H1 H2 1 c).arrAt · cfg1.N) (hF1 m ρ H0 H1 c) (hrest1 m ρ H0 H1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ H0 H1 H2 1 c).owed (Fin.last _) = 0 from H1.howed (V3 m ρ H0) c _]
    icases HO with ⟨%W, -, HO⟩; iexists W; iexact HO

set_option backward.isDefEq.respectTransparency.types false in
/-- Pallas_call 2 as a segment: entered with every unscoped buffer at the contents the host stretch before it left, left
    with its arrays at what its write-backs leave and every other buffer as entered; the generator register goes into
    the invariant and comes back; the core owes nothing; the kernel has no semaphore of its own. -/
def reg2 : Pipeline.RegionSeg (pcfgs (F := F)) adm (pdats m ρ H0 H1 H2) () defs₀ 𝒱₀ L lv 2 where
  win := launch2.win.to₀
  block_pos := launch2.block_pos
  stage_whole := launch2.stage_whole
  K := PEmpty
  osem k := k.elim
  ho := Pipeline.OwnSemFacts.none _
  hbody c := (H2.hbody (V5 m ρ H0 H1) c).loose
  hwaits := Pipeline.hwaits_of_owed_zero _ _ _ _ L lv 2 fun c t => H2.howed (V5 m ρ H0 H1) c t
  pre c := iprop(StableHlo.held (c : Thread nD τ) (Pipeline.ucRefs τ sig) (W5 m ρ H0 H1 c) ∗ R c)
  post c := iprop(Tₙ m ρ H0 H1 H2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ H0 H1 c)
  hentry c := by
    rw [Pipeline.ownSems0_none]
    have hsplit := Pipeline.arrays_of_unscopedBufs (p := 2) (pcfgs (F := F)) adm (pdats m ρ H0 H1 H2) launch2.win launch2.arr_whole c
      ((pdats m ρ H0 H1 H2 2 c).share_full fun w => H2.hq (V5 m ρ H0 H1) c w) (V5 m ρ H0 H1 c) fun w => H2.hA (V5 m ρ H0 H1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ H0 H1 H2 2 c).owed 0 = 0 from H2.howed (V5 m ρ H0 H1) c 0]
      icases HO with ⟨%W, HO⟩; iexists W; isplitr
      · ipureintro; intro x _; exact Or.inl (by rw [show (pdats m ρ H0 H1 H2 2 c).recorded 0 = Set.univ from H2.hrec (V5 m ρ H0 H1) c 0]; trivial)
      iexact HO
    isplitl [Hp]; · iexact Hp
    iexact Hrest
  hin c := by
    refine BIBase.Entails.trans ?_ (H2.hin (V5 m ρ H0 H1) c)
    unfold Pipeline.ΦA
    iintro ⟨Hp, -, Hr⟩
    isplitl [Hr]; · iexact Hr
    iexact Hp
  hout c := by
    rw [Pipeline.ownSems0_none]
    refine BIBase.Entails.trans (H2.hout (V5 m ρ H0 H1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ H0 H1 H2) ((pdats m ρ H0 H1 H2 2 c).share_full fun w => H2.hq (V5 m ρ H0 H1) c w)
      (V5 m ρ H0 H1 c) (V6 m ρ H0 H1 H2 c) ((pdats m ρ H0 H1 H2 2 c).arrAt · cfg2.N) (hF2 m ρ H0 H1 H2 c) (hrest2 m ρ H0 H1 H2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ H0 H1 H2 2 c).owed (Fin.last _) = 0 from H2.howed (V5 m ρ H0 H1) c _]
    icases HO with ⟨%W, -, HO⟩; iexists W; iexact HO

/-! ## The program as segments, and the launch -/

abbrev segs : List (Pipeline.Seg (pcfgs (F := F)) adm (pdats m ρ H0 H1 H2) () defs₀ 𝒱₀ L lv) :=
  [ .host (hseg hostOps0 hostOps0_sub hostOps0_fresh (W0 m ρ)),
    .region (reg0 m ρ H0 H1 H2),
    .host (hseg hostOps1 hostOps1_sub hostOps1_fresh (W2 m ρ H0)),
    .region (reg1 m ρ H0 H1 H2),
    .host (hseg hostOps2 hostOps2_sub hostOps2_fresh (W4 m ρ H0 H1)),
    .region (reg2 m ρ H0 H1 H2) ]
/-- The program is the run of its segments. -/
theorem main_run (c : Dev nD) : main (F := F) c = Pipeline.Seg.run (segs m ρ H0 H1 H2) := (main_chain c).trans (by chain_rfl)

set_option backward.isDefEq.respectTransparency.types false in
/-- THE RUN: every weakly fair execution of the program from memory `m` with zero counters terminates, nothing
    faulting, and every final memory holds every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ H0 H1 H2 c b) :=
  Pipeline.θ_run_regions_kit (pcfgs (F := F)) adm (pdats m ρ H0 H1 H2) () cellOf_inj emb₁ defs₀ 𝒱₀ L lv m ρ main (segs m ρ H0 H1 H2)
    (fun c Q => by rw [main_run m ρ H0 H1 H2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ H0 H1 H2)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ H0 H1 H2 c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ H0 H1 H2 c) s')
      isplitl [Hh] <;> iassumption)
    (hQ := fun s h c => h c)

include H0 H1 H2 in
/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W6_main_arg0 m ρ H0 H1 H2 c),
    (h c _ (mem_uc main_arg1 (by decide))).trans (W6_main_arg1 m ρ H0 H1 H2 c),
    (h c _ (mem_uc main_arg2 (by decide))).trans (W6_main_arg2 m ρ H0 H1 H2 c),
    (h c _ (mem_uc main_arg3 (by decide))).trans (W6_main_arg3 m ρ H0 H1 H2 c),
    (h c _ (mem_uc main_arg4 (by decide))).trans (W6_main_arg4 m ρ H0 H1 H2 c),
    (h c _ (mem_uc main_arg5 (by decide))).trans (W6_main_arg5 m ρ H0 H1 H2 c),
    (h c _ (mem_uc main_arg6 (by decide))).trans (W6_main_arg6 m ρ H0 H1 H2 c),
    (h c _ (mem_uc main_arg7 (by decide))).trans (W6_main_arg7 m ρ H0 H1 H2 c),
    (h c _ (mem_uc main_arg8 (by decide))).trans (W6_main_arg8 m ρ H0 H1 H2 c),
    (h c _ (mem_uc main_arg9 (by decide))).trans (W6_main_arg9 m ρ H0 H1 H2 c),
    (h c _ (mem_uc main_arg10 (by decide))).trans (W6_main_arg10 m ρ H0 H1 H2 c),
    (h c _ (mem_uc main_arg11 (by decide))).trans (W6_main_arg11 m ρ H0 H1 H2 c)⟩) (run_all m ρ H0 H1 H2)

/-- The two result arrays at the end: what the last pallas_call's write-backs leave. -/
theorem W6_out0 (c : Dev nD) : W6 m ρ H0 H1 H2 c (Proc.devRef .tc main_v12_0) = (H2.dat (V5 m ρ H0 H1) c).arrAt 4 cfg2.N :=
  W6_arr m ρ H0 H1 H2 c 4
theorem W6_out1 (c : Dev nD) : W6 m ρ H0 H1 H2 c (Proc.devRef .tc main_v12_1) = (H2.dat (V5 m ρ H0 H1) c).arrAt 5 cfg2.N :=
  W6_arr m ρ H0 H1 H2 c 5

end Cert.KernelIdeal.Fr

end
-- ==== Proof.KI.Enc0.lean ====
/-
  The first encoder call's half of the frame, at any float instance.

  The call runs its body once per block of 256 rows. At each point the body reads five input windows — the block of
  rows and the four parameter arrays, whole — and writes one output window, the block of encoded rows. This file
  states, at an arbitrary content `V` of the core's buffers when the call is entered: what each window's block is
  (`iblk0`), what the body leaves in the output window's buffer as a function of the five input blocks
  (`out0_5`: the body's one store, which covers the whole buffer), the body's triple on whole staging buffers
  (`sound_kernel0`), the pipeline's proof data (`dat0`) and the body obligation at every point
  (`body_obligation0`).
-/
import proofs.«168271_j46969762349635_2_alg».proof.Proof.Gen.KernelIdeal.Launch
import proofs.«168271_j46969762349635_2_alg».proof.Proof.Gen.KernelIdeal.Skeleton
import proofs.«168271_j46969762349635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 4096 coordinates is decided one coordinate at a time
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered: everything below is stated at this parameter
variable (V : (c : Dev nD) → (b : Ref sig .tc) → Buf (Elt F) ((c : Thread nD τ).loc b))

/-! ## The windows' blocks -/

/-- Window `w`'s block at point `t`, read off the window's array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline fetched it
    there or not (when it did not, the block index has not moved since the fetch), for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether the pipeline fetched it
    there or not (when it did not, the block index has not moved since the fetch), for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether the pipeline fetched it
    there or not (when it did not, the block index has not moved since the fetch), for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, whether the pipeline fetched it
    there or not (when it did not, the block index has not moved since the fetch), for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block at every point, whether the pipeline fetched it
    there or not (when it did not, the block index has not moved since the fetch), for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each staging buffer, whole -/

abbrev rA0 : Rect S256x1024 := Rect.unit (s := S256x1024) ![0, 0] S256x1024.size inb_S256x1024_S256x1024_0_0
abbrev rB0 : Rect S1024x4096 := Rect.unit (s := S1024x4096) ![0, 0] S1024x4096.size inb_S1024x4096_S1024x4096_0_0
abbrev rC0 : Rect S1x4096 := Rect.unit (s := S1x4096) ![0, 0] S1x4096.size inb_S1x4096_S1x4096_0_0
abbrev rD0 : Rect S4096x1024 := Rect.unit (s := S4096x1024) ![0, 0] S4096x1024.size inb_S4096x1024_S4096x1024_0_0
abbrev rE0 : Rect S1x1024 := Rect.unit (s := S1x1024) ![0, 0] S1x1024.size inb_S1x1024_S1x1024_0_0

/-! ## What the body leaves in the output window's buffer -/

/-- The output window's staging buffer after the body, from the five input blocks: the body's one store, of the
    encoded rows, over the whole buffer. -/
def out0_5 (x0 : Vec F S256x1024 .f32) (x1 : Vec F S1024x4096 .bf16) (x2 : Vec F S1x4096 .f32) (x3 : Vec F S4096x1024 .bf16) (x4 : Vec F S1x1024 .f32) : Vec F S256x1024 .bf16 :=
  View.canon [⟨rA0, k0_pay1 (View.ld x0 rA0) (View.ld x1 rB0) (View.ld x2 rC0) (View.ld x3 rD0) (View.ld x4 rE0)⟩]

/-- The one store's rectangle is the whole buffer, so it covers every index. -/
theorem cover0_5 (p0 : Vec F S256x1024 .bf16) (y : S256x1024.Idx) :
    ∃ pc ∈ ([⟨rA0, p0⟩] : List (View.Piece (Elt F) S256x1024 .bf16)), y ∈ pc.1.set :=
  View.cover_of_tiled [⟨rA0, p0⟩] S256x1024.size (by rfl) y

/-! ## The body's triple -/

set_option maxHeartbeats 1000000 in
/-- The body on whole staging buffers, the five inputs' at contents `x0 … x4` and the output's at anything, runs to
    a continuation that holds the inputs' as they were and the output's at `out0_5` of the inputs'. The body is
    five loads, a load of the output buffer whose value nothing reads, and one store of the payload. -/
theorem sound_kernel0 (c : Dev nD) (E : Set ℕ) (i : grid0.Coords) (arg1 : Memref sig .tc .vmem S256x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S256x1024 .bf16) (harg6 : arg6.IsWhole)
    (x0 : Vec F S256x1024 .f32) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__encode_kernel i arg1 harg1 arg2 harg2 arg3 harg3 arg4 harg4 arg5 harg5 arg6 harg6) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The call's proof data on core `c`: the arrays as the call finds them; after the body at point `t` each input
    window's buffer still at its block and the output window's at `out0_5` of the five input blocks; the invariant
    that leaves the rest of the core's state untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is handed at point `t`: the invariant, the core's debts, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input windows' buffers hold their blocks, so the body's triple applies; the invariant
    and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Enc1.lean ====
/-
  The second encoder call's half of the frame, at any float instance.

  The call runs its body once per block of 256 rows. At each point the body reads five input windows — the block of
  rows and the four parameter arrays, whole — and writes one output window, the block of encoded rows. This file
  states, at an arbitrary content `V` of the core's buffers when the call is entered: what each window's block is
  (`iblk1`), what the body leaves in the output window's buffer as a function of the five input blocks
  (`out1_5`: the body's one store, which covers the whole buffer), the body's triple on whole staging buffers
  (`sound_kernel1`), the pipeline's proof data (`dat1`) and the body obligation at every point
  (`body_obligation1`).
-/
import proofs.«168271_j46969762349635_2_alg».proof.Proof.Gen.KernelIdeal.Launch
import proofs.«168271_j46969762349635_2_alg».proof.Proof.Gen.KernelIdeal.Skeleton
import proofs.«168271_j46969762349635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 4096 coordinates is decided one coordinate at a time
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered: everything below is stated at this parameter
variable (V : (c : Dev nD) → (b : Ref sig .tc) → Buf (Elt F) ((c : Thread nD τ).loc b))

/-! ## The windows' blocks -/

/-- Window `w`'s block at point `t`, read off the window's array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the pipeline fetched it
    there or not (when it did not, the block index has not moved since the fetch), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the pipeline fetched it
    there or not (when it did not, the block index has not moved since the fetch), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the pipeline fetched it
    there or not (when it did not, the block index has not moved since the fetch), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the pipeline fetched it
    there or not (when it did not, the block index has not moved since the fetch), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether the pipeline fetched it
    there or not (when it did not, the block index has not moved since the fetch), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each staging buffer, whole -/

abbrev rA1 : Rect S256x1024 := Rect.unit (s := S256x1024) ![0, 0] S256x1024.size inb_S256x1024_S256x1024_0_0
abbrev rB1 : Rect S1024x4096 := Rect.unit (s := S1024x4096) ![0, 0] S1024x4096.size inb_S1024x4096_S1024x4096_0_0
abbrev rC1 : Rect S1x4096 := Rect.unit (s := S1x4096) ![0, 0] S1x4096.size inb_S1x4096_S1x4096_0_0
abbrev rD1 : Rect S4096x1024 := Rect.unit (s := S4096x1024) ![0, 0] S4096x1024.size inb_S4096x1024_S4096x1024_0_0
abbrev rE1 : Rect S1x1024 := Rect.unit (s := S1x1024) ![0, 0] S1x1024.size inb_S1x1024_S1x1024_0_0

/-! ## What the body leaves in the output window's buffer -/

/-- The output window's staging buffer after the body, from the five input blocks: the body's one store, of the
    encoded rows, over the whole buffer. -/
def out1_5 (x0 : Vec F S256x1024 .f32) (x1 : Vec F S1024x4096 .bf16) (x2 : Vec F S1x4096 .f32) (x3 : Vec F S4096x1024 .bf16) (x4 : Vec F S1x1024 .f32) : Vec F S256x1024 .bf16 :=
  View.canon [⟨rA1, k1_pay1 (View.ld x0 rA1) (View.ld x1 rB1) (View.ld x2 rC1) (View.ld x3 rD1) (View.ld x4 rE1)⟩]

/-- The one store's rectangle is the whole buffer, so it covers every index. -/
theorem cover1_5 (p0 : Vec F S256x1024 .bf16) (y : S256x1024.Idx) :
    ∃ pc ∈ ([⟨rA1, p0⟩] : List (View.Piece (Elt F) S256x1024 .bf16)), y ∈ pc.1.set :=
  View.cover_of_tiled [⟨rA1, p0⟩] S256x1024.size (by rfl) y

/-! ## The body's triple -/

set_option maxHeartbeats 1000000 in
/-- The body on whole staging buffers, the five inputs' at contents `x0 … x4` and the output's at anything, runs to
    a continuation that holds the inputs' as they were and the output's at `out1_5` of the inputs'. The body is
    five loads, a load of the output buffer whose value nothing reads, and one store of the payload. -/
theorem sound_kernel1 (c : Dev nD) (E : Set ℕ) (i : grid1.Coords) (arg1 : Memref sig .tc .vmem S256x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S256x1024 .bf16) (harg6 : arg6.IsWhole)
    (x0 : Vec F S256x1024 .f32) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__encode_kernel i arg1 harg1 arg2 harg2 arg3 harg3 arg4 harg4 arg5 harg5 arg6 harg6) K := by
  simp only [cc1__encode_kernel_eq_skeleton]; unfold cc1__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The call's proof data on core `c`: the arrays as the call finds them; after the body at point `t` each input
    window's buffer still at its block and the output window's at `out1_5` of the five input blocks; the invariant
    that leaves the rest of the core's state untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input window's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is handed at point `t`: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input windows' buffers hold their blocks, so the body's triple applies; the invariant
    and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Cos.Runs.lean ====
/-
  The cosine/value call (the third of the program's three pipelined calls; grid 2 x 8, point t = 8 i + j)
  — what its three whole-body runs and its frame share, at a parameter V: the contents of the core's
  buffers when the call is entered.

  Along a row i of the grid the body adds, for j = 0 .. 7, the 1024 x 1024 block of logits of the message
  block i against the speaker block j, weighted by the value weights, into a column accumulator of 1024
  numbers it keeps in a scratch buffer. At j = 0 it first sets the accumulator to zero; at j = 7 it adds the
  value bias, applies the logistic function and stores the column of values. The block of logits is stored
  at every point.
-/
import proofs.«168271_j46969762349635_2_alg».proof.Proof.Gen.KernelIdeal.Launch
import proofs.«168271_j46969762349635_2_alg».proof.Proof.Gen.KernelIdeal.Skeleton
import proofs.«168271_j46969762349635_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered
variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the block was fetched there or
    is the one fetched at an earlier point (its index has not moved since), for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the block was fetched there or
    is the one fetched at an earlier point (its index has not moved since), for any proof data whose array is the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the block was fetched there or
    is the one fetched at an earlier point (its index has not moved since), for any proof data whose array is the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the block was fetched there or
    is the one fetched at an earlier point (its index has not moved since), for any proof data whose array is the
    entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The first conditional's condition (the column coordinate is 0), as the body computes it from the coordinates. -/
abbrev cond2_0 (i : grid2.Coords) : Prop := (Scalar.cmpi .ne (Scalar.extui (Scalar.cmpi .eq (BitVec.ofNat 32 (i 1).val) 0#32)) 0#32) = 1#1
/-- It holds at the first point of each row of the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (the column coordinate is 7). -/
abbrev cond2_1 (i : grid2.Coords) : Prop := k2_cond2 i = 1#1
/-- It holds at the last point of each row of the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- At the first point of a row the column of values is not stored: window 5 is idle there, -/
theorem idleAt2_5_A : ∀ t : Fin cfg2.N, cond2_0 (grid2.coords t) → ¬cond2_1 (grid2.coords t) → cfg2.idle 5 (grid2.coords t) = true := by decide +kernel
/-- and is not written back. -/
theorem noFlush2_5_A : ∀ t : Fin cfg2.N, cond2_0 (grid2.coords t) → ¬cond2_1 (grid2.coords t) → (cfg2.win 5).flush t = false := by decide +kernel
/-- The same at the inner points of a row. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At the last point of a row the column of values is stored: window 5 is live there. -/
theorem liveAt2_5_C : ∀ t : Fin cfg2.N, ¬cond2_0 (grid2.coords t) → cond2_1 (grid2.coords t) → cfg2.idle 5 (grid2.coords t) = false := by decide +kernel

/-! ## The memrefs the body is called with -/

/-- One staging buffer of each output window, through which its contents are stated (which one does not matter:
    what is read back after covering writes does not depend on the view). -/
abbrev VO2_4 : View sig .tc .vmem S1024x1024 .f32 := (Memref.whole cc2_stg4_0 : Memref sig .tc .vmem S1024x1024 .f32).view
abbrev VO2_5 : View sig .tc .vmem S1024x1 .f32 := (Memref.whole cc2_stg5_0 : Memref sig .tc .vmem S1024x1 .f32).view
/-- Each window's current staging memref at point `t`, as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1 .f32 := win2_5.stage (cfg2.slots t 5)
abbrev hs2_5 (t : Fin cfg2.N) : (ms2_5 t).IsWhole := hstage2_5 ((cfg2.slots t 5).cast nbuf2_5)
/-- The accumulator: a whole scoped buffer of the call's own, passed beside the windows. -/
abbrev scM2_0 : Memref sig .tc .vmem S1024x1 .f32 := Memref.whole cc2_scratch0
/-- The accumulator as a view: what it holds is stated through it. -/
abbrev VS2_0 : View sig .tc .vmem S1024x1 .f32 := scM2_0.view

/-! ## The call's invariant -/

/-- The staging buffers of the other two calls, each whole at some contents: scoped buffers this call never touches. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the call — the scoped buffers that are no staging buffer of its own, each at some contents, and
    the generator register at some state — with the accumulator spelled as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ d, owns (c : Thread nD τ) scM2_0 fullShare d)) ∗ (∃ r, prngReg c r)) := by
  unfold Pipeline.ΦA; rw [scopedRest2_eq]; simp only [scM2_0, owns_whole]; try rfl

/-- The same with the other calls' buffers gathered. -/
theorem PhiA2_split (c : Dev nD) :
    (Pipeline.ΦA spec2 c : sProp 𝕄) ⊢ iprop(iprop(others2 (F := F) c ∗ (∃ d, owns (c : Thread nD τ) scM2_0 fullShare d)) ∗ (∃ r, prngReg c r)) := by
  rw [PhiA2_eq]; unfold others2
  iintro ⟨⟨A0, A1, A2, A3, A4, A5, A6, A7, A8, A9, A10, A11, A12, A13, A14, A15, HS⟩, Hg⟩
  isplitr [Hg]
  · isplitr [HS]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      iexact A15
    · iexact HS
  · iexact Hg

theorem PhiA2_join (c : Dev nD) :
    iprop(iprop(others2 (F := F) c ∗ (∃ d, owns (c : Thread nD τ) scM2_0 fullShare d)) ∗ (∃ r, prngReg c r)) ⊢ (Pipeline.ΦA spec2 c : sProp 𝕄) := by
  rw [PhiA2_eq]; unfold others2
  iintro ⟨⟨⟨A0, A1, A2, A3, A4, A5, A6, A7, A8, A9, A10, A11, A12, A13, A14, A15⟩, HS⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    iexact HS
  · iexact Hg

end Cert.KernelIdeal.Fr

end
-- ==== Proof.KI.Cos.RunA.lean ====
/-
  The whole-body run of the cosine/value call's kernel at the first point of a row of the grid.
-/
import proofs.«168271_j46969762349635_2_alg».proof.Proof.KI.Cos.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT OF A ROW (the column coordinate is 0, not 7). On whole memrefs — the four inputs' at their contents
    `x0 .. x3`, the logits' buffer and the accumulator at anything, the values' buffer at contents `xi5` — the body sets the
    accumulator to zero, stores the block of logits, adds the block's weighted row sums to the accumulator, and leaves the
    values' buffer untouched. The pieces each buffer ends with (last store first) are the witness: `.1` the logits'
    buffer's, `.2.1` the values' buffer's (none), `.2.2.1` the accumulator's. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) :
    Σ' (L4 : List (View.Piece (Elt F) S1024x1024 .f32)) (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_value_kernel i arg2 harg2 arg3 harg3 arg4 harg4 arg5 harg5 arg6 harg6 arg7 harg7 arg8 harg8) K } := by
  refine ⟨?_, [], ?_, fun xi5 E K => ?run⟩
  case run =>
    simp only [cc2__cosine_value_kernel_eq_skeleton]; unfold cc2__cosine_value_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.KI.Cos.RunB.lean ====
/-
  The whole-body run of the cosine/value call's kernel at an inner point of a row of the grid.
-/
import proofs.«168271_j46969762349635_2_alg».proof.Proof.KI.Cos.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- AN INNER POINT OF A ROW (the column coordinate is neither 0 nor 7). On whole memrefs — the four inputs' at their contents
    `x0 .. x3`, the logits' buffer at anything, the values' buffer at contents `xi5`, the accumulator at what the point
    before left, `xs0` — the body stores the block of logits, adds the block's weighted row sums to the accumulator, and
    leaves the values' buffer untouched. The pieces each buffer ends with (last store first) are the witness: `.1` the
    logits' buffer's, `.2.1` the values' buffer's (none), `.2.2.1` the accumulator's. -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) :
    Σ' (L4 : List (View.Piece (Elt F) S1024x1024 .f32)) (L5 : List (View.Piece (Elt F) S1024x1 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_value_kernel i arg2 harg2 arg3 harg3 arg4 harg4 arg5 harg5 arg6 harg6 arg7 harg7 arg8 harg8) K } := by
  refine ⟨?_, [], ?_, fun xi5 E K => ?run⟩
  case run =>
    simp only [cc2__cosine_value_kernel_eq_skeleton]; unfold cc2__cosine_value_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

end Cert.KernelIdeal.Fr

end
-- ==== Proof.KI.Cos.RunC.lean ====
/-
  The whole-body run of the cosine/value call's kernel at the last point of a row of the grid.
-/
import proofs.«168271_j46969762349635_2_alg».proof.Proof.KI.Cos.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT OF A ROW (the column coordinate is 7, not 0). On whole memrefs — the four inputs' at their contents
    `x0 .. x3`, the logits' and the values' buffers at anything, the accumulator at what the point before left, `xs0` —
    the body stores the block of logits, adds the block's weighted row sums to the accumulator, and stores the logistic
    function of the accumulator plus the value bias into the values' buffer. The pieces each buffer ends with (last store
    first) are the witness: `.1` the logits' buffer's, `.2.1` the values' buffer's, `.2.2.1` the accumulator's. -/
noncomputable def kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) :
    Σ' (L4 : List (View.Piece (Elt F) S1024x1024 .f32)) (L5 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_value_kernel i arg2 harg2 arg3 harg3 arg4 harg4 arg5 harg5 arg6 harg6 arg7 harg7 arg8 harg8) K } := by
  refine ⟨?_, ?_, ?_, fun E K => ?run⟩
  case run =>
    simp only [cc2__cosine_value_kernel_eq_skeleton]; unfold cc2__cosine_value_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Fr

end
-- ==== Proof.KI.Cos.lean ====
/-
  The cosine/value call's half of the frame, at a parameter V (the contents of the core's buffers when the call is
  entered): what its two output windows' staging buffers and its accumulator hold after the body at each point of the
  2 x 8 grid, the proof data of its pipeline, and the body obligation.

  The three runs (kernelRun2_A at the first point of a row, kernelRun2_B at an inner point, kernelRun2_C at the last point)
  each carry three lists of pieces, last store first:
    .1      the pieces of window 4's buffer (the 1024 x 1024 block of logits),
    .2.1    the pieces of window 5's buffer (the column of 1024 values; empty at the first and the inner points),
    .2.2.1  the pieces of the accumulator (the scratch column of 1024 numbers).
  Along a row the accumulator after point j holds the sum over the speaker blocks 0 .. j of the weighted row sums of the
  logits; the first point stores zeros into it before adding, so what it held before a row does not matter.
-/
import proofs.«168271_j46969762349635_2_alg».proof.Proof.KI.Cos.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the call is entered
variable (V : (c : Dev nD) → (b : Ref sig .tc) → Buf (Elt F) ((c : Thread nD τ).loc b))

/-! ## What each case leaves -/

/-- At the first point of a row the one store into window 4's buffer is whole, so the pieces cover it. -/
theorem cover2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) (y : S1024x1024.Idx) :
    ∃ pc ∈ (kernelRun2_A c i arg2 harg2 arg3 harg3 arg4 harg4 arg5 harg5 arg6 harg6 arg7 harg7 arg8 harg8 hc0 hc1 x0 x1 x2 x3).1, y ∈ pc.1.set :=
  View.cover_of_tiledL (kernelRun2_A c i arg2 harg2 arg3 harg3 arg4 harg4 arg5 harg5 arg6 harg6 arg7 harg7 arg8 harg8 hc0 hc1 x0 x1 x2 x3).1 S1024x1024.size (by sl_kernel_rfl) y

/-- What the first point of a row leaves in window 4's buffer: its pieces read back. -/
def out2_A_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) : Vec F S1024x1024 .f32 :=
  VO2_4.read (Elt F) (VO2_4.writes (Elt F) VO2_4.junk (kernelRun2_A c i arg2 harg2 arg3 harg3 arg4 harg4 arg5 harg5 arg6 harg6 arg7 harg7 arg8 harg8 hc0 hc1 x0 x1 x2 x3).1)

/-- At the first point of a row nothing is stored into window 5's buffer (the window is idle there and is not written back): no
    pieces — a placeholder that nothing consults. -/
def out2_A_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) : Vec F S1024x1 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2 x3).2.1)

/-- At the first point of a row the stores into the accumulator are whole, so the pieces cover it. -/
theorem scover2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) (y : S1024x1.Idx) :
    ∃ pc ∈ (kernelRun2_A c i arg2 harg2 arg3 harg3 arg4 harg4 arg5 harg5 arg6 harg6 arg7 harg7 arg8 harg8 hc0 hc1 x0 x1 x2 x3).2.2.1, y ∈ pc.1.set :=
  View.cover_of_tiledL (kernelRun2_A c i arg2 harg2 arg3 harg3 arg4 harg4 arg5 harg5 arg6 harg6 arg7 harg7 arg8 harg8 hc0 hc1 x0 x1 x2 x3).2.2.1 S1024x1.size (by sl_kernel_rfl) y

/-- What the first point of a row leaves in the accumulator: its pieces read back. -/
def sout2_A_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) : Vec F S1024x1 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3).2.2.1)

/-- At an inner point of a row the one store into window 4's buffer is whole, so the pieces cover it. -/
theorem cover2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) (y : S1024x1024.Idx) :
    ∃ pc ∈ (kernelRun2_B c i arg2 harg2 arg3 harg3 arg4 harg4 arg5 harg5 arg6 harg6 arg7 harg7 arg8 harg8 hc0 hc1 x0 x1 x2 x3 xs0).1, y ∈ pc.1.set :=
  View.cover_of_tiledL (kernelRun2_B c i arg2 harg2 arg3 harg3 arg4 harg4 arg5 harg5 arg6 harg6 arg7 harg7 arg8 harg8 hc0 hc1 x0 x1 x2 x3 xs0).1 S1024x1024.size (by sl_kernel_rfl) y

/-- What an inner point of a row leaves in window 4's buffer: its pieces read back. -/
def out2_B_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) : Vec F S1024x1024 .f32 :=
  VO2_4.read (Elt F) (VO2_4.writes (Elt F) VO2_4.junk (kernelRun2_B c i arg2 harg2 arg3 harg3 arg4 harg4 arg5 harg5 arg6 harg6 arg7 harg7 arg8 harg8 hc0 hc1 x0 x1 x2 x3 xs0).1)

/-- At an inner point of a row nothing is stored into window 5's buffer (the window is idle there and is not written back): no
    pieces — a placeholder that nothing consults. -/
def out2_B_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 x3 xs0).2.1)

/-- At an inner point of a row the stores into the accumulator are whole, so the pieces cover it. -/
theorem scover2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) (y : S1024x1.Idx) :
    ∃ pc ∈ (kernelRun2_B c i arg2 harg2 arg3 harg3 arg4 harg4 arg5 harg5 arg6 harg6 arg7 harg7 arg8 harg8 hc0 hc1 x0 x1 x2 x3 xs0).2.2.1, y ∈ pc.1.set :=
  View.cover_of_tiledL (kernelRun2_B c i arg2 harg2 arg3 harg3 arg4 harg4 arg5 harg5 arg6 harg6 arg7 harg7 arg8 harg8 hc0 hc1 x0 x1 x2 x3 xs0).2.2.1 S1024x1.size (by sl_kernel_rfl) y

/-- What an inner point of a row leaves in the accumulator: its pieces read back. -/
def sout2_B_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).2.2.1)

/-- At the last point of a row the one store into window 4's buffer is whole, so the pieces cover it. -/
theorem cover2_C_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) (y : S1024x1024.Idx) :
    ∃ pc ∈ (kernelRun2_C c i arg2 harg2 arg3 harg3 arg4 harg4 arg5 harg5 arg6 harg6 arg7 harg7 arg8 harg8 hc0 hc1 x0 x1 x2 x3 xs0).1, y ∈ pc.1.set :=
  View.cover_of_tiledL (kernelRun2_C c i arg2 harg2 arg3 harg3 arg4 harg4 arg5 harg5 arg6 harg6 arg7 harg7 arg8 harg8 hc0 hc1 x0 x1 x2 x3 xs0).1 S1024x1024.size (by sl_kernel_rfl) y

/-- What the last point of a row leaves in window 4's buffer: its pieces read back. -/
def out2_C_4 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) : Vec F S1024x1024 .f32 :=
  VO2_4.read (Elt F) (VO2_4.writes (Elt F) VO2_4.junk (kernelRun2_C c i arg2 harg2 arg3 harg3 arg4 harg4 arg5 harg5 arg6 harg6 arg7 harg7 arg8 harg8 hc0 hc1 x0 x1 x2 x3 xs0).1)

/-- At the last point of a row the one store into window 5's buffer is whole, so the pieces cover it. -/
theorem cover2_C_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) (y : S1024x1.Idx) :
    ∃ pc ∈ (kernelRun2_C c i arg2 harg2 arg3 harg3 arg4 harg4 arg5 harg5 arg6 harg6 arg7 harg7 arg8 harg8 hc0 hc1 x0 x1 x2 x3 xs0).2.1, y ∈ pc.1.set :=
  View.cover_of_tiledL (kernelRun2_C c i arg2 harg2 arg3 harg3 arg4 harg4 arg5 harg5 arg6 harg6 arg7 harg7 arg8 harg8 hc0 hc1 x0 x1 x2 x3 xs0).2.1 S1024x1.size (by sl_kernel_rfl) y

/-- What the last point of a row leaves in window 5's buffer: its pieces read back. -/
def out2_C_5 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)

/-- At the last point of a row the stores into the accumulator are whole, so the pieces cover it. -/
theorem scover2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) (y : S1024x1.Idx) :
    ∃ pc ∈ (kernelRun2_C c i arg2 harg2 arg3 harg3 arg4 harg4 arg5 harg5 arg6 harg6 arg7 harg7 arg8 harg8 hc0 hc1 x0 x1 x2 x3 xs0).2.2.1, y ∈ pc.1.set :=
  View.cover_of_tiledL (kernelRun2_C c i arg2 harg2 arg3 harg3 arg4 harg4 arg5 harg5 arg6 harg6 arg7 harg7 arg8 harg8 hc0 hc1 x0 x1 x2 x3 xs0).2.2.1 S1024x1.size (by sl_kernel_rfl) y

/-- What the last point of a row leaves in the accumulator: its pieces read back. -/
def sout2_C_0 (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) : Vec F S1024x1 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)

/-! ## What the outputs and the accumulator hold after each point -/

/-- THE ACCUMULATION. After the body at position `n`: (window 4's buffer, window 5's buffer, the accumulator) — the case the
    position's column coordinate selects, run at the point's memrefs and input blocks, the accumulator at an inner or a last
    point starting from what position `n - 1` left in it. -/
def outsAt2 (c : Dev nD) : (n : ℕ) → n < cfg2.N → Vec F S1024x1024 .f32 × Vec F S1024x1 .f32 × Vec F S1024x1 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2)

/-- `outsAt2` at the first point of a row. -/
theorem outsAt2_A (c : Dev nD) (t : Fin cfg2.N) (h0 : t.val % 8 = 0) (h1 : ¬t.val % 8 = 7) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at an inner point of a row: over what the point before left in the accumulator. -/
theorem outsAt2_B (c : Dev nD) (t : Fin cfg2.N) (h0 : ¬t.val % 8 = 0) (h1 : ¬t.val % 8 = 7) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point of a row: over what the point before left in the accumulator. -/
theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The call's invariant, point by point -/

/-- Before position `n`: before the first point what the launch hands the call (every scoped buffer that is no staging buffer
    of this call at some contents, the generator register at some state); afterwards the same with the accumulator at what
    the point before left in it. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare ((outsAt2 V c n hn).2.2)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare ((outsAt2 V c (n - 1) (by omega)).2.2)) ∗ (∃ r, prngReg c r)) := by
  cases n with
  | zero => exact absurd rfl hz
  | succ n => rfl

/-! ## The pipeline's proof data -/

/-- The proof data of the call's pipeline on core `c`: the arrays as the call finds them; after the body at point `t` each
    input's buffer at its block, window 4's and window 5's at `outsAt2`'s first two components; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at the first point of a row: the inputs' memrefs hold their blocks; the run applies; the invariant hands the body the
    accumulator (at anything: the case sets it to zero before reading what it holds) and takes it back at this point's contents; the core owes nothing throughout. -/
theorem sound_body2_A (c : Dev nD) (t : Fin cfg2.N) (h0 : t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
  rw [outsAt2_A V c t h0 h1]
  unfold out2_A_4 sout2_A_0; (try dsimp only)
  by_cases hz : t.val = 0
  · rw [PhiS2_castSucc V c t, PhiS2_zero V c _ _ hz]
    refine BIBase.Entails.trans (Laws.sep_mono_left (PhiA2_split c)) ?_
    iintro ⟨⟨⟨HR, HS0⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover2_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _)
    iexists _; iexact H5
  · rw [PhiS2_castSucc V c t, PhiS2_pos V c _ _ hz]
    iintro ⟨⟨⟨HR, HS0⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexists _; iexact HS0
    iintro ⟨H0, H1, H2, H3, ⟨%e4, H4⟩, H5, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover2_A_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _ _ _ _)
    iexists _; iexact H5

set_option maxHeartbeats 4800000 in
/-- The body at an inner point of a row: the inputs' memrefs hold their blocks; the run applies; the invariant hands the body the
    accumulator at what the point before left and takes it back at this point's contents; the core owes nothing throughout. -/
theorem sound_body2_B (c : Dev nD) (t : Fin cfg2.N) (h0 : ¬t.val % 8 = 0) (h1 : ¬t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
  rw [outsAt2_B V c t h0 h1]
  unfold out2_B_4 sout2_B_0; (try dsimp only)
  have hz : t.val ≠ 0 := by omega
  rw [PhiS2_castSucc V c t, PhiS2_pos V c _ _ hz]
  iintro ⟨⟨⟨HR, HS0⟩, Hg⟩, Ho, ⟨%d0, H0⟩, ⟨%d1, H1⟩, ⟨%d2, H2⟩, ⟨%d3, H3⟩, ⟨%d4, H4⟩, ⟨%d5, H5⟩⟩
  iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2.2 _ Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%e4, H4⟩, H5, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover2_B_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_B_4 c _ _ _ _ _ _ _ _ _ _ _ _ _ _ _ _ _ _ _ _ _ _)
  iexists _; iexact H5

set_option maxHeartbeats 4800000 in
/-- The body at the last point of a row: the inputs' memrefs hold their blocks; the run applies; the invariant hands the body the
    accumulator at what the point before left and takes it back at this point's contents; the core owes nothing throughout. -/
theorem sound_body2_C (c : Dev nD) (t : Fin cfg2.N) (h0 : ¬t.val % 8 = 0) (h1 : t.val % 8 = 7) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5_C t (fun h => h0 ((hcond2_0 t).mp h)) ((hcond2_1 t).mpr h1)], after2_5]
  rw [outsAt2_C V c t h0 h1]
  unfold out2_C_4 out2_C_5 sout2_C_0; (try dsimp only)
  have hz : t.val ≠ 0 := by omega
  rw [PhiS2_castSucc V c t, PhiS2_pos V c _ _ hz]
  iintro ⟨⟨⟨HR, HS0⟩, Hg⟩, Ho, ⟨%d0, H0⟩, ⟨%d1, H1⟩, ⟨%d2, H2⟩, ⟨%d3, H3⟩, ⟨%d4, H4⟩, ⟨%d5, H5⟩⟩
  iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) _).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, ⟨%e4, H4⟩, ⟨%e5, H5⟩, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover2_C_0 c _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_C_4 c _ _ _ _ _ _ _ _ _ _ _ _ _ _ _ _ _ _ _ _ _ _)
  unfold owns; iexists _; isplitr
  swap; · iexact H5
  ipureintro; exact View.read_writes_of_cover _ _ _ _ _ (cover2_C_5 c _ _ _ _ _ _ _ _ _ _ _ _ _ _ _ _ _ _ _ _ _ _)

/-- The body at any point: the column coordinate selects the case. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 8 = 0
  · exact sound_body2_A V c t h0 (by omega)
  · by_cases h1 : t.val % 8 = 7
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_join c)
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Fr

end
-- ==== Proof.KI.Inst.lean ====
/-
  The frame of the whole program at any float instance, from the three pallas_calls' halves.

  The run of the program asks of each pallas_call a record: its proof data at any entry contents, the facts that the
  data's arrays are those contents, held whole, with nothing owed, the body's triple at every point, and the
  invariant's two ends. The two encoder calls keep the plain invariant, so its ends are identities; the cosine/value
  call carries a scratch buffer across points and supplies its own two ends. With the three records the run's
  conclusion holds outright: every weakly fair execution terminates and every argument array ends as launched.
-/
import proofs.«168271_j46969762349635_2_alg».proof.Proof.KI.Run
import proofs.«168271_j46969762349635_2_alg».proof.Proof.KI.Enc0
import proofs.«168271_j46969762349635_2_alg».proof.Proof.KI.Enc1
import proofs.«168271_j46969762349635_2_alg».proof.Proof.KI.Cos

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the run needs of pallas_call 0, from its proof data and its body's triple. -/
def half0 : Half0 F where
  dat := dat0
  hA := fun V c w => A_eq0 V c w
  hq := fun _ _ _ => rfl
  howed := fun _ _ _ => rfl
  hrec := fun _ _ _ => rfl
  hbody := fun V c => body_obligation0 V c
  hin := fun _ _ => .rfl
  hout := fun _ _ => .rfl

/-- What the run needs of pallas_call 1, from its proof data and its body's triple. -/
def half1 : Half1 F where
  dat := dat1
  hA := fun V c w => A_eq1 V c w
  hq := fun _ _ _ => rfl
  howed := fun _ _ _ => rfl
  hrec := fun _ _ _ => rfl
  hbody := fun V c => body_obligation1 V c
  hin := fun _ _ => .rfl
  hout := fun _ _ => .rfl

/-- What the run needs of pallas_call 2, from its proof data and its body's triple. -/
def half2 : Half2 F where
  dat := dat2
  hA := fun V c w => A_eq2 V c w
  hq := fun _ _ _ => rfl
  howed := fun _ _ _ => rfl
  hrec := fun _ _ _ => rfl
  hbody := fun V c => body_obligation2 V c
  hin := fun V c => hin2 V c
  hout := fun V c => hout2 V c

/-- THE FRAME at any float instance: every weakly fair execution of the program from memory `m` with zero counters
    terminates, nothing faulting, and every argument array ends as launched. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame m ρ half0 half1 half2

end Cert.KernelIdeal.Fr

end
-- ==== Proof.KI.Entry.lean ====
/-
  What each pallas_call finds in its arrays, in terms of the memory the program is launched with, at the ideal
  float instance.

  Before each pallas_call a short stretch of host operations prepares its parameter arrays: a weight matrix is
  converted to bf16 (at the ideal instance the conversion changes nothing), a bias vector of length n is reshaped to a
  single row [1, n], the column of value weights [8192, 1] is reshaped to a row [1, 8192], and the value bias [1] to
  [1, 1]. No host operation and no pallas_call writes an argument array, so every argument read along the way is the
  launch memory's. The last pallas_call's two encoded inputs are what the two encoder calls' write-backs leave.
-/
import proofs.«168271_j46969762349635_2_alg».proof.Proof.KI.Run
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)
variable (H0 : Half0 Ideal) (H1 : Half1 Ideal)

/-! ## Which buffer each window's array is -/

theorem arrRef0_0 : Pipeline.arrRef spec0 0 = main_arg0 := rfl
theorem arrRef0_1 : Pipeline.arrRef spec0 1 = main_v0 := rfl
theorem arrRef0_2 : Pipeline.arrRef spec0 2 = main_v2 := rfl
theorem arrRef0_3 : Pipeline.arrRef spec0 3 = main_v1 := rfl
theorem arrRef0_4 : Pipeline.arrRef spec0 4 = main_v3 := rfl
theorem arrRef0_5 : Pipeline.arrRef spec0 5 = main_v4 := rfl

theorem arrRef1_0 : Pipeline.arrRef spec1 0 = main_arg1 := rfl
theorem arrRef1_1 : Pipeline.arrRef spec1 1 = main_v5 := rfl
theorem arrRef1_2 : Pipeline.arrRef spec1 2 = main_v7 := rfl
theorem arrRef1_3 : Pipeline.arrRef spec1 3 = main_v6 := rfl
theorem arrRef1_4 : Pipeline.arrRef spec1 4 = main_v8 := rfl
theorem arrRef1_5 : Pipeline.arrRef spec1 5 = main_v9 := rfl

theorem arrRef2_0 : Pipeline.arrRef spec2 0 = main_v4 := rfl
theorem arrRef2_1 : Pipeline.arrRef spec2 1 = main_v9 := rfl
theorem arrRef2_2 : Pipeline.arrRef spec2 2 = main_v10 := rfl
theorem arrRef2_3 : Pipeline.arrRef spec2 3 = main_v11 := rfl
theorem arrRef2_4 : Pipeline.arrRef spec2 4 = main_v12_0 := rfl
theorem arrRef2_5 : Pipeline.arrRef spec2 5 = main_v12_1 := rfl

/-! ## Arguments that are still the launch memory's after the first, and after the second, pallas_call -/

theorem W2_main_arg6 (c : Dev nD) : W2 m ρ H0 c (Proc.devRef .tc main_arg6) = m ((c : Thread nD τ).loc main_arg6) :=
  calc W2 m ρ H0 c (Proc.devRef .tc main_arg6)
    _ = W1 m ρ c (Proc.devRef .tc main_arg6) := W2_of_ne m ρ H0 c main_arg6 (by decide)
    _ = W0 m ρ c (Proc.devRef .tc main_arg6) := StableHlo.after_of_forall_not_mem (b := Proc.devRef .tc main_arg6) _ _ (List.forall_iff_forall_mem.mp (by host_keeps))
    _ = m ((c : Thread nD τ).loc main_arg6) := rfl

theorem W2_main_arg7 (c : Dev nD) : W2 m ρ H0 c (Proc.devRef .tc main_arg7) = m ((c : Thread nD τ).loc main_arg7) :=
  calc W2 m ρ H0 c (Proc.devRef .tc main_arg7)
    _ = W1 m ρ c (Proc.devRef .tc main_arg7) := W2_of_ne m ρ H0 c main_arg7 (by decide)
    _ = W0 m ρ c (Proc.devRef .tc main_arg7) := StableHlo.after_of_forall_not_mem (b := Proc.devRef .tc main_arg7) _ _ (List.forall_iff_forall_mem.mp (by host_keeps))
    _ = m ((c : Thread nD τ).loc main_arg7) := rfl

theorem W2_main_arg8 (c : Dev nD) : W2 m ρ H0 c (Proc.devRef .tc main_arg8) = m ((c : Thread nD τ).loc main_arg8) :=
  calc W2 m ρ H0 c (Proc.devRef .tc main_arg8)
    _ = W1 m ρ c (Proc.devRef .tc main_arg8) := W2_of_ne m ρ H0 c main_arg8 (by decide)
    _ = W0 m ρ c (Proc.devRef .tc main_arg8) := StableHlo.after_of_forall_not_mem (b := Proc.devRef .tc main_arg8) _ _ (List.forall_iff_forall_mem.mp (by host_keeps))
    _ = m ((c : Thread nD τ).loc main_arg8) := rfl

theorem W2_main_arg9 (c : Dev nD) : W2 m ρ H0 c (Proc.devRef .tc main_arg9) = m ((c : Thread nD τ).loc main_arg9) :=
  calc W2 m ρ H0 c (Proc.devRef .tc main_arg9)
    _ = W1 m ρ c (Proc.devRef .tc main_arg9) := W2_of_ne m ρ H0 c main_arg9 (by decide)
    _ = W0 m ρ c (Proc.devRef .tc main_arg9) := StableHlo.after_of_forall_not_mem (b := Proc.devRef .tc main_arg9) _ _ (List.forall_iff_forall_mem.mp (by host_keeps))
    _ = m ((c : Thread nD τ).loc main_arg9) := rfl

theorem W4_main_arg10 (c : Dev nD) : W4 m ρ H0 H1 c (Proc.devRef .tc main_arg10) = m ((c : Thread nD τ).loc main_arg10) :=
  calc W4 m ρ H0 H1 c (Proc.devRef .tc main_arg10)
    _ = W3 m ρ H0 c (Proc.devRef .tc main_arg10) := W4_of_ne m ρ H0 H1 c main_arg10 (by decide)
    _ = W2 m ρ H0 c (Proc.devRef .tc main_arg10) := StableHlo.after_of_forall_not_mem (b := Proc.devRef .tc main_arg10) _ _ (List.forall_iff_forall_mem.mp (by host_keeps))
    _ = W1 m ρ c (Proc.devRef .tc main_arg10) := W2_of_ne m ρ H0 c main_arg10 (by decide)
    _ = W0 m ρ c (Proc.devRef .tc main_arg10) := StableHlo.after_of_forall_not_mem (b := Proc.devRef .tc main_arg10) _ _ (List.forall_iff_forall_mem.mp (by host_keeps))
    _ = m ((c : Thread nD τ).loc main_arg10) := rfl

theorem W4_main_arg11 (c : Dev nD) : W4 m ρ H0 H1 c (Proc.devRef .tc main_arg11) = m ((c : Thread nD τ).loc main_arg11) :=
  calc W4 m ρ H0 H1 c (Proc.devRef .tc main_arg11)
    _ = W3 m ρ H0 c (Proc.devRef .tc main_arg11) := W4_of_ne m ρ H0 H1 c main_arg11 (by decide)
    _ = W2 m ρ H0 c (Proc.devRef .tc main_arg11) := StableHlo.after_of_forall_not_mem (b := Proc.devRef .tc main_arg11) _ _ (List.forall_iff_forall_mem.mp (by host_keeps))
    _ = W1 m ρ c (Proc.devRef .tc main_arg11) := W2_of_ne m ρ H0 c main_arg11 (by decide)
    _ = W0 m ρ c (Proc.devRef .tc main_arg11) := StableHlo.after_of_forall_not_mem (b := Proc.devRef .tc main_arg11) _ _ (List.forall_iff_forall_mem.mp (by host_keeps))
    _ = m ((c : Thread nD τ).loc main_arg11) := rfl

/-! ## What the first encoder call is entered with -/

/-- The block rows: the first argument, as launched. -/
theorem entry0_x (c : Dev nD) : V1 m ρ c main_arg0 = m ((c : Thread nD τ).loc main_arg0) :=
  StableHlo.after_of_forall_not_mem (b := Proc.devRef .tc main_arg0) _ _ (List.forall_iff_forall_mem.mp (by host_keeps))

/-- The first weight matrix: the third argument converted to bf16, which at the ideal instance is the argument itself. -/
theorem entry0_w1 (c : Dev nD) (d : Fin 1024) (k : Fin 4096) :
    (V1 m ρ c main_v0 : S1024x4096.Idx → EReal) (ix2 d k) = (m ((c : Thread nD τ).loc main_arg2) : S1024x4096.Idx → EReal) (ix2 d k) := by
  have e : (V1 m ρ c main_v0 : S1024x4096.Idx → EReal)
      = (truncf .bf16 (m ((c : Thread nD τ).loc main_arg2) : FVec Ideal S1024x4096 .f32) bitsLt_bf16_f32 : FVec Ideal S1024x4096 .bf16) := by
    show StableHlo.after hostOps0 _ (Proc.devRef .tc main_v0) = _
    after_results <;> rfl
  exact (congrFun e _).trans (truncf_apply _ _ _)

/-- The second weight matrix: the fifth argument converted to bf16. -/
theorem entry0_w2 (c : Dev nD) (k : Fin 4096) (e : Fin 1024) :
    (V1 m ρ c main_v1 : S4096x1024.Idx → EReal) (ix2 k e) = (m ((c : Thread nD τ).loc main_arg4) : S4096x1024.Idx → EReal) (ix2 k e) := by
  have h : (V1 m ρ c main_v1 : S4096x1024.Idx → EReal)
      = (truncf .bf16 (m ((c : Thread nD τ).loc main_arg4) : FVec Ideal S4096x1024 .f32) bitsLt_bf16_f32 : FVec Ideal S4096x1024 .bf16) := by
    show StableHlo.after hostOps0 _ (Proc.devRef .tc main_v1) = _
    after_results <;> rfl
  exact (congrFun h _).trans (truncf_apply _ _ _)

/-- The first bias: the fourth argument as a single row. -/
theorem entry0_b1 (c : Dev nD) (k : Fin 4096) :
    (V1 m ρ c main_v2 : S1x4096.Idx → EReal) (ix2 (0 : Fin 1) k) = (m ((c : Thread nD τ).loc main_arg3) : S4096.Idx → EReal) (ix1 k) := by
  have h : (V1 m ρ c main_v2 : S1x4096.Idx → EReal)
      = shapeCast S1x4096 (m ((c : Thread nD τ).loc main_arg3) : S4096.Idx → EReal) shapeCasts_S4096_S1x4096 := by
    show StableHlo.after hostOps0 _ (Proc.devRef .tc main_v2) = _
    after_results <;> rfl
  exact (congrFun h _).trans (shapeCast_a_1a_apply _ _ _ _)

/-- The second bias: the sixth argument as a single row. -/
theorem entry0_b2 (c : Dev nD) (e : Fin 1024) :
    (V1 m ρ c main_v3 : S1x1024.Idx → EReal) (ix2 (0 : Fin 1) e) = (m ((c : Thread nD τ).loc main_arg5) : S1024.Idx → EReal) (ix1 e) := by
  have h : (V1 m ρ c main_v3 : S1x1024.Idx → EReal)
      = shapeCast S1x1024 (m ((c : Thread nD τ).loc main_arg5) : S1024.Idx → EReal) shapeCasts_S1024_S1x1024 := by
    show StableHlo.after hostOps0 _ (Proc.devRef .tc main_v3) = _
    after_results <;> rfl
  exact (congrFun h _).trans (shapeCast_a_1a_apply _ _ _ _)

/-! ## What the second encoder call is entered with -/

/-- The block rows: the second argument, as launched. -/
theorem entry1_x (c : Dev nD) : V3 m ρ H0 c main_arg1 = m ((c : Thread nD τ).loc main_arg1) :=
  calc W3 m ρ H0 c (Proc.devRef .tc main_arg1)
    _ = W2 m ρ H0 c (Proc.devRef .tc main_arg1) := StableHlo.after_of_forall_not_mem (b := Proc.devRef .tc main_arg1) _ _ (List.forall_iff_forall_mem.mp (by host_keeps))
    _ = W1 m ρ c (Proc.devRef .tc main_arg1) := W2_of_ne m ρ H0 c main_arg1 (by decide)
    _ = W0 m ρ c (Proc.devRef .tc main_arg1) := StableHlo.after_of_forall_not_mem (b := Proc.devRef .tc main_arg1) _ _ (List.forall_iff_forall_mem.mp (by host_keeps))
    _ = m ((c : Thread nD τ).loc main_arg1) := rfl

/-- The first weight matrix: the seventh argument converted to bf16. -/
theorem entry1_w1 (c : Dev nD) (d : Fin 1024) (k : Fin 4096) :
    (V3 m ρ H0 c main_v5 : S1024x4096.Idx → EReal) (ix2 d k) = (m ((c : Thread nD τ).loc main_arg6) : S1024x4096.Idx → EReal) (ix2 d k) := by
  have h : (V3 m ρ H0 c main_v5 : S1024x4096.Idx → EReal)
      = (truncf .bf16 (W2 m ρ H0 c (Proc.devRef .tc main_arg6) : FVec Ideal S1024x4096 .f32) bitsLt_bf16_f32 : FVec Ideal S1024x4096 .bf16) := by
    show StableHlo.after hostOps1 _ (Proc.devRef .tc main_v5) = _
    after_results <;> rfl
  exact (congrFun h _).trans ((truncf_apply (s := S1024x4096) (φ := .f32) (ψ := .bf16) _ bitsLt_bf16_f32 _).trans (congrFun (W2_main_arg6 m ρ H0 c) _))

/-- The second weight matrix: the ninth argument converted to bf16. -/
theorem entry1_w2 (c : Dev nD) (k : Fin 4096) (e : Fin 1024) :
    (V3 m ρ H0 c main_v6 : S4096x1024.Idx → EReal) (ix2 k e) = (m ((c : Thread nD τ).loc main_arg8) : S4096x1024.Idx → EReal) (ix2 k e) := by
  have h : (V3 m ρ H0 c main_v6 : S4096x1024.Idx → EReal)
      = (truncf .bf16 (W2 m ρ H0 c (Proc.devRef .tc main_arg8) : FVec Ideal S4096x1024 .f32) bitsLt_bf16_f32 : FVec Ideal S4096x1024 .bf16) := by
    show StableHlo.after hostOps1 _ (Proc.devRef .tc main_v6) = _
    after_results <;> rfl
  exact (congrFun h _).trans ((truncf_apply (s := S4096x1024) (φ := .f32) (ψ := .bf16) _ bitsLt_bf16_f32 _).trans (congrFun (W2_main_arg8 m ρ H0 c) _))

/-- The first bias: the eighth argument as a single row. -/
theorem entry1_b1 (c : Dev nD) (k : Fin 4096) :
    (V3 m ρ H0 c main_v7 : S1x4096.Idx → EReal) (ix2 (0 : Fin 1) k) = (m ((c : Thread nD τ).loc main_arg7) : S4096.Idx → EReal) (ix1 k) := by
  have h : (V3 m ρ H0 c main_v7 : S1x4096.Idx → EReal)
      = shapeCast S1x4096 (W2 m ρ H0 c (Proc.devRef .tc main_arg7) : S4096.Idx → EReal) shapeCasts_S4096_S1x4096 := by
    show StableHlo.after hostOps1 _ (Proc.devRef .tc main_v7) = _
    after_results <;> rfl
  exact (congrFun h _).trans ((shapeCast_a_1a_apply _ _ _ _).trans (congrFun (W2_main_arg7 m ρ H0 c) _))

/-- The second bias: the tenth argument as a single row. -/
theorem entry1_b2 (c : Dev nD) (e : Fin 1024) :
    (V3 m ρ H0 c main_v8 : S1x1024.Idx → EReal) (ix2 (0 : Fin 1) e) = (m ((c : Thread nD τ).loc main_arg9) : S1024.Idx → EReal) (ix1 e) := by
  have h : (V3 m ρ H0 c main_v8 : S1x1024.Idx → EReal)
      = shapeCast S1x1024 (W2 m ρ H0 c (Proc.devRef .tc main_arg9) : S1024.Idx → EReal) shapeCasts_S1024_S1x1024 := by
    show StableHlo.after hostOps1 _ (Proc.devRef .tc main_v8) = _
    after_results <;> rfl
  exact (congrFun h _).trans ((shapeCast_a_1a_apply _ _ _ _).trans (congrFun (W2_main_arg9 m ρ H0 c) _))

/-! ## What the cosine/value call is entered with -/

/-- The encoded messages: what the first encoder call's write-backs leave in its output array. -/
theorem entry2_m (c : Dev nD) : V5 m ρ H0 H1 c main_v4 = (H0.dat (V1 m ρ) c).arrAt 5 cfg0.N :=
  calc W5 m ρ H0 H1 c (Proc.devRef .tc main_v4)
    _ = W4 m ρ H0 H1 c (Proc.devRef .tc main_v4) := StableHlo.after_of_forall_not_mem (b := Proc.devRef .tc main_v4) _ _ (List.forall_iff_forall_mem.mp (by host_keeps))
    _ = W3 m ρ H0 c (Proc.devRef .tc main_v4) := W4_of_ne m ρ H0 H1 c main_v4 (by decide)
    _ = W2 m ρ H0 c (Proc.devRef .tc main_v4) := StableHlo.after_of_forall_not_mem (b := Proc.devRef .tc main_v4) _ _ (List.forall_iff_forall_mem.mp (by host_keeps))
    _ = (H0.dat (V1 m ρ) c).arrAt 5 cfg0.N := W2_arr m ρ H0 c 5

/-- The encoded speakers: what the second encoder call's write-backs leave in its output array. -/
theorem entry2_c (c : Dev nD) : V5 m ρ H0 H1 c main_v9 = (H1.dat (V3 m ρ H0) c).arrAt 5 cfg1.N :=
  calc W5 m ρ H0 H1 c (Proc.devRef .tc main_v9)
    _ = W4 m ρ H0 H1 c (Proc.devRef .tc main_v9) := StableHlo.after_of_forall_not_mem (b := Proc.devRef .tc main_v9) _ _ (List.forall_iff_forall_mem.mp (by host_keeps))
    _ = (H1.dat (V3 m ρ H0) c).arrAt 5 cfg1.N := W4_arr m ρ H0 H1 c 5

/-- The value weights: the column of 8192 weights, the eleventh argument, as a single row. -/
theorem entry2_vw (c : Dev nD) (n : Fin 8192) :
    (V5 m ρ H0 H1 c main_v10 : S1x8192.Idx → EReal) (ix2 (0 : Fin 1) n) = (m ((c : Thread nD τ).loc main_arg10) : S8192x1.Idx → EReal) (ix2 n (0 : Fin 1)) := by
  have h : (V5 m ρ H0 H1 c main_v10 : S1x8192.Idx → EReal)
      = shapeCast S1x8192 (W4 m ρ H0 H1 c (Proc.devRef .tc main_arg10) : S8192x1.Idx → EReal) shapeCasts_S8192x1_S1x8192 := by
    show StableHlo.after hostOps2 _ (Proc.devRef .tc main_v10) = _
    after_results <;> rfl
  refine (congrFun h _).trans ((shapeCast_apply _ _ _ (ix2 n (0 : Fin 1)) ?_).trans (congrFun (W4_main_arg10 m ρ H0 H1 c) _))
  rw [Shape.rowMajor_val_two, Shape.rowMajor_val_two]
  show n.val * 1 + 0 = 0 * 8192 + n.val
  omega

/-- The value bias: the twelfth argument, one number, as a 1 by 1 array. -/
theorem entry2_vb (c : Dev nD) :
    (V5 m ρ H0 H1 c main_v11 : S1x1.Idx → EReal) (ix2 (0 : Fin 1) (0 : Fin 1)) = (m ((c : Thread nD τ).loc main_arg11) : S1.Idx → EReal) (ix1 (0 : Fin 1)) := by
  have h : (V5 m ρ H0 H1 c main_v11 : S1x1.Idx → EReal)
      = shapeCast S1x1 (W4 m ρ H0 H1 c (Proc.devRef .tc main_arg11) : S1.Idx → EReal) shapeCasts_S1_S1x1 := by
    show StableHlo.after hostOps2 _ (Proc.devRef .tc main_v11) = _
    after_results <;> rfl
  exact (congrFun h _).trans ((shapeCast_a_1a_apply _ _ _ _).trans (congrFun (W4_main_arg11 m ρ H0 H1 c) _))

end Cert.KernelIdeal.Fr

end
-- ==== Proof.Spec.lean ====
/-
  The mathematics both programs compute, row by row, on the extended reals.

  An encoder sends a row x of 1024 numbers to the 1024 numbers
      o e = sum over k of relu (sum over d of x d * w1 d k + b1 k) * w2 k e + b2 e,
  divided by max (sqrt (sum over e of (o e)^2)) eps: the row scaled to unit length, the
  length bounded below by eps. A logit is (1 + <m, c>) / 2 for a message row m and a
  speaker row c, and a value is the logistic function of a row of 8192 logits paired
  with the value weights, plus the value bias. Every float literal is kept as its word.
-/
import Idealize.ShloMosaic.PureOps.Ideal
import Idealize.ShloMosaic.Lib.ValueIdx

noncomputable section

open scoped BigOperators

namespace Cert.Spec

open Idealize.ShloMosaic Idealize.ShloMosaic.ValueIdx

/-- The word of `+0.0`. -/
abbrev zeroW : EReal := Ideal.ofBits .f32 0x00000000#32
/-- The word of the lower bound of a row's length (the float nearest 1e-8). -/
abbrev epsW : EReal := Ideal.ofBits .f32 0x322BCC77#32
/-- The word of `1.0`. -/
abbrev oneW : EReal := Ideal.ofBits .f32 0x3F800000#32
/-- The word of `0.5`. -/
abbrev halfW : EReal := Ideal.ofBits .f32 0x3F000000#32

/-- The word of `1.0` denotes the number one. -/
theorem oneW_eq : oneW = 1 := by
  simp [Ideal.ofBits, Ideal.ieee, -EReal.coe_mul]; norm_num

/-- The word of `+0.0` denotes zero. -/
theorem zeroW_eq : zeroW = 0 := by
  simp [Ideal.ofBits, Ideal.ieee]

/-- One unit of the hidden layer of a row: the positive part of the row's product with a
    column of the first weight matrix, plus that unit's bias. -/
def hid (x : Fin 1024 → EReal) (w1 : Fin 1024 → Fin 4096 → EReal) (b1 : Fin 4096 → EReal)
    (k : Fin 4096) : EReal :=
  max ((∑ d, x d * w1 d k) + b1 k) zeroW

/-- One coordinate of a row's encoding before it is scaled: the hidden layer's product with a
    column of the second weight matrix, plus that coordinate's bias. -/
def pre (x : Fin 1024 → EReal) (w1 : Fin 1024 → Fin 4096 → EReal) (b1 : Fin 4096 → EReal)
    (w2 : Fin 4096 → Fin 1024 → EReal) (b2 : Fin 1024 → EReal) (e : Fin 1024) : EReal :=
  (∑ k, hid x w1 b1 k * w2 k e) + b2 e

/-- The length a row is divided by: its Euclidean length, but at least `epsW`. -/
def len (o : Fin 1024 → EReal) : EReal :=
  max (Ideal.sqrt (∑ e, o e * o e)) epsW

/-- A row's encoding: the unscaled encoding divided by its bounded length. -/
def encRow (x : Fin 1024 → EReal) (w1 : Fin 1024 → Fin 4096 → EReal) (b1 : Fin 4096 → EReal)
    (w2 : Fin 4096 → Fin 1024 → EReal) (b2 : Fin 1024 → EReal) (e : Fin 1024) : EReal :=
  Ideal.div (pre x w1 b1 w2 b2 e) (len (pre x w1 b1 w2 b2))

/-- The logit of a message row and a speaker row: half of one plus their inner product. -/
def logit (mrow crow : Fin 1024 → EReal) : EReal :=
  (oneW + ∑ e, mrow e * crow e) * halfW

/-- The value of a row of logits: the logistic function of its pairing with the value weights,
    plus the value bias. -/
def value (lrow : Fin 8192 → EReal) (vw : Fin 8192 → EReal) (vb : EReal) : EReal :=
  Ideal.logistic ((∑ n, lrow n * vw n) + vb)

/-! ## The whole arrays -/

/-- The encoded messages: row `r` of the 2048 message rows encoded. -/
def encM (x : (⟨2, ![2048, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) (r : Fin 2048) (e : Fin 1024) : EReal :=
  encRow (fun d => x (ix2 r d)) (fun d k => w1 (ix2 d k)) (fun k => b1 (ix1 k))
    (fun k e => w2 (ix2 k e)) (fun e => b2 (ix1 e)) e

/-- The encoded speakers: row `n` of the 8192 speaker rows encoded. -/
def encC (x : (⟨2, ![8192, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) (n : Fin 8192) (e : Fin 1024) : EReal :=
  encRow (fun d => x (ix2 n d)) (fun d k => w1 (ix2 d k)) (fun k => b1 (ix1 k))
    (fun k e => w2 (ix2 k e)) (fun e => b2 (ix1 e)) e

/-- The logits from the two encoded arrays. -/
def logits (M : Fin 2048 → Fin 1024 → EReal) (C : Fin 8192 → Fin 1024 → EReal)
    (b : Fin 2048) (n : Fin 8192) : EReal :=
  logit (M b) (C n)

/-- The values from the logits, the value weights (a column of 8192) and the value bias. -/
def values (L : Fin 2048 → Fin 8192 → EReal) (vw : (⟨2, ![8192, 1]⟩ : Shape).Idx → EReal)
    (vb : (⟨1, ![1]⟩ : Shape).Idx → EReal) (b : Fin 2048) : EReal :=
  value (L b) (fun n => vw (ix2 n (0 : Fin 1))) (vb (ix1 (0 : Fin 1)))

end Cert.Spec

end
-- ==== Proof.KI.EncPayload.lean ====
/-
  The encoders' arithmetic at an index, on the extended reals.

  Both encoder bodies compute, from a block x of 256 rows, the two weight matrices and the two bias rows,
      h = max (x · w1 + b1) 0,   o = h · w2 + b2,   o / max (sqrt (sum over the lanes of o * o)) eps,
  the last division row by row. On the extended reals a change of float format is the identity, a product into
  a zero accumulator is the plain sum over the contracted axis, and the lane sum is the plain sum over the row,
  so the value at row p and lane e is the specification's encoding of row p at coordinate e.

  The file reads each operation that is not pointwise at an index (a column viewed as a one-lane matrix, a
  one-lane matrix spread along its rows, the two products, the lane sum), names the body's three stages, and
  composes them.
-/
import proofs.«168271_j46969762349635_2_alg».proof.Proof.Gen.KernelIdeal.Skeleton
import proofs.«168271_j46969762349635_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

section Layout
variable {α : Type}

/-- A column `[a]` viewed as `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products and the lane sum at an index -/

theorem lhs1_0 (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs1_1 (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs1_0 (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs1_1 (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

theorem matmul1_apply {φ₁ φ₂ : FTy} (l : FVec Ideal S256x1024 φ₁) (r : FVec Ideal S1024x4096 φ₂) (p : Fin 256) (c : Fin 4096) :
    matmul dot_S256x1024_S1024x4096_S256x4096_1_0_0_1_n_n none l r (constant (F := Ideal) S256x4096 .f32 0x00000000#32) (ix2 p c)
      = ∑ d : Fin 1024, l (ix2 p d) * r (ix2 d c) := by
  refine (Ideal.matmul_constant_zero_apply dot_S256x1024_S1024x4096_S256x4096_1_0_0_1_n_n none l r (ix2 p c)).trans ?_
  rw [← Equiv.sum_comp (contrEquiv1 dot_S256x1024_S1024x4096_S256x4096_1_0_0_1_n_n 1024 rfl rfl).symm]
  refine Finset.sum_congr rfl fun d _ => ?_
  have hk := contrEquiv1_symm_val dot_S256x1024_S1024x4096_S256x4096_1_0_0_1_n_n 1024 rfl rfl d
  have el : dot_S256x1024_S1024x4096_S256x4096_1_0_0_1_n_n.lhsIdx (ix2 p c) ((contrEquiv1 dot_S256x1024_S1024x4096_S256x4096_1_0_0_1_n_n 1024 rfl rfl).symm d) = ix2 p d :=
    funext fun a => Fin.ext (by
      match a with
      | ⟨0, _⟩ => exact lhs1_0 _ _
      | ⟨1, _⟩ => exact (lhs1_1 _ _).trans hk)
  have er : dot_S256x1024_S1024x4096_S256x4096_1_0_0_1_n_n.rhsIdx (ix2 p c) ((contrEquiv1 dot_S256x1024_S1024x4096_S256x4096_1_0_0_1_n_n 1024 rfl rfl).symm d) = ix2 d c :=
    funext fun a => Fin.ext (by
      match a with
      | ⟨0, _⟩ => exact (rhs1_0 _ _).trans hk
      | ⟨1, _⟩ => exact rhs1_1 _ _)
  rw [el, er]

theorem lhs2_0 (i : S256x1024.Idx) (q : dot_S256x4096_S4096x1024_S256x1024_1_0_0_1_n_n.contr.Idx) : (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs2_1 (i : S256x1024.Idx) (q : dot_S256x4096_S4096x1024_S256x1024_1_0_0_1_n_n.contr.Idx) : (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs2_0 (i : S256x1024.Idx) (q : dot_S256x4096_S4096x1024_S256x1024_1_0_0_1_n_n.contr.Idx) : (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs2_1 (i : S256x1024.Idx) (q : dot_S256x4096_S4096x1024_S256x1024_1_0_0_1_n_n.contr.Idx) : (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

theorem matmul2_apply {φ₁ φ₂ : FTy} (l : FVec Ideal S256x4096 φ₁) (r : FVec Ideal S4096x1024 φ₂) (p : Fin 256) (c : Fin 1024) :
    matmul dot_S256x4096_S4096x1024_S256x1024_1_0_0_1_n_n none l r (constant (F := Ideal) S256x1024 .f32 0x00000000#32) (ix2 p c)
      = ∑ k : Fin 4096, l (ix2 p k) * r (ix2 k c) := by
  refine (Ideal.matmul_constant_zero_apply dot_S256x4096_S4096x1024_S256x1024_1_0_0_1_n_n none l r (ix2 p c)).trans ?_
  rw [← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p c) ((contrEquiv1 dot_S256x4096_S4096x1024_S256x1024_1_0_0_1_n_n 4096 rfl rfl).symm k) = ix2 p k :=
    funext fun a => Fin.ext (by
      match a with
      | ⟨0, _⟩ => exact lhs2_0 _ _
      | ⟨1, _⟩ => exact (lhs2_1 _ _).trans hk)
  have er : dot_S256x4096_S4096x1024_S256x1024_1_0_0_1_n_n.rhsIdx (ix2 p c) ((contrEquiv1 dot_S256x4096_S4096x1024_S256x1024_1_0_0_1_n_n 4096 rfl rfl).symm k) = ix2 k c :=
    funext fun a => Fin.ext (by
      match a with
      | ⟨0, _⟩ => exact (rhs2_0 _ _).trans hk
      | ⟨1, _⟩ => exact rhs2_1 _ _)
  rw [el, er]

/-- The sum over the lanes of row `p`. -/
theorem rowSum_apply (src : FVec Ideal S256x1024 .f32) (hφ : FKind.Formats .f32)
    (hacc : (0x00000000#32 : BitVec 32) = FKind.add.neutral .f32 hφ) (p : Fin 256) :
    multiReduction (F := Ideal) .add [1] S256 src 0x00000000#32 reduces_S256x1024_S256 hφ hacc (ix1 p)
      = ∑ e : Fin 1024, src (ix2 p e) := by
  refine (Ideal.multiReduction_add_single src 0x00000000#32 reduces_S256x1024_S256 hφ hacc (ix1 p)).trans ?_
  refine Finset.sum_congr rfl fun e _ => congrArg src (funext fun a => Fin.ext ?_)
  match a with
  | ⟨0, _⟩ => rfl
  | ⟨1, _⟩ => rfl

/-! ## The body's arithmetic, named stage by stage -/

/-- The hidden layer as the body computes it: the first product plus the bias row, cut off below at the zero word. -/
def hidV (x0 : FVec Ideal S256x1024 .f32) (x1 : FVec Ideal S1024x4096 .bf16) (x2 : FVec Ideal S1x4096 .f32) :
    FVec Ideal S256x4096 .f32 :=
  maximumf
    (addf
      (matmul dot_S256x1024_S1024x4096_S256x4096_1_0_0_1_n_n none (truncf .bf16 x0 bitsLt_bf16_f32)
        (shapeCast S1024x4096 x1 shapeCasts_S1024x4096_S1024x4096) (constant S256x4096 .f32 0x00000000#32))
      (broadcastTo S256x4096 (shapeCast S1x4096 x2 shapeCasts_S1x4096_S1x4096) broadcasts_S1x4096_S256x4096))
    (broadcast S256x4096 (Scalar.ofBits .f32 0x00000000#32))

/-- The unscaled encoding as the body computes it: the second product plus its bias row. -/
def preV (x0 : FVec Ideal S256x1024 .f32) (x1 : FVec Ideal S1024x4096 .bf16) (x2 : FVec Ideal S1x4096 .f32)
    (x3 : FVec Ideal S4096x1024 .bf16) (x4 : FVec Ideal S1x1024 .f32) : FVec Ideal S256x1024 .f32 :=
  addf
    (matmul dot_S256x4096_S4096x1024_S256x1024_1_0_0_1_n_n none (truncf .bf16 (hidV x0 x1 x2) bitsLt_bf16_f32)
      (shapeCast S4096x1024 x3 shapeCasts_S4096x1024_S4096x1024) (constant S256x1024 .f32 0x00000000#32))
    (broadcastTo S256x1024 (shapeCast S1x1024 x4 shapeCasts_S1x1024_S1x1024) broadcasts_S1x1024_S256x1024)

/-- The column of bounded lengths as the body computes it. -/
def lenV (o : FVec Ideal S256x1024 .f32) : FVec Ideal S256x1 .f32 :=
  maximumf
    (sqrt (shapeCast S256x1
      (multiReduction .add [1] S256 (mulf o o) 0x00000000#32 reduces_S256x1024_S256 (.inl rfl) rfl)
      shapeCasts_S256_S256x1))
    (broadcast S256x1 (Scalar.ofBits .f32 0x322BCC77#32))

/-- The payload is the unscaled encoding divided by its column of lengths spread along the rows. -/
theorem pay0_eq (x0 : FVec Ideal S256x1024 .f32) (x1 : FVec Ideal S1024x4096 .bf16) (x2 : FVec Ideal S1x4096 .f32)
    (x3 : FVec Ideal S4096x1024 .bf16) (x4 : FVec Ideal S1x1024 .f32) :
    k0_pay1 (F := Ideal) x0 x1 x2 x3 x4
      = truncf .bf16 (divf (preV x0 x1 x2 x3 x4)
          (broadcastTo S256x1024 (lenV (preV x0 x1 x2 x3 x4)) broadcasts_S256x1_S256x1024)) bitsLt_bf16_f32 := rfl

theorem pay1_eq (x0 : FVec Ideal S256x1024 .f32) (x1 : FVec Ideal S1024x4096 .bf16) (x2 : FVec Ideal S1x4096 .f32)
    (x3 : FVec Ideal S4096x1024 .bf16) (x4 : FVec Ideal S1x1024 .f32) :
    k1_pay1 (F := Ideal) x0 x1 x2 x3 x4
      = truncf .bf16 (divf (preV x0 x1 x2 x3 x4)
          (broadcastTo S256x1024 (lenV (preV x0 x1 x2 x3 x4)) broadcasts_S256x1_S256x1024)) bitsLt_bf16_f32 := rfl

/-- The hidden layer at `(p, k)`. -/
theorem hidV_apply (x0 : FVec Ideal S256x1024 .f32) (x1 : FVec Ideal S1024x4096 .bf16) (x2 : FVec Ideal S1x4096 .f32)
    (p : Fin 256) (k : Fin 4096) :
    hidV x0 x1 x2 (ix2 p k)
      = Cert.Spec.hid (fun d => x0 (ix2 p d)) (fun d k => x1 (ix2 d k)) (fun k => x2 (ix2 (0 : Fin 1) k)) k := by
  unfold hidV Cert.Spec.hid
  refine congrArg₂ max (congrArg₂ (· + ·) ?_ ?_) rfl
  · refine (matmul1_apply _ _ p k).trans ?_
    rw [shapeCast_self]
    rfl
  · refine (broadcastTo_1b_ab_apply _ _ p k).trans ?_
    rw [shapeCast_self]

/-- The unscaled encoding at `(p, e)`. -/
theorem preV_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (e : Fin 1024) :
    preV x0 x1 x2 x3 x4 (ix2 p e)
      = Cert.Spec.pre (fun d => x0 (ix2 p d)) (fun d k => x1 (ix2 d k)) (fun k => x2 (ix2 (0 : Fin 1) k))
          (fun k e' => x3 (ix2 k e')) (fun e' => x4 (ix2 (0 : Fin 1) e')) e := by
  unfold preV Cert.Spec.pre
  refine congrArg₂ (· + ·) ?_ ?_
  · refine (matmul2_apply _ _ p e).trans ?_
    rw [shapeCast_self]
    exact Finset.sum_congr rfl fun k _ => congrArg (· * x3 (ix2 k e)) (hidV_apply x0 x1 x2 p k)
  · refine (broadcastTo_1b_ab_apply _ _ p e).trans ?_
    rw [shapeCast_self]

/-- The bounded length of row `p`. -/
theorem lenV_apply (o : FVec Ideal S256x1024 .f32) (p : Fin 256) :
    lenV o (ix2 p (0 : Fin 1)) = Cert.Spec.len (fun e => o (ix2 p e)) := by
  unfold lenV Cert.Spec.len
  refine congrArg₂ max (congrArg Ideal.sqrt ?_) rfl
  refine (shapeCast_a_a1_apply _ _ p (0 : Fin 1)).trans ?_
  exact rowSum_apply (mulf o o) _ _ p

/-- The encoders' payload at `(p, e)` is the encoding of row `p` of the block, coordinate `e`. -/
theorem pay0_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (e : Fin 1024) :
    k0_pay1 (F := Ideal) x0 x1 x2 x3 x4 (ix2 p e)
      = Cert.Spec.encRow (fun d => x0 (ix2 p d)) (fun d k => x1 (ix2 d k)) (fun k => x2 (ix2 (0 : Fin 1) k))
          (fun k e' => x3 (ix2 k e')) (fun e' => x4 (ix2 (0 : Fin 1) e')) e := by
  rw [pay0_eq]
  unfold Cert.Spec.encRow
  refine congrArg₂ Ideal.div (preV_apply x0 x1 x2 x3 x4 p e) ?_
  refine (broadcastTo_a1_ab_apply _ _ p e).trans ?_
  refine (lenV_apply _ p).trans ?_
  exact congrArg Cert.Spec.len (funext fun e' => preV_apply x0 x1 x2 x3 x4 p e')

theorem pay1_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (e : Fin 1024) :
    k1_pay1 (F := Ideal) x0 x1 x2 x3 x4 (ix2 p e)
      = Cert.Spec.encRow (fun d => x0 (ix2 p d)) (fun d k => x1 (ix2 d k)) (fun k => x2 (ix2 (0 : Fin 1) k))
          (fun k e' => x3 (ix2 k e')) (fun e' => x4 (ix2 (0 : Fin 1) e')) e :=
  (congrFun ((pay1_eq x0 x1 x2 x3 x4).trans (pay0_eq x0 x1 x2 x3 x4).symm) (ix2 p e)).trans (pay0_apply x0 x1 x2 x3 x4 p e)

end Cert.KernelIdeal.Val

end
-- ==== Proof.KI.EncArr.lean ====
/-
  An array encoded row by row.

  Each encoder call turns an array of rows into the array of the rows' encodings, with the same two weight
  matrices and the same two bias rows for every row. This file names that array as one function of the five
  arrays a call reads, and notes that the encoding of a row depends only on the values of its arguments.
-/
import proofs.«168271_j46969762349635_2_alg».proof.KernelIdeal
import proofs.«168271_j46969762349635_2_alg».proof.Proof.Spec
import Idealize.ShloMosaic.Lib.ValueIdx

noncomputable section

open scoped BigOperators

namespace Cert.KernelIdeal.Val

open Cert.KernelIdeal Idealize.ShloMosaic Idealize.ShloMosaic.ValueIdx

/-- The zero offsets of a rectangle that starts at the origin. -/
theorem hz2 : (![0, 0] : Fin 2 → Nat) = fun _ => 0 := funext fun a => by fin_cases a <;> rfl

/-- The encoding depends only on its arguments' values. -/
theorem encRow_congr {x x' : Fin 1024 → EReal} {w1 w1' : Fin 1024 → Fin 4096 → EReal} {b1 b1' : Fin 4096 → EReal}
    {w2 w2' : Fin 4096 → Fin 1024 → EReal} {b2 b2' : Fin 1024 → EReal} {e e' : Fin 1024}
    (hx : x = x') (h1 : w1 = w1') (hb1 : b1 = b1') (h2 : w2 = w2') (hb2 : b2 = b2') (he : e = e') :
    Cert.Spec.encRow x w1 b1 w2 b2 e = Cert.Spec.encRow x' w1' b1' w2' b2' e' := by
  subst hx h1 hb1 h2 hb2 he; rfl

/-- An array of `n` rows encoded row by row, as one function of the five arrays. -/
def encAll {n : ℕ} (a0 : (⟨2, ![n, 1024]⟩ : Shape).Idx → EReal) (a1 : S1024x4096.Idx → EReal) (a2 : S1x4096.Idx → EReal)
    (a3 : S4096x1024.Idx → EReal) (a4 : S1x1024.Idx → EReal) : (⟨2, ![n, 1024]⟩ : Shape).Idx → EReal :=
  fun i => Cert.Spec.encRow (fun d => a0 (ix2 (⟨(i 0).val, idx2_lt0 i⟩ : Fin n) d)) (fun d k => a1 (ix2 d k))
    (fun k => a2 (ix2 (0 : Fin 1) k)) (fun k e' => a3 (ix2 k e')) (fun e' => a4 (ix2 (0 : Fin 1) e'))
    (⟨(i 1).val, idx2_lt1 i⟩ : Fin 1024)

end Cert.KernelIdeal.Val

end
-- ==== Proof.KI.EncValue0.lean ====
/-
  Encoder call 0: the output array, entry by entry.

  The call visits 8 points; at point t its body reads rows 256 t … 256 t + 255 of the input rows and the four
  parameter arrays whole, and stores the encodings of those 256 rows, which the call writes back as rows
  256 t … 256 t + 255 of the output array. So every point writes a block of ONE function of the arrays the
  call finds — each row encoded —, the blocks cover the output array (row r lies in the block of point
  r / 256), and after the call the output array is that function.
-/
import proofs.«168271_j46969762349635_2_alg».proof.Proof.KI.Enc0
import proofs.«168271_j46969762349635_2_alg».proof.Proof.KI.EncPayload
import proofs.«168271_j46969762349635_2_alg».proof.Proof.KI.EncArr
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

-- what the core's buffers hold when the call is entered
variable (V : (c : Dev nD) → (b : Ref sig .tc) → Buf (Elt Ideal) ((c : Thread nD τ).loc b))

/-- What the body's one store leaves at `(p, e)` of the output block: the encoding of row `p` of the input block. -/
theorem out0_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (e : Fin 1024) :
    out0_5 (F := Ideal) x0 x1 x2 x3 x4 (ix2 p e)
      = Cert.Spec.encRow (fun d => x0 (ix2 p d)) (fun d k => x1 (ix2 d k)) (fun k => x2 (ix2 (0 : Fin 1) k))
          (fun k e' => x3 (ix2 k e')) (fun e' => x4 (ix2 (0 : Fin 1) e')) e := by
  unfold out0_5
  rw [View.canon_unit_zero hz2]
  simp only [View.ld_unit_zero (S := S256x1024) hz2, View.ld_unit_zero (S := S1024x4096) hz2, View.ld_unit_zero (S := S1x4096) hz2,
    View.ld_unit_zero (S := S4096x1024) hz2, View.ld_unit_zero (S := S1x1024) hz2]
  exact pay0_apply x0 x1 x2 x3 x4 p e

/-- The index maps over the grid: the row window and the output window sit at block `t` of the rows, the four
    parameter windows at block 0 on both axes. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row window's block at point `t` is rows `256 t … 256 t + 255` of its array. -/
theorem iblk0_0_apply (c : Dev nD) (t : Fin cfg0.N) (x : S256x1024.Idx) (k : S2048x1024.Idx)
    (hk0 : (k 0).val = 256 * t.val + (x 0).val) (hk1 : (k 1).val = (x 1).val) :
    (iblk0 V c 0 t : Vec Ideal S256x1024 .f32) x = (V c (Pipeline.arrRef spec0 0) : S2048x1024.Idx → EReal) k := by
  obtain ⟨e0, e1, -⟩ := idx_facts0 t
  unfold iblk0
  rw [View.read_apply]
  refine congrArg (V c (Pipeline.arrRef spec0 0)) (funext fun a => Fin.ext ?_)
  match a with
  | ⟨0, _⟩ => show win0_0.index t 0 * 256 + 1 * (x 0).val = (k 0).val; rw [e0, hk0]; omega
  | ⟨1, _⟩ => show win0_0.index t 1 * 1024 + 1 * (x 1).val = (k 1).val; rw [e1, hk1]; omega

/-- Window 1's block is its whole array at every point. -/
theorem iblk0_1_apply (c : Dev nD) (t : Fin cfg0.N) (x : S1024x4096.Idx) :
    (iblk0 V c 1 t : Vec Ideal S1024x4096 .bf16) x = (V c (Pipeline.arrRef spec0 1) : S1024x4096.Idx → EReal) x := by
  obtain ⟨-, -, f10, f11, f20, f21, f30, f31, f40, f41, -, -⟩ := idx_facts0 t
  unfold iblk0
  rw [View.read_apply]
  refine congrArg (V c (Pipeline.arrRef spec0 1)) (funext fun a => Fin.ext ?_)
  match a with
  | ⟨0, _⟩ => show win0_1.index t 0 * 1024 + 1 * (x 0).val = (x 0).val; rw [f10]; omega
  | ⟨1, _⟩ => show win0_1.index t 1 * 4096 + 1 * (x 1).val = (x 1).val; rw [f11]; omega

/-- Window 2's block is its whole array at every point. -/
theorem iblk0_2_apply (c : Dev nD) (t : Fin cfg0.N) (x : S1x4096.Idx) :
    (iblk0 V c 2 t : Vec Ideal S1x4096 .f32) x = (V c (Pipeline.arrRef spec0 2) : S1x4096.Idx → EReal) x := by
  obtain ⟨-, -, f10, f11, f20, f21, f30, f31, f40, f41, -, -⟩ := idx_facts0 t
  unfold iblk0
  rw [View.read_apply]
  refine congrArg (V c (Pipeline.arrRef spec0 2)) (funext fun a => Fin.ext ?_)
  match a with
  | ⟨0, _⟩ => show win0_2.index t 0 * 1 + 1 * (x 0).val = (x 0).val; rw [f20]; omega
  | ⟨1, _⟩ => show win0_2.index t 1 * 4096 + 1 * (x 1).val = (x 1).val; rw [f21]; omega

/-- Window 3's block is its whole array at every point. -/
theorem iblk0_3_apply (c : Dev nD) (t : Fin cfg0.N) (x : S4096x1024.Idx) :
    (iblk0 V c 3 t : Vec Ideal S4096x1024 .bf16) x = (V c (Pipeline.arrRef spec0 3) : S4096x1024.Idx → EReal) x := by
  obtain ⟨-, -, f10, f11, f20, f21, f30, f31, f40, f41, -, -⟩ := idx_facts0 t
  unfold iblk0
  rw [View.read_apply]
  refine congrArg (V c (Pipeline.arrRef spec0 3)) (funext fun a => Fin.ext ?_)
  match a with
  | ⟨0, _⟩ => show win0_3.index t 0 * 4096 + 1 * (x 0).val = (x 0).val; rw [f30]; omega
  | ⟨1, _⟩ => show win0_3.index t 1 * 1024 + 1 * (x 1).val = (x 1).val; rw [f31]; omega

/-- Window 4's block is its whole array at every point. -/
theorem iblk0_4_apply (c : Dev nD) (t : Fin cfg0.N) (x : S1x1024.Idx) :
    (iblk0 V c 4 t : Vec Ideal S1x1024 .f32) x = (V c (Pipeline.arrRef spec0 4) : S1x1024.Idx → EReal) x := by
  obtain ⟨-, -, f10, f11, f20, f21, f30, f31, f40, f41, -, -⟩ := idx_facts0 t
  unfold iblk0
  rw [View.read_apply]
  refine congrArg (V c (Pipeline.arrRef spec0 4)) (funext fun a => Fin.ext ?_)
  match a with
  | ⟨0, _⟩ => show win0_4.index t 0 * 1 + 1 * (x 0).val = (x 0).val; rw [f40]; omega
  | ⟨1, _⟩ => show win0_4.index t 1 * 1024 + 1 * (x 1).val = (x 1).val; rw [f41]; omega

/-- What point `t` writes back is block `t` of the encoded array. -/
theorem flushed0_eq (c : Dev nD) (t : Fin cfg0.N) :
    (dat0 V c).flushed 5 t = ((cfg0.win 5).blk t).view.read (Elt Ideal)
      (encAll (n := 2048) (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  funext j
  rw [View.read_apply]
  obtain ⟨-, -, -, -, -, -, -, -, -, -, e0, e1⟩ := idx_facts0 t
  have hp : (j 0).val < 256 := (j 0).isLt
  have he : (j 1).val < 1024 := (j 1).isLt
  have hj : (cfg0.win 5).xinj (grid0.coords t) j = ix2 (⟨(j 0).val, hp⟩ : Fin 256) (⟨(j 1).val, he⟩ : Fin 1024) :=
    funext fun a => by match a with | ⟨0, _⟩ => rfl | ⟨1, _⟩ => rfl
  show out0_5 (iblk0 V c 0 t) (iblk0 V c 1 t) (iblk0 V c 2 t) (iblk0 V c 3 t) (iblk0 V c 4 t)
    ((cfg0.win 5).xinj (grid0.coords t) j) = _
  rw [hj]
  refine (out0_apply (iblk0 V c 0 t) (iblk0 V c 1 t) (iblk0 V c 2 t) (iblk0 V c 3 t) (iblk0 V c 4 t)
    ⟨(j 0).val, hp⟩ ⟨(j 1).val, he⟩).trans ?_
  have h0 : (((cfg0.win 5).blk t).view.emb j 0).val = 256 * t.val + (j 0).val := by
    show win0_5.index t 0 * 256 + 1 * (j 0).val = _; rw [e0]; omega
  have h1 : (((cfg0.win 5).blk t).view.emb j 1).val = (j 1).val := by
    show win0_5.index t 1 * 1024 + 1 * (j 1).val = _; rw [e1]; omega
  unfold encAll
  refine encRow_congr (funext fun d => ?_) (funext fun d => funext fun k => ?_) (funext fun k => ?_)
    (funext fun k => funext fun e' => ?_) (funext fun e' => ?_) (Fin.ext h1.symm)
  · exact iblk0_0_apply V c t _ _ h0 rfl
  · exact iblk0_1_apply V c t _
  · exact iblk0_2_apply V c t _
  · exact iblk0_3_apply V c t _
  · exact iblk0_4_apply V c t _

/-- An index of the output array is in point `t`'s block iff each coordinate is in the block's range on its axis. -/
theorem mem_blk0 (t : Fin cfg0.N) (i : S2048x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v4).slice (win0_5.rect t)).set ↔ _
  rw [View.set_slice_whole, Rect.mem_set_unit]
  exact Iff.rfl

/-- Every row of the output array lies in some point's block: row `r` in that of point `r / 256`. -/
theorem cover0 (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  have hN : cfg0.N = 8 := N_0
  have ht : (i 0).val / 256 < cfg0.N := by rw [hN]; omega
  obtain ⟨-, -, -, -, -, -, -, -, -, -, e0, e1⟩ := idx_facts0 ⟨(i 0).val / 256, ht⟩
  refine ⟨⟨(i 0).val / 256, ht⟩, flush0_5 _, ?_⟩
  rw [mem_blk0]
  intro a
  match a with
  | ⟨0, _⟩ =>
    show win0_5.index ⟨(i 0).val / 256, ht⟩ 0 * 256 ≤ (i 0).val ∧ (i 0).val < win0_5.index ⟨(i 0).val / 256, ht⟩ 0 * 256 + 256
    rw [e0]
    show (i 0).val / 256 * 256 ≤ (i 0).val ∧ (i 0).val < (i 0).val / 256 * 256 + 256
    omega
  | ⟨1, _⟩ =>
    show win0_5.index ⟨(i 0).val / 256, ht⟩ 1 * 1024 ≤ (i 1).val ∧ (i 1).val < win0_5.index ⟨(i 0).val / 256, ht⟩ 1 * 1024 + 1024
    rw [e1]
    omega

/-- The output array after the call: every row encoded. -/
theorem enc0_array (c : Dev nD) :
    (dat0 V c).arrAt 5 cfg0.N = encAll (n := 2048) (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 (encAll (n := 2048) (V c (Pipeline.arrRef spec0 0)) (V c (Pipeline.arrRef spec0 1)) (V c (Pipeline.arrRef spec0 2)) (V c (Pipeline.arrRef spec0 3)) (V c (Pipeline.arrRef spec0 4)))
    (fun t _ => flushed0_eq V c t) cover0

/-- The output array of encoder call 0 after the call, entry by entry: row `r` of its input rows encoded with the
    call's weights and biases as the call finds them. -/
theorem enc0_final (c : Dev nD) (r : Fin 2048) (e : Fin 1024) :
    (dat0 (F := Ideal) V c).arrAt 5 cfg0.N (ix2 r e)
      = Cert.Spec.encRow (fun d => (V c (Pipeline.arrRef spec0 0) : S2048x1024.Idx → EReal) (ix2 r d))
          (fun d k => (V c (Pipeline.arrRef spec0 1) : S1024x4096.Idx → EReal) (ix2 d k))
          (fun k => (V c (Pipeline.arrRef spec0 2) : S1x4096.Idx → EReal) (ix2 (0 : Fin 1) k))
          (fun k e' => (V c (Pipeline.arrRef spec0 3) : S4096x1024.Idx → EReal) (ix2 k e'))
          (fun e' => (V c (Pipeline.arrRef spec0 4) : S1x1024.Idx → EReal) (ix2 (0 : Fin 1) e')) e :=
  (congrFun (enc0_array V c) (ix2 r e)).trans rfl

end Cert.KernelIdeal.Val

end
-- ==== Proof.KI.EncValue1.lean ====
/-
  Encoder call 1: the output array, entry by entry.

  The call visits 32 points; at point t its body reads rows 256 t … 256 t + 255 of the input rows and the four
  parameter arrays whole, and stores the encodings of those 256 rows, which the call writes back as rows
  256 t … 256 t + 255 of the output array. So every point writes a block of ONE function of the arrays the
  call finds — each row encoded —, the blocks cover the output array (row r lies in the block of point
  r / 256), and after the call the output array is that function.
-/
import proofs.«168271_j46969762349635_2_alg».proof.Proof.KI.Enc1
import proofs.«168271_j46969762349635_2_alg».proof.Proof.KI.EncPayload
import proofs.«168271_j46969762349635_2_alg».proof.Proof.KI.EncArr
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

-- what the core's buffers hold when the call is entered
variable (V : (c : Dev nD) → (b : Ref sig .tc) → Buf (Elt Ideal) ((c : Thread nD τ).loc b))

/-- What the body's one store leaves at `(p, e)` of the output block: the encoding of row `p` of the input block. -/
theorem out1_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (e : Fin 1024) :
    out1_5 (F := Ideal) x0 x1 x2 x3 x4 (ix2 p e)
      = Cert.Spec.encRow (fun d => x0 (ix2 p d)) (fun d k => x1 (ix2 d k)) (fun k => x2 (ix2 (0 : Fin 1) k))
          (fun k e' => x3 (ix2 k e')) (fun e' => x4 (ix2 (0 : Fin 1) e')) e := by
  unfold out1_5
  rw [View.canon_unit_zero hz2]
  simp only [View.ld_unit_zero (S := S256x1024) hz2, View.ld_unit_zero (S := S1024x4096) hz2, View.ld_unit_zero (S := S1x4096) hz2,
    View.ld_unit_zero (S := S4096x1024) hz2, View.ld_unit_zero (S := S1x1024) hz2]
  exact pay1_apply x0 x1 x2 x3 x4 p e

/-- The index maps over the grid: the row window and the output window sit at block `t` of the rows, the four
    parameter windows at block 0 on both axes. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row window's block at point `t` is rows `256 t … 256 t + 255` of its array. -/
theorem iblk1_0_apply (c : Dev nD) (t : Fin cfg1.N) (x : S256x1024.Idx) (k : S8192x1024.Idx)
    (hk0 : (k 0).val = 256 * t.val + (x 0).val) (hk1 : (k 1).val = (x 1).val) :
    (iblk1 V c 0 t : Vec Ideal S256x1024 .f32) x = (V c (Pipeline.arrRef spec1 0) : S8192x1024.Idx → EReal) k := by
  obtain ⟨e0, e1, -⟩ := idx_facts1 t
  unfold iblk1
  rw [View.read_apply]
  refine congrArg (V c (Pipeline.arrRef spec1 0)) (funext fun a => Fin.ext ?_)
  match a with
  | ⟨0, _⟩ => show win1_0.index t 0 * 256 + 1 * (x 0).val = (k 0).val; rw [e0, hk0]; omega
  | ⟨1, _⟩ => show win1_0.index t 1 * 1024 + 1 * (x 1).val = (k 1).val; rw [e1, hk1]; omega

/-- Window 1's block is its whole array at every point. -/
theorem iblk1_1_apply (c : Dev nD) (t : Fin cfg1.N) (x : S1024x4096.Idx) :
    (iblk1 V c 1 t : Vec Ideal S1024x4096 .bf16) x = (V c (Pipeline.arrRef spec1 1) : S1024x4096.Idx → EReal) x := by
  obtain ⟨-, -, f10, f11, f20, f21, f30, f31, f40, f41, -, -⟩ := idx_facts1 t
  unfold iblk1
  rw [View.read_apply]
  refine congrArg (V c (Pipeline.arrRef spec1 1)) (funext fun a => Fin.ext ?_)
  match a with
  | ⟨0, _⟩ => show win1_1.index t 0 * 1024 + 1 * (x 0).val = (x 0).val; rw [f10]; omega
  | ⟨1, _⟩ => show win1_1.index t 1 * 4096 + 1 * (x 1).val = (x 1).val; rw [f11]; omega

/-- Window 2's block is its whole array at every point. -/
theorem iblk1_2_apply (c : Dev nD) (t : Fin cfg1.N) (x : S1x4096.Idx) :
    (iblk1 V c 2 t : Vec Ideal S1x4096 .f32) x = (V c (Pipeline.arrRef spec1 2) : S1x4096.Idx → EReal) x := by
  obtain ⟨-, -, f10, f11, f20, f21, f30, f31, f40, f41, -, -⟩ := idx_facts1 t
  unfold iblk1
  rw [View.read_apply]
  refine congrArg (V c (Pipeline.arrRef spec1 2)) (funext fun a => Fin.ext ?_)
  match a with
  | ⟨0, _⟩ => show win1_2.index t 0 * 1 + 1 * (x 0).val = (x 0).val; rw [f20]; omega
  | ⟨1, _⟩ => show win1_2.index t 1 * 4096 + 1 * (x 1).val = (x 1).val; rw [f21]; omega

/-- Window 3's block is its whole array at every point. -/
theorem iblk1_3_apply (c : Dev nD) (t : Fin cfg1.N) (x : S4096x1024.Idx) :
    (iblk1 V c 3 t : Vec Ideal S4096x1024 .bf16) x = (V c (Pipeline.arrRef spec1 3) : S4096x1024.Idx → EReal) x := by
  obtain ⟨-, -, f10, f11, f20, f21, f30, f31, f40, f41, -, -⟩ := idx_facts1 t
  unfold iblk1
  rw [View.read_apply]
  refine congrArg (V c (Pipeline.arrRef spec1 3)) (funext fun a => Fin.ext ?_)
  match a with
  | ⟨0, _⟩ => show win1_3.index t 0 * 4096 + 1 * (x 0).val = (x 0).val; rw [f30]; omega
  | ⟨1, _⟩ => show win1_3.index t 1 * 1024 + 1 * (x 1).val = (x 1).val; rw [f31]; omega

/-- Window 4's block is its whole array at every point. -/
theorem iblk1_4_apply (c : Dev nD) (t : Fin cfg1.N) (x : S1x1024.Idx) :
    (iblk1 V c 4 t : Vec Ideal S1x1024 .f32) x = (V c (Pipeline.arrRef spec1 4) : S1x1024.Idx → EReal) x := by
  obtain ⟨-, -, f10, f11, f20, f21, f30, f31, f40, f41, -, -⟩ := idx_facts1 t
  unfold iblk1
  rw [View.read_apply]
  refine congrArg (V c (Pipeline.arrRef spec1 4)) (funext fun a => Fin.ext ?_)
  match a with
  | ⟨0, _⟩ => show win1_4.index t 0 * 1 + 1 * (x 0).val = (x 0).val; rw [f40]; omega
  | ⟨1, _⟩ => show win1_4.index t 1 * 1024 + 1 * (x 1).val = (x 1).val; rw [f41]; omega

/-- What point `t` writes back is block `t` of the encoded array. -/
theorem flushed1_eq (c : Dev nD) (t : Fin cfg1.N) :
    (dat1 V c).flushed 5 t = ((cfg1.win 5).blk t).view.read (Elt Ideal)
      (encAll (n := 8192) (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  funext j
  rw [View.read_apply]
  obtain ⟨-, -, -, -, -, -, -, -, -, -, e0, e1⟩ := idx_facts1 t
  have hp : (j 0).val < 256 := (j 0).isLt
  have he : (j 1).val < 1024 := (j 1).isLt
  have hj : (cfg1.win 5).xinj (grid1.coords t) j = ix2 (⟨(j 0).val, hp⟩ : Fin 256) (⟨(j 1).val, he⟩ : Fin 1024) :=
    funext fun a => by match a with | ⟨0, _⟩ => rfl | ⟨1, _⟩ => rfl
  show out1_5 (iblk1 V c 0 t) (iblk1 V c 1 t) (iblk1 V c 2 t) (iblk1 V c 3 t) (iblk1 V c 4 t)
    ((cfg1.win 5).xinj (grid1.coords t) j) = _
  rw [hj]
  refine (out1_apply (iblk1 V c 0 t) (iblk1 V c 1 t) (iblk1 V c 2 t) (iblk1 V c 3 t) (iblk1 V c 4 t)
    ⟨(j 0).val, hp⟩ ⟨(j 1).val, he⟩).trans ?_
  have h0 : (((cfg1.win 5).blk t).view.emb j 0).val = 256 * t.val + (j 0).val := by
    show win1_5.index t 0 * 256 + 1 * (j 0).val = _; rw [e0]; omega
  have h1 : (((cfg1.win 5).blk t).view.emb j 1).val = (j 1).val := by
    show win1_5.index t 1 * 1024 + 1 * (j 1).val = _; rw [e1]; omega
  unfold encAll
  refine encRow_congr (funext fun d => ?_) (funext fun d => funext fun k => ?_) (funext fun k => ?_)
    (funext fun k => funext fun e' => ?_) (funext fun e' => ?_) (Fin.ext h1.symm)
  · exact iblk1_0_apply V c t _ _ h0 rfl
  · exact iblk1_1_apply V c t _
  · exact iblk1_2_apply V c t _
  · exact iblk1_3_apply V c t _
  · exact iblk1_4_apply V c t _

/-- An index of the output array is in point `t`'s block iff each coordinate is in the block's range on its axis. -/
theorem mem_blk1 (t : Fin cfg1.N) (i : S8192x1024.Idx) :
    i ∈ ((cfg1.win 5).blk t).view.set ↔ ∀ a : Fin 2, win1_5.index t a * S256x1024.size a ≤ (i a).val
      ∧ (i a).val < win1_5.index t a * S256x1024.size a + S256x1024.size a := by
  show i ∈ ((View.whole main_v9).slice (win1_5.rect t)).set ↔ _
  rw [View.set_slice_whole, Rect.mem_set_unit]
  exact Iff.rfl

/-- Every row of the output array lies in some point's block: row `r` in that of point `r / 256`. -/
theorem cover1 (i : S8192x1024.Idx) :
    ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 32 := N_1
  have ht : (i 0).val / 256 < cfg1.N := by rw [hN]; omega
  obtain ⟨-, -, -, -, -, -, -, -, -, -, e0, e1⟩ := idx_facts1 ⟨(i 0).val / 256, ht⟩
  refine ⟨⟨(i 0).val / 256, ht⟩, flush1_5 _, ?_⟩
  rw [mem_blk1]
  intro a
  match a with
  | ⟨0, _⟩ =>
    show win1_5.index ⟨(i 0).val / 256, ht⟩ 0 * 256 ≤ (i 0).val ∧ (i 0).val < win1_5.index ⟨(i 0).val / 256, ht⟩ 0 * 256 + 256
    rw [e0]
    show (i 0).val / 256 * 256 ≤ (i 0).val ∧ (i 0).val < (i 0).val / 256 * 256 + 256
    omega
  | ⟨1, _⟩ =>
    show win1_5.index ⟨(i 0).val / 256, ht⟩ 1 * 1024 ≤ (i 1).val ∧ (i 1).val < win1_5.index ⟨(i 0).val / 256, ht⟩ 1 * 1024 + 1024
    rw [e1]
    omega

/-- The output array after the call: every row encoded. -/
theorem enc1_array (c : Dev nD) :
    (dat1 V c).arrAt 5 cfg1.N = encAll (n := 8192) (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 (encAll (n := 8192) (V c (Pipeline.arrRef spec1 0)) (V c (Pipeline.arrRef spec1 1)) (V c (Pipeline.arrRef spec1 2)) (V c (Pipeline.arrRef spec1 3)) (V c (Pipeline.arrRef spec1 4)))
    (fun t _ => flushed1_eq V c t) cover1

/-- The output array of encoder call 1 after the call, entry by entry: row `n` of its input rows encoded with the
    call's weights and biases as the call finds them. -/
theorem enc1_final (c : Dev nD) (n : Fin 8192) (e : Fin 1024) :
    (dat1 (F := Ideal) V c).arrAt 5 cfg1.N (ix2 n e)
      = Cert.Spec.encRow (fun d => (V c (Pipeline.arrRef spec1 0) : S8192x1024.Idx → EReal) (ix2 n d))
          (fun d k => (V c (Pipeline.arrRef spec1 1) : S1024x4096.Idx → EReal) (ix2 d k))
          (fun k => (V c (Pipeline.arrRef spec1 2) : S1x4096.Idx → EReal) (ix2 (0 : Fin 1) k))
          (fun k e' => (V c (Pipeline.arrRef spec1 3) : S4096x1024.Idx → EReal) (ix2 k e'))
          (fun e' => (V c (Pipeline.arrRef spec1 4) : S1x1024.Idx → EReal) (ix2 (0 : Fin 1) e')) e :=
  (congrFun (enc1_array V c) (ix2 n e)).trans rfl

end Cert.KernelIdeal.Val

end
-- ==== Proof.KI.EncValue.lean ====
/-
  The two encoder calls' output arrays, entry by entry: `enc0_final` for the 2048 message rows and `enc1_final`
  for the 8192 speaker rows, each proved in its own module.
-/
import proofs.«168271_j46969762349635_2_alg».proof.Proof.KI.EncValue0
import proofs.«168271_j46969762349635_2_alg».proof.Proof.KI.EncValue1
-- ==== Proof.BridgeEnc.lean ====
/-
  The run of the idealized kernel with its two result arrays named, and the two encoded arrays the last pallas_call
  is entered with: each row is the encoding of the corresponding input row under that encoder's weights, which the
  host stretches hand over unchanged (a change of float format is the identity on the extended reals; a reshape
  moves no element).
-/
import proofs.«168271_j46969762349635_2_alg».proof.Proof.KI.Inst
import proofs.«168271_j46969762349635_2_alg».proof.Proof.KI.Entry
import proofs.«168271_j46969762349635_2_alg».proof.Proof.KI.EncValue
import proofs.«168271_j46969762349635_2_alg».proof.Proof.Spec

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first result array at the end of the run: the logits. -/
abbrev out0 (c : Dev nD) : Buf (Elt Ideal) ((c.tc : Thread nD τ).loc main_v12_0) :=
  W6 m ρ half0 half1 half2 c (Proc.devRef .tc main_v12_0)
/-- The second result array at the end of the run: the values. -/
abbrev out1 (c : Dev nD) : Buf (Elt Ideal) ((c.tc : Thread nD τ).loc main_v12_1) :=
  W6 m ρ half0 half1 half2 c (Proc.devRef .tc main_v12_1)

/-- The idealized kernel runs, ends with its results at `out0` and `out1`, and leaves its arguments as launched. -/
theorem kernel_run : θ_run (defs (F := Ideal)) (onTc (τ := τ) (main (F := Ideal))) ⟨m, fun _ => 0, ρ⟩ (fun r => ∀ c : Dev nD,
      r.2.mem ((c.tc : Thread nD τ).loc main_v12_0) = out0 m ρ c
      ∧ r.2.mem ((c.tc : Thread nD τ).loc main_v12_1) = out1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v12_0 (by decide)), h c _ (mem_uc main_v12_1 (by decide)),
    (h c _ (mem_uc main_arg0 (by decide))).trans (W6_main_arg0 m ρ half0 half1 half2 c),
    (h c _ (mem_uc main_arg1 (by decide))).trans (W6_main_arg1 m ρ half0 half1 half2 c),
    (h c _ (mem_uc main_arg2 (by decide))).trans (W6_main_arg2 m ρ half0 half1 half2 c),
    (h c _ (mem_uc main_arg3 (by decide))).trans (W6_main_arg3 m ρ half0 half1 half2 c),
    (h c _ (mem_uc main_arg4 (by decide))).trans (W6_main_arg4 m ρ half0 half1 half2 c),
    (h c _ (mem_uc main_arg5 (by decide))).trans (W6_main_arg5 m ρ half0 half1 half2 c),
    (h c _ (mem_uc main_arg6 (by decide))).trans (W6_main_arg6 m ρ half0 half1 half2 c),
    (h c _ (mem_uc main_arg7 (by decide))).trans (W6_main_arg7 m ρ half0 half1 half2 c),
    (h c _ (mem_uc main_arg8 (by decide))).trans (W6_main_arg8 m ρ half0 half1 half2 c),
    (h c _ (mem_uc main_arg9 (by decide))).trans (W6_main_arg9 m ρ half0 half1 half2 c),
    (h c _ (mem_uc main_arg10 (by decide))).trans (W6_main_arg10 m ρ half0 half1 half2 c),
    (h c _ (mem_uc main_arg11 (by decide))).trans (W6_main_arg11 m ρ half0 half1 half2 c)⟩)
    (run_all m ρ half0 half1 half2)

/-- The encoded messages as the last call finds them: row `b` of the messages encoded under the message weights. -/
theorem enc_m (c : Dev nD) (b : Fin 2048) (e : Fin 1024) :
    V5 m ρ half0 half1 c main_v4 (ix2 b e)
      = Cert.Spec.encM (m ((c : Thread nD τ).loc main_arg0)) (m ((c : Thread nD τ).loc main_arg2)) (m ((c : Thread nD τ).loc main_arg3)) (m ((c : Thread nD τ).loc main_arg4)) (m ((c : Thread nD τ).loc main_arg5)) b e := by
  rw [entry2_m]
  refine (enc0_final (V1 m ρ) c b e).trans ?_
  unfold Cert.Spec.encM
  show Cert.Spec.encRow (fun d => (V1 m ρ c main_arg0 : S2048x1024.Idx → EReal) (ix2 b d))
      (fun d k => (V1 m ρ c main_v0 : S1024x4096.Idx → EReal) (ix2 d k))
      (fun k => (V1 m ρ c main_v2 : S1x4096.Idx → EReal) (ix2 (0 : Fin 1) k))
      (fun k e' => (V1 m ρ c main_v1 : S4096x1024.Idx → EReal) (ix2 k e'))
      (fun e' => (V1 m ρ c main_v3 : S1x1024.Idx → EReal) (ix2 (0 : Fin 1) e')) e = _
  have e1 : (fun (d : Fin 1024) (k : Fin 4096) => (V1 m ρ c main_v0 : S1024x4096.Idx → EReal) (ix2 d k)) = fun d k => (m ((c : Thread nD τ).loc main_arg2) : S1024x4096.Idx → EReal) (ix2 d k) :=
    funext fun d => funext fun k => entry0_w1 m ρ c d k
  have e2 : (fun (k : Fin 4096) => (V1 m ρ c main_v2 : S1x4096.Idx → EReal) (ix2 (0 : Fin 1) k)) = fun k => (m ((c : Thread nD τ).loc main_arg3) : S4096.Idx → EReal) (ix1 k) :=
    funext fun k => entry0_b1 m ρ c k
  have e3 : (fun (k : Fin 4096) (e' : Fin 1024) => (V1 m ρ c main_v1 : S4096x1024.Idx → EReal) (ix2 k e')) = fun k e' => (m ((c : Thread nD τ).loc main_arg4) : S4096x1024.Idx → EReal) (ix2 k e') :=
    funext fun k => funext fun e' => entry0_w2 m ρ c k e'
  have e4 : (fun (e' : Fin 1024) => (V1 m ρ c main_v3 : S1x1024.Idx → EReal) (ix2 (0 : Fin 1) e')) = fun e' => (m ((c : Thread nD τ).loc main_arg5) : S1024.Idx → EReal) (ix1 e') :=
    funext fun e' => entry0_b2 m ρ c e'
  rw [e1, e2, e3, e4, entry0_x]

/-- The encoded speakers as the last call finds them: row `n` of the speakers encoded under the speaker weights. -/
theorem enc_c (c : Dev nD) (n : Fin 8192) (e : Fin 1024) :
    V5 m ρ half0 half1 c main_v9 (ix2 n e)
      = Cert.Spec.encC (m ((c : Thread nD τ).loc main_arg1)) (m ((c : Thread nD τ).loc main_arg6)) (m ((c : Thread nD τ).loc main_arg7)) (m ((c : Thread nD τ).loc main_arg8)) (m ((c : Thread nD τ).loc main_arg9)) n e := by
  rw [entry2_c]
  refine (enc1_final (V3 m ρ half0) c n e).trans ?_
  unfold Cert.Spec.encC
  show Cert.Spec.encRow (fun d => (V3 m ρ half0 c main_arg1 : S8192x1024.Idx → EReal) (ix2 n d))
      (fun d k => (V3 m ρ half0 c main_v5 : S1024x4096.Idx → EReal) (ix2 d k))
      (fun k => (V3 m ρ half0 c main_v7 : S1x4096.Idx → EReal) (ix2 (0 : Fin 1) k))
      (fun k e' => (V3 m ρ half0 c main_v6 : S4096x1024.Idx → EReal) (ix2 k e'))
      (fun e' => (V3 m ρ half0 c main_v8 : S1x1024.Idx → EReal) (ix2 (0 : Fin 1) e')) e = _
  have e1 : (fun (d : Fin 1024) (k : Fin 4096) => (V3 m ρ half0 c main_v5 : S1024x4096.Idx → EReal) (ix2 d k)) = fun d k => (m ((c : Thread nD τ).loc main_arg6) : S1024x4096.Idx → EReal) (ix2 d k) :=
    funext fun d => funext fun k => entry1_w1 m ρ half0 c d k
  have e2 : (fun (k : Fin 4096) => (V3 m ρ half0 c main_v7 : S1x4096.Idx → EReal) (ix2 (0 : Fin 1) k)) = fun k => (m ((c : Thread nD τ).loc main_arg7) : S4096.Idx → EReal) (ix1 k) :=
    funext fun k => entry1_b1 m ρ half0 c k
  have e3 : (fun (k : Fin 4096) (e' : Fin 1024) => (V3 m ρ half0 c main_v6 : S4096x1024.Idx → EReal) (ix2 k e')) = fun k e' => (m ((c : Thread nD τ).loc main_arg8) : S4096x1024.Idx → EReal) (ix2 k e') :=
    funext fun k => funext fun e' => entry1_w2 m ρ half0 c k e'
  have e4 : (fun (e' : Fin 1024) => (V3 m ρ half0 c main_v8 : S1x1024.Idx → EReal) (ix2 (0 : Fin 1) e')) = fun e' => (m ((c : Thread nD τ).loc main_arg9) : S1024.Idx → EReal) (ix1 e') :=
    funext fun e' => entry1_b2 m ρ half0 c e'
  rw [e1, e2, e3, e4, entry1_x]

/-- A row of the encoded messages, as the last call finds it. -/
theorem enc_m_row (c : Dev nD) (b : Fin 2048) :
    (fun e : Fin 1024 => (V5 m ρ half0 half1 c main_v4 : S2048x1024.Idx → EReal) (ix2 b e)) = fun e => (Cert.Spec.encM (m ((c : Thread nD τ).loc main_arg0)) (m ((c : Thread nD τ).loc main_arg2)) (m ((c : Thread nD τ).loc main_arg3)) (m ((c : Thread nD τ).loc main_arg4)) (m ((c : Thread nD τ).loc main_arg5))) b e :=
  funext fun e => enc_m m ρ c b e

/-- A row of the encoded speakers, as the last call finds it. -/
theorem enc_c_row (c : Dev nD) (n : Fin 8192) :
    (fun e : Fin 1024 => (V5 m ρ half0 half1 c main_v9 : S8192x1024.Idx → EReal) (ix2 n e)) = fun e => (Cert.Spec.encC (m ((c : Thread nD τ).loc main_arg1)) (m ((c : Thread nD τ).loc main_arg6)) (m ((c : Thread nD τ).loc main_arg7)) (m ((c : Thread nD τ).loc main_arg8)) (m ((c : Thread nD τ).loc main_arg9))) n e :=
  funext fun e => enc_c m ρ c n e

end Cert.KernelIdeal.Val

end
-- ==== Proof.KI.CosPayload.lean ====
/-
  The cosine/value kernel's four stored values, read one element at a time on the extended reals.

  The kernel works on a block of 1024 message rows and a block of 1024 speaker rows. At row p and
  column q its logits block holds (1 + <m_p, c_q>) / 2, the inner product taken along the 1024
  encoding coordinates of both rows. Its accumulator column gains, at row p, the sum over q of that
  logit times the q-th value weight; the column starts from zero, and at the last step the logistic
  function of the column plus the value bias is what is stored.
-/
import proofs.«168271_j46969762349635_2_alg».proof.Proof.Gen.KernelIdeal.Skeleton
import proofs.«168271_j46969762349635_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## Two column layouts read at an index -/

/-- A vector of `a` entries cast to a column `[a, 1]` reads, at row `i`, the vector's entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A single number `[1, 1]` spread down a column `[a, 1]` reads that number at every row. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-! ## The product of the two blocks, contracted along the encoding coordinate of both -/

/-- The left operand is read at the output's row. -/
theorem dot_lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The right operand is read at the row the output's column names. -/
theorem dot_rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- Into a zero accumulator, the product at `(p, q)` is the inner product of row `p` of the left
    block with row `q` of the right block. -/
theorem matmul_rows_apply (x y : FVec Ideal S1024x1024 .bf16) (p q : Fin 1024) :
    matmul dot_S1024x1024_S1024x1024_S1024x1024_1_1_0_0_n_n none x y
        (constant (F := Ideal) S1024x1024 .f32 0x00000000#32) (ix2 p q)
      = ∑ e : Fin 1024, x (ix2 p e) * y (ix2 q e) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact dot_lhs_row _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact dot_rhs_row _ _
      | ⟨1, _⟩ => exact (dot_S1024x1024_S1024x1024_S1024x1024_1_1_0_0_n_n.rhsIdx_val_of_single rfl _ _).trans hk)
  rw [el, er]

/-! ## The four stored values -/

/-- The column the accumulator is reset to is zero at every row. -/
theorem pay2_1_apply (r : Fin 1024) : k2_pay1 (F := Ideal) (ix2 r (0 : Fin 1)) = 0 := by
  unfold k2_pay1
  rw [shapeCast_self, broadcast_apply]
  exact Cert.Spec.zeroW_eq

/-- The logits block at `(p, q)` is the logit of message row `p` and speaker row `q` of the blocks. -/
theorem pay2_2_apply (v3 v5 : FVec Ideal S1024x1024 .bf16) (p q : Fin 1024) :
    k2_pay2 (F := Ideal) v3 v5 (ix2 p q)
      = Cert.Spec.logit (fun e => v3 (ix2 p e)) (fun e => v5 (ix2 q e)) := by
  unfold k2_pay2 Cert.Spec.logit
  dsimp only
  rw [shapeCast_self, shapeCast_self, mulf_apply, addf_apply, broadcast_apply, broadcast_apply,
    matmul_rows_apply]
  rfl

/-- The accumulator after a step: at row `p`, what it held plus the sum over the block's speaker
    rows of the logit times that row's value weight. -/
theorem pay2_3_apply (v3 v5 : FVec Ideal S1024x1024 .bf16) (v13 : FVec Ideal S1x1024 .f32)
    (v19 : FVec Ideal S1024x1 .f32) (p : Fin 1024) :
    k2_pay3 (F := Ideal) v3 v5 v13 v19 (ix2 p (0 : Fin 1))
      = v19 (ix2 p (0 : Fin 1))
        + ∑ q : Fin 1024, Cert.Spec.logit (fun e => v3 (ix2 p e)) (fun e => v5 (ix2 q e))
            * v13 (ix2 (0 : Fin 1) q) := by
  unfold k2_pay3
  dsimp only
  rw [shapeCast_self, addf_apply, shapeCast_a_a1_apply]
  refine congrArg (v19 (ix2 p (0 : Fin 1)) + ·) ?_
  refine (Ideal.multiReduction_add_single _ 0x00000000#32 _ _ _ (ix1 p)).trans ?_
  show ∑ k : Fin 1024, _ = _
  refine Finset.sum_congr rfl fun k _ => ?_
  have hl : Shape.Reduces.lift (s := S1024x1024) (t := S1024) (a := 1) reduces_S1024x1024_S1024 (ix1 p) k = ix2 p k :=
    funext fun a => Fin.ext (by
      match a with
      | ⟨0, _⟩ => rfl
      | ⟨1, _⟩ => rfl)
  rw [hl, mulf_apply, pay2_2_apply, broadcastTo_1b_ab_apply, shapeCast_self]

/-- The stored value at row `p`: the logistic function of the accumulator there plus the bias. -/
theorem pay2_4_apply (v27 : FVec Ideal S1024x1 .f32) (v28 : FVec Ideal S1x1 .f32) (p : Fin 1024) :
    k2_pay4 (F := Ideal) v27 v28 (ix2 p (0 : Fin 1))
      = Ideal.logistic (v27 (ix2 p (0 : Fin 1)) + v28 (ix2 (0 : Fin 1) (0 : Fin 1))) := by
  unfold k2_pay4
  show Ideal.logistic (addf v27 _ (ix2 p (0 : Fin 1))) = _
  rw [addf_apply, broadcastTo_11_a1_apply, shapeCast_self]

end Cert.KernelIdeal.Val

end
-- ==== Proof.KI.CosBlocks.lean ====
/-
  The cosine/value kernel's input blocks, read off the arrays the kernel finds.

  The grid has 2 x 8 points; point t = 8 i + j works on message rows 1024 i .. 1024 i + 1023 and
  on speaker rows (and value weights) 1024 j .. 1024 j + 1023. So an element of a block is an
  element of its array at a shifted row, and the sum a point adds to the accumulator at row p is
  the sum, over the point's 1024 speaker rows, of the logit times the value weight.
-/
import proofs.«168271_j46969762349635_2_alg».proof.Proof.KI.Cos.Runs
import proofs.«168271_j46969762349635_2_alg».proof.Proof.KI.CosPayload
import Idealize.ShloMosaic.Lib.Pipeline.Value

noncomputable section

open scoped BigOperators

namespace Cert.KernelIdeal.Val

open Cert.KernelIdeal Cert.KernelIdeal.Gen Cert.KernelIdeal.Fr
open Idealize.ShloMosaic Idealize.ShloMosaic.ValueIdx Idealize.ShloMosaic.TcCoe Idealize.SL.Sem

-- the contents of the core's buffers when the call is entered
variable (V : (c : Dev nD) → (b : Ref sig .tc) → Buf (Elt Ideal) ((c : Thread nD τ).loc b))

/-- The encoded messages as the call finds them. -/
abbrev arrM (c : Dev nD) : S2048x1024.Idx → EReal := V c (Pipeline.arrRef spec2 0)
/-- The encoded speakers as the call finds them. -/
abbrev arrC (c : Dev nD) : S8192x1024.Idx → EReal := V c (Pipeline.arrRef spec2 1)
/-- The value weights, one row of 8192, as the call finds them. -/
abbrev arrW (c : Dev nD) : S1x8192.Idx → EReal := V c (Pipeline.arrRef spec2 2)
/-- The value bias as the call finds it. -/
abbrev arrB (c : Dev nD) : S1x1.Idx → EReal := V c (Pipeline.arrRef spec2 3)

/-- The grid has sixteen points. -/
theorem point_lt (t : Fin cfg2.N) : t.val < 16 :=
  lt_of_lt_of_eq t.isLt N_2

/-- Row `p` of message block `i`. -/
def mrow (i : ℕ) (p : Fin 1024) : Fin 2048 := ⟨(1024 * i + p.val) % 2048, Nat.mod_lt _ (by decide)⟩
/-- Row `q` of speaker block `j`. -/
def crow (j : ℕ) (q : Fin 1024) : Fin 8192 := ⟨(1024 * j + q.val) % 8192, Nat.mod_lt _ (by decide)⟩

theorem mrow_val (i : ℕ) (hi : i < 2) (p : Fin 1024) : (mrow i p).val = 1024 * i + p.val := by
  show (1024 * i + p.val) % 2048 = _
  have := p.isLt; omega

theorem crow_val (j : ℕ) (hj : j < 8) (q : Fin 1024) : (crow j q).val = 1024 * j + q.val := by
  show (1024 * j + q.val) % 8192 = _
  have := q.isLt; omega

/-- The printed index maps at point `t = 8 i + j`: the messages' and both outputs' blocks move with
    `i`, the speakers', the weights' and the logits' with `j`. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = 0 ∧ win2_2.index t (1 : Fin 2) = t.val % 8
    ∧ win2_3.index t (0 : Fin 2) = 0 ∧ win2_3.index t (1 : Fin 2) = 0
    ∧ win2_4.index t (0 : Fin 2) = t.val / 8 ∧ win2_4.index t (1 : Fin 2) = t.val % 8
    ∧ win2_5.index t (0 : Fin 2) = t.val / 8 ∧ win2_5.index t (1 : Fin 2) = 0 :=
  (by decide +kernel : ∀ t : Fin grid2.N, _)

/-- The messages' block at point `t`, at `(p, e)`: message row `1024 (t / 8) + p`. -/
theorem iblkM_apply (c : Dev nD) (t : Fin cfg2.N) (p e : Fin 1024) :
    (iblk2 V c 0 t : Vec Ideal S1024x1024 .bf16) (ix2 p e) = arrM V c (ix2 (mrow (t.val / 8) p) e) := by
  obtain ⟨e0, e1, -⟩ := idx_facts2 t
  have ht := point_lt t
  have hm := mrow_val (t.val / 8) (by omega) p
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1024 + 1 * p.val = (mrow (t.val / 8) p).val; rw [e0, hm]; omega
  | ⟨1, _⟩ => show win2_0.index t (1 : Fin 2) * 1024 + 1 * e.val = e.val; rw [e1]; omega

/-- The speakers' block at point `t`, at `(q, e)`: speaker row `1024 (t % 8) + q`. -/
theorem iblkC_apply (c : Dev nD) (t : Fin cfg2.N) (q e : Fin 1024) :
    (iblk2 V c 1 t : Vec Ideal S1024x1024 .bf16) (ix2 q e) = arrC V c (ix2 (crow (t.val % 8) q) e) := by
  obtain ⟨-, -, e0, e1, -⟩ := idx_facts2 t
  have hm := crow_val (t.val % 8) (by omega) q
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1024 + 1 * q.val = (crow (t.val % 8) q).val; rw [e0, hm]; omega
  | ⟨1, _⟩ => show win2_1.index t (1 : Fin 2) * 1024 + 1 * e.val = e.val; rw [e1]; omega

/-- The weights' block at point `t`, at `(0, q)`: the weight of speaker row `1024 (t % 8) + q`. -/
theorem iblkW_apply (c : Dev nD) (t : Fin cfg2.N) (q : Fin 1024) :
    (iblk2 V c 2 t : Vec Ideal S1x1024 .f32) (ix2 (0 : Fin 1) q)
      = arrW V c (ix2 (0 : Fin 1) (crow (t.val % 8) q)) := by
  obtain ⟨-, -, -, -, e0, e1, -⟩ := idx_facts2 t
  have hm := crow_val (t.val % 8) (by omega) q
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; rw [e0]
  | ⟨1, _⟩ => show win2_2.index t (1 : Fin 2) * 1024 + 1 * q.val = (crow (t.val % 8) q).val; rw [e1, hm]; omega

/-- The bias' block at every point is the bias. -/
theorem iblkB_apply (c : Dev nD) (t : Fin cfg2.N) :
    (iblk2 V c 3 t : Vec Ideal S1x1 .f32) (ix2 (0 : Fin 1) (0 : Fin 1))
      = arrB V c (ix2 (0 : Fin 1) (0 : Fin 1)) := by
  obtain ⟨-, -, -, -, -, -, e0, e1, -⟩ := idx_facts2 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; rw [e0]
  | ⟨1, _⟩ => show win2_3.index t (1 : Fin 2) * 1 + 1 * 0 = 0; rw [e1]

/-- The logit of message row `b` and speaker row `n` of the arrays. -/
def lg (c : Dev nD) (b : Fin 2048) (n : Fin 8192) : EReal :=
  Cert.Spec.logit (fun e => arrM V c (ix2 b e)) (fun e => arrC V c (ix2 n e))

/-- What point `(i, j)` adds to the accumulator at row `p`: over the 1024 speaker rows of block
    `j`, the logit with message row `p` of block `i` times the row's value weight. -/
def blockTerm (c : Dev nD) (i j : ℕ) (p : Fin 1024) : EReal :=
  ∑ q : Fin 1024, lg V c (mrow i p) (crow j q) * arrW V c (ix2 (0 : Fin 1) (crow j q))

/-- The logits block of point `t` at `(p, q)`. -/
theorem pay2_at (c : Dev nD) (t : Fin cfg2.N) (p q : Fin 1024) :
    k2_pay2 (F := Ideal) (iblk2 V c 0 t) (iblk2 V c 1 t) (ix2 p q)
      = lg V c (mrow (t.val / 8) p) (crow (t.val % 8) q) := by
  refine (pay2_2_apply (iblk2 V c 0 t) (iblk2 V c 1 t) p q).trans ?_
  exact congrArg₂ Cert.Spec.logit (funext fun e => iblkM_apply V c t p e) (funext fun e => iblkC_apply V c t q e)

/-- The accumulator after the step of point `t`, from what it held (`v19`). -/
theorem pay3_at (c : Dev nD) (t : Fin cfg2.N) (v19 : FVec Ideal S1024x1 .f32) (p : Fin 1024) :
    k2_pay3 (F := Ideal) (iblk2 V c 0 t) (iblk2 V c 1 t) (iblk2 V c 2 t) v19 (ix2 p (0 : Fin 1))
      = v19 (ix2 p (0 : Fin 1)) + blockTerm V c (t.val / 8) (t.val % 8) p := by
  refine (pay2_3_apply (iblk2 V c 0 t) (iblk2 V c 1 t) (iblk2 V c 2 t) v19 p).trans ?_
  refine congrArg (v19 (ix2 p (0 : Fin 1)) + ·) (Finset.sum_congr rfl fun q _ => ?_)
  exact congrArg₂ (· * ·)
    (congrArg₂ Cert.Spec.logit (funext fun e => iblkM_apply V c t p e) (funext fun e => iblkC_apply V c t q e))
    (iblkW_apply V c t q)

/-- The stored value of point `t` at row `p`, from the accumulator (`v27`). -/
theorem pay4_at (c : Dev nD) (t : Fin cfg2.N) (v27 : FVec Ideal S1024x1 .f32) (p : Fin 1024) :
    k2_pay4 (F := Ideal) v27 (iblk2 V c 3 t) (ix2 p (0 : Fin 1))
      = Ideal.logistic (v27 (ix2 p (0 : Fin 1)) + arrB V c (ix2 (0 : Fin 1) (0 : Fin 1))) := by
  refine (pay2_4_apply v27 (iblk2 V c 3 t) p).trans ?_
  exact congrArg (fun x => Ideal.logistic (v27 (ix2 p (0 : Fin 1)) + x)) (iblkB_apply V c t)

end Cert.KernelIdeal.Val

end
-- ==== Proof.KI.CosLogits.lean ====
/-
  The logits array the cosine/value call leaves, entry by entry.

  The call's grid has 2 x 8 points. Point t = 8 i + j stores the 1024 x 1024 block of logits of
  message rows 1024 i .. 1024 i + 1023 against speaker rows 1024 j .. 1024 j + 1023, and every
  point's block is written back to rows 1024 i .., columns 1024 j .. of the 2048 x 8192 output. The
  sixteen blocks tile the output, so entry (b, n) of it ends as the logit of message row b and
  speaker row n of the two encoded arrays the call finds: half of one plus their inner product.
-/
import proofs.«168271_j46969762349635_2_alg».proof.Proof.KI.Cos
import proofs.«168271_j46969762349635_2_alg».proof.Proof.KI.CosBlocks
import proofs.«168271_j46969762349635_2_alg».proof.Proof.KI.CosPayload
import proofs.«168271_j46969762349635_2_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.ValueIdx Idealize.ShloMosaic.TcCoe Idealize.ShloMosaic.Tactic Idealize.SL.Sem

/-! ## What each case of the body stores into the logits' buffer -/

section Pieces

variable {F : FTy → Type} [FloatOps F]

/-- The one store into the logits' buffer starts at the buffer's origin. -/
theorem logits_origin : (![0, 0] : Fin 2 → Nat) = fun _ => 0 := funext fun a => by fin_cases a <;> rfl

/-- At the first point of a row the logits' buffer is stored once, whole: the logits block of the two loaded blocks. -/
theorem logits_canon_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) :
    View.canon (kernelRun2_A c i arg2 harg2 arg3 harg3 arg4 harg4 arg5 harg5 arg6 harg6 arg7 harg7 arg8 harg8 hc0 hc1 x0 x1 x2 x3).1 = k2_pay2 x0 x1 := by
  unfold kernelRun2_A
  dsimp only
  sl_unfold_words
  rw [View.canon_unit_zero logits_origin]
  simp only [View.readAt_eq_ld, harg2.read_unread, harg3.read_unread, View.ld_unit_zero (S := S1024x1024) logits_origin]

/-- The same at an inner point of a row. -/
theorem logits_canon_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) :
    View.canon (kernelRun2_B c i arg2 harg2 arg3 harg3 arg4 harg4 arg5 harg5 arg6 harg6 arg7 harg7 arg8 harg8 hc0 hc1 x0 x1 x2 x3 xs0).1 = k2_pay2 x0 x1 := by
  unfold kernelRun2_B
  dsimp only
  sl_unfold_words
  rw [View.canon_unit_zero logits_origin]
  simp only [View.readAt_eq_ld, harg2.read_unread, harg3.read_unread, View.ld_unit_zero (S := S1024x1024) logits_origin]

/-- The same at the last point of a row. -/
theorem logits_canon_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) :
    View.canon (kernelRun2_C c i arg2 harg2 arg3 harg3 arg4 harg4 arg5 harg5 arg6 harg6 arg7 harg7 arg8 harg8 hc0 hc1 x0 x1 x2 x3 xs0).1 = k2_pay2 x0 x1 := by
  unfold kernelRun2_C
  dsimp only
  sl_unfold_words
  rw [View.canon_unit_zero logits_origin]
  simp only [View.readAt_eq_ld, harg2.read_unread, harg3.read_unread, View.ld_unit_zero (S := S1024x1024) logits_origin]

/-- What the first point of a row leaves in the logits' buffer is the logits block of its two input blocks. -/
theorem out2_A_4_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i)
    (x0 : Vec F S1024x1024 .bf16) (x1 : Vec F S1024x1024 .bf16) (x2 : Vec F S1x1024 .f32) (x3 : Vec F S1x1 .f32) :
    out2_A_4 c i arg2 harg2 arg3 harg3 arg4 harg4 arg5 harg5 arg6 harg6 arg7 harg7 arg8 harg8 hc0 hc1 x0 x1 x2 x3 = k2_pay2 x0 x1 := by
  unfold out2_A_4
  rw [View.read_writes_eq_canon _ _ _ (cover2_A_4 c i arg2 harg2 arg3 harg3 arg4 harg4 arg5 harg5 arg6 harg6 arg7 harg7 arg8 harg8 hc0 hc1 x0 x1 x2 x3)]
  exact logits_canon_A c i arg2 harg2 arg3 harg3 arg4 harg4 arg5 harg5 arg6 harg6 arg7 harg7 arg8 harg8 hc0 hc1 x0 x1 x2 x3

/-- The same at an inner point of a row. -/
theorem out2_B_4_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i)
    (x0 : Vec F S1024x1024 .bf16) (x1 : Vec F S1024x1024 .bf16) (x2 : Vec F S1x1024 .f32) (x3 : Vec F S1x1 .f32) (xs0 : Vec F S1024x1 .f32) :
    out2_B_4 c i arg2 harg2 arg3 harg3 arg4 harg4 arg5 harg5 arg6 harg6 arg7 harg7 arg8 harg8 hc0 hc1 x0 x1 x2 x3 xs0 = k2_pay2 x0 x1 := by
  unfold out2_B_4
  rw [View.read_writes_eq_canon _ _ _ (cover2_B_4 c i arg2 harg2 arg3 harg3 arg4 harg4 arg5 harg5 arg6 harg6 arg7 harg7 arg8 harg8 hc0 hc1 x0 x1 x2 x3 xs0)]
  exact logits_canon_B c i arg2 harg2 arg3 harg3 arg4 harg4 arg5 harg5 arg6 harg6 arg7 harg7 arg8 harg8 hc0 hc1 x0 x1 x2 x3 xs0

/-- The same at the last point of a row. -/
theorem out2_C_4_eq (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i)
    (x0 : Vec F S1024x1024 .bf16) (x1 : Vec F S1024x1024 .bf16) (x2 : Vec F S1x1024 .f32) (x3 : Vec F S1x1 .f32) (xs0 : Vec F S1024x1 .f32) :
    out2_C_4 c i arg2 harg2 arg3 harg3 arg4 harg4 arg5 harg5 arg6 harg6 arg7 harg7 arg8 harg8 hc0 hc1 x0 x1 x2 x3 xs0 = k2_pay2 x0 x1 := by
  unfold out2_C_4
  rw [View.read_writes_eq_canon _ _ _ (cover2_C_4 c i arg2 harg2 arg3 harg3 arg4 harg4 arg5 harg5 arg6 harg6 arg7 harg7 arg8 harg8 hc0 hc1 x0 x1 x2 x3 xs0)]
  exact logits_canon_C c i arg2 harg2 arg3 harg3 arg4 harg4 arg5 harg5 arg6 harg6 arg7 harg7 arg8 harg8 hc0 hc1 x0 x1 x2 x3 xs0

end Pieces

/-! ## From the blocks to the array -/

-- the contents of the core's buffers when the call is entered
variable (V : (c : Dev nD) → (b : Ref sig .tc) → Buf (Elt Ideal) ((c : Thread nD τ).loc b))

set_option maxHeartbeats 2000000 in
/-- At the first point of a row, the logits' buffer at (p, q) after the body. -/
theorem logits_at_first (c : Dev nD) (t : Fin cfg2.N) (h0 : t.val % 8 = 0) (p q : Fin 1024) :
    ((outsAt2 V c t.val t.isLt).1 : Vec Ideal S1024x1024 .f32) (ix2 p q)
      = lg V c (mrow (t.val / 8) p) (crow (t.val % 8) q) := by
  have h1 : ¬t.val % 8 = 7 := by omega
  have e := congrArg (fun x => x.1) (outsAt2_A V c t h0 h1)
  refine (congrFun e (ix2 p q)).trans ?_
  refine (congrFun (out2_A_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)) (ix2 p q)).trans ?_
  exact pay2_at V c t p q

set_option maxHeartbeats 2000000 in
/-- At an inner point of a row, the logits' buffer at (p, q) after the body. -/
theorem logits_at_inner (c : Dev nD) (t : Fin cfg2.N) (h0 : ¬t.val % 8 = 0) (h1 : ¬t.val % 8 = 7) (p q : Fin 1024) :
    ((outsAt2 V c t.val t.isLt).1 : Vec Ideal S1024x1024 .f32) (ix2 p q)
      = lg V c (mrow (t.val / 8) p) (crow (t.val % 8) q) := by
  have e := congrArg (fun x => x.1) (outsAt2_B V c t h0 h1)
  refine (congrFun e (ix2 p q)).trans ?_
  refine (congrFun (out2_B_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2) (ix2 p q)).trans ?_
  exact pay2_at V c t p q

set_option maxHeartbeats 2000000 in
/-- At the last point of a row, the logits' buffer at (p, q) after the body. -/
theorem logits_at_last (c : Dev nD) (t : Fin cfg2.N) (h0 : ¬t.val % 8 = 0) (h1 : t.val % 8 = 7) (p q : Fin 1024) :
    ((outsAt2 V c t.val t.isLt).1 : Vec Ideal S1024x1024 .f32) (ix2 p q)
      = lg V c (mrow (t.val / 8) p) (crow (t.val % 8) q) := by
  have e := congrArg (fun x => x.1) (outsAt2_C V c t h0 h1)
  refine (congrFun e (ix2 p q)).trans ?_
  refine (congrFun (out2_C_4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) (ix2 p q)).trans ?_
  exact pay2_at V c t p q

/-- After the body at any point the logits' buffer holds, at (p, q), the logit of message row
    1024 (t / 8) + p and speaker row 1024 (t % 8) + q, whichever of the three cases the point is. -/
theorem logits_at (c : Dev nD) (t : Fin cfg2.N) (p q : Fin 1024) :
    ((outsAt2 V c t.val t.isLt).1 : Vec Ideal S1024x1024 .f32) (ix2 p q)
      = lg V c (mrow (t.val / 8) p) (crow (t.val % 8) q) := by
  by_cases h0 : t.val % 8 = 0
  · exact logits_at_first V c t h0 p q
  · by_cases h1 : t.val % 8 = 7
    · exact logits_at_last V c t h0 h1 p q
    · exact logits_at_inner V c t h0 h1 p q

/-- The whole array of logits of the two encoded arrays the call finds: entry (b, n) is the logit of message
    row b and speaker row n. -/
def logitsArr (c : Dev nD) : S2048x8192.Idx → EReal :=
  fun i => lg V c ⟨(i 0).val, (i 0).isLt⟩ ⟨(i 1).val, (i 1).isLt⟩

/-- What point t writes back, at (p, q): the logit of message row 1024 (t / 8) + p and speaker row
    1024 (t % 8) + q. -/
theorem flushed4_apply (c : Dev nD) (t : Fin cfg2.N) (p q : Fin 1024) :
    ((dat2 V c).flushed 4 t : S1024x1024.Idx → EReal) (ix2 p q)
      = lg V c (mrow (t.val / 8) p) (crow (t.val % 8) q) := by
  show ((dat2 V c).after 4 t : S1024x1024.Idx → EReal) (ix2 p q) = _
  rw [after2_4]
  exact logits_at V c t p q

/-- What point t writes back is its block of the whole array of logits. -/
theorem flushed4_eq (c : Dev nD) (t : Fin cfg2.N) :
    (dat2 V c).flushed 4 t = ((cfg2.win 4).blk t).view.read (Elt Ideal) (logitsArr V c) := by
  obtain ⟨-, -, -, -, -, -, -, -, e0, e1, -⟩ := idx_facts2 t
  have ht := point_lt t
  funext j
  obtain ⟨p, q, rfl⟩ : ∃ (p q : Fin 1024), j = ix2 p q := ⟨j 0, j 1, eq_ix2 j⟩
  rw [View.read_apply]
  refine (flushed4_apply V c t p q).trans ?_
  have hm := mrow_val (t.val / 8) (by omega) p
  have hc := crow_val (t.val % 8) (by omega) q
  show lg V c _ _ = lg V c _ _
  refine congrArg₂ (lg V c) (Fin.ext ?_) (Fin.ext ?_)
  · show (mrow (t.val / 8) p).val = win2_4.index t (0 : Fin 2) * 1024 + 1 * p.val
    rw [e0, hm]; omega
  · show (crow (t.val % 8) q).val = win2_4.index t (1 : Fin 2) * 1024 + 1 * q.val
    rw [e1, hc]; omega

/-- An entry of the output is in point t's block iff each coordinate is in the block's range on its axis. -/
theorem mem_blk4 (t : Fin cfg2.N) (i : S2048x8192.Idx) :
    i ∈ ((cfg2.win 4).blk t).view.set
      ↔ ∀ a : Fin 2, win2_4.index t a * S1024x1024.size a ≤ (i a).val
          ∧ (i a).val < win2_4.index t a * S1024x1024.size a + S1024x1024.size a := by
  show i ∈ ((View.whole main_v12_0).slice (win2_4.rect t)).set ↔ _
  rw [View.set_slice_whole, Rect.mem_set_unit]
  exact Iff.rfl

/-- The sixteen blocks tile the output: entry (b, n) is in the block of point 8 (b / 1024) + n / 1024, and
    every point writes its block back. -/
theorem cover4 (i : S2048x8192.Idx) :
    ∃ t : Fin cfg2.N, (cfg2.win 4).flush t = true ∧ i ∈ ((cfg2.win 4).blk t).view.set := by
  have hi0 : (i 0).val < 2048 := (i 0).isLt
  have hi1 : (i 1).val < 8192 := (i 1).isLt
  have hn : 8 * ((i 0).val / 1024) + (i 1).val / 1024 < 16 := by omega
  let t : Fin cfg2.N := ⟨8 * ((i 0).val / 1024) + (i 1).val / 1024, lt_of_lt_of_eq hn N_2.symm⟩
  have htv : t.val = 8 * ((i 0).val / 1024) + (i 1).val / 1024 := rfl
  obtain ⟨-, -, -, -, -, -, -, -, e0, e1, -⟩ := idx_facts2 t
  refine ⟨t, flush2_4 t, ?_⟩
  rw [mem_blk4]
  intro a
  match a with
  | ⟨0, _⟩ =>
    show win2_4.index t (0 : Fin 2) * 1024 ≤ (i 0).val ∧ (i 0).val < win2_4.index t (0 : Fin 2) * 1024 + 1024
    rw [e0, htv]; omega
  | ⟨1, _⟩ =>
    show win2_4.index t (1 : Fin 2) * 1024 ≤ (i 1).val ∧ (i 1).val < win2_4.index t (1 : Fin 2) * 1024 + 1024
    rw [e1, htv]; omega

/-- After the call the output array is the whole array of logits. -/
theorem logits_final (c : Dev nD) : (dat2 V c).arrAt 4 cfg2.N = logitsArr V c :=
  (dat2 V c).arrAt_eq_of_cover 4 (logitsArr V c) (fun t _ => flushed4_eq V c t) cover4

/-- After the call, entry (b, n) of the output array is the logit of row b of the encoded messages and row n of
    the encoded speakers, as the call finds them. -/
theorem cos_logits_final (c : Dev nD) (b : Fin 2048) (n : Fin 8192) :
    (dat2 (F := Ideal) V c).arrAt 4 cfg2.N (ix2 b n)
      = Cert.Spec.logit (fun e => (V c (Pipeline.arrRef spec2 0) : S2048x1024.Idx → EReal) (ix2 b e))
          (fun e => (V c (Pipeline.arrRef spec2 1) : S8192x1024.Idx → EReal) (ix2 n e)) := by
  rw [logits_final]
  rfl

end Cert.KernelIdeal.Val

end
-- ==== Proof.BridgeLogits.lean ====
/-
  The kernel's first result array, index by index: the logit of message row b and speaker row n of the two encoded
  arrays the last pallas_call is entered with, which are the encoders'.
-/
import proofs.«168271_j46969762349635_2_alg».proof.Proof.BridgeEnc
import proofs.«168271_j46969762349635_2_alg».proof.Proof.KI.CosLogits

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's logits are the specification's. -/
theorem kernel_logits (c : Dev nD) (b : Fin 2048) (n : Fin 8192) :
    (out0 m ρ c : S2048x8192.Idx → EReal) (ix2 b n) = Cert.Spec.logits (Cert.Spec.encM (m ((c : Thread nD τ).loc main_arg0)) (m ((c : Thread nD τ).loc main_arg2)) (m ((c : Thread nD τ).loc main_arg3)) (m ((c : Thread nD τ).loc main_arg4)) (m ((c : Thread nD τ).loc main_arg5))) (Cert.Spec.encC (m ((c : Thread nD τ).loc main_arg1)) (m ((c : Thread nD τ).loc main_arg6)) (m ((c : Thread nD τ).loc main_arg7)) (m ((c : Thread nD τ).loc main_arg8)) (m ((c : Thread nD τ).loc main_arg9))) b n := by
  have h := W6_out0 m ρ half0 half1 half2 c
  show (W6 m ρ half0 half1 half2 c (Proc.devRef .tc main_v12_0) : S2048x8192.Idx → EReal) (ix2 b n) = _
  rw [h]
  refine (cos_logits_final (V5 m ρ half0 half1) c b n).trans ?_
  show Cert.Spec.logit (fun e => (V5 m ρ half0 half1 c main_v4 : S2048x1024.Idx → EReal) (ix2 b e))
      (fun e => (V5 m ρ half0 half1 c main_v9 : S8192x1024.Idx → EReal) (ix2 n e)) = _
  rw [enc_m_row, enc_c_row]
  rfl

end Cert.KernelIdeal.Val

end
-- ==== Proof.KI.CosPieces.lean ====
/-
  What the cosine/value kernel's body leaves in its accumulator and in the values' buffer, case by
  case, as the kernel's stored values of the blocks it loaded.

  At the first point of a row the accumulator is first set to zero and then gains the point's sums,
  so it ends at the step's value taken from the zero column. At a later point it gains the point's
  sums on top of what it held. At the last point of a row the values' buffer receives the logistic
  function of the accumulator, as just updated, plus the bias.
-/
import proofs.«168271_j46969762349635_2_alg».proof.Proof.KI.Cos.RunC
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The zero offsets of a whole-buffer access. -/
theorem zero_offsets : (![0, 0] : Fin 2 → Nat) = fun _ => 0 := funext fun a => by fin_cases a <;> rfl

/-- First point of a row: the accumulator ends at the step's value over the zero column. -/
theorem acc_first (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : cond2_0 i) (hc1 : ¬cond2_1 i) (x0 : Vec F S1024x1024 .bf16) (x1 : Vec F S1024x1024 .bf16) (x2 : Vec F S1x1024 .f32) (x3 : Vec F S1x1 .f32) :
    VS2_0.read (Elt F) (VS2_0.writes (Elt F) VS2_0.junk (kernelRun2_A c i arg2 harg2 arg3 harg3 arg4 harg4 arg5 harg5 arg6 harg6 arg7 harg7 arg8 harg8 hc0 hc1 x0 x1 x2 x3).2.2.1)
      = k2_pay3 x0 x1 x2 k2_pay1 := by
  rw [View.read_writes_eq_canon _ _ _ (fun y => View.cover_of_tiledL (kernelRun2_A c i arg2 harg2 arg3 harg3 arg4 harg4 arg5 harg5 arg6 harg6 arg7 harg7 arg8 harg8 hc0 hc1 x0 x1 x2 x3).2.2.1 S1024x1.size (by sl_kernel_rfl) y)]
  unfold kernelRun2_A
  dsimp only
  sl_unfold_words
  rw [View.canon_cons_unit_zero (S := S1024x1) zero_offsets, View.readCov_unit_zero (S := S1024x1) _ zero_offsets]
  simp only [View.readAt_eq_ld, harg2.read_unread, harg3.read_unread, harg4.read_unread,
    View.ld_unit_zero (S := S1024x1024) zero_offsets, View.ld_unit_zero (S := S1x1024) zero_offsets]

/-- An inner point of a row: the accumulator ends at the step's value over what it held. -/
theorem acc_inner (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : ¬cond2_1 i) (x0 : Vec F S1024x1024 .bf16) (x1 : Vec F S1024x1024 .bf16) (x2 : Vec F S1x1024 .f32) (x3 : Vec F S1x1 .f32) (xs0 : Vec F S1024x1 .f32) :
    VS2_0.read (Elt F) (VS2_0.writes (Elt F) VS2_0.junk (kernelRun2_B c i arg2 harg2 arg3 harg3 arg4 harg4 arg5 harg5 arg6 harg6 arg7 harg7 arg8 harg8 hc0 hc1 x0 x1 x2 x3 xs0).2.2.1)
      = k2_pay3 x0 x1 x2 xs0 := by
  rw [View.read_writes_eq_canon _ _ _ (fun y => View.cover_of_tiledL (kernelRun2_B c i arg2 harg2 arg3 harg3 arg4 harg4 arg5 harg5 arg6 harg6 arg7 harg7 arg8 harg8 hc0 hc1 x0 x1 x2 x3 xs0).2.2.1 S1024x1.size (by sl_kernel_rfl) y)]
  unfold kernelRun2_B
  dsimp only
  sl_unfold_words
  rw [View.canon_unit_zero (S := S1024x1) zero_offsets]
  simp only [View.readAt_eq_ld, harg2.read_unread, harg3.read_unread, harg4.read_unread, harg8.read_unread,
    View.ld_unit_zero (S := S1024x1024) zero_offsets, View.ld_unit_zero (S := S1x1024) zero_offsets,
    View.ld_unit_zero (S := S1024x1) zero_offsets]

/-- The last point of a row: the accumulator ends at the step's value over what it held, -/
theorem acc_last (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i) (x0 : Vec F S1024x1024 .bf16) (x1 : Vec F S1024x1024 .bf16) (x2 : Vec F S1x1024 .f32) (x3 : Vec F S1x1 .f32) (xs0 : Vec F S1024x1 .f32) :
    VS2_0.read (Elt F) (VS2_0.writes (Elt F) VS2_0.junk (kernelRun2_C c i arg2 harg2 arg3 harg3 arg4 harg4 arg5 harg5 arg6 harg6 arg7 harg7 arg8 harg8 hc0 hc1 x0 x1 x2 x3 xs0).2.2.1)
      = k2_pay3 x0 x1 x2 xs0 := by
  rw [View.read_writes_eq_canon _ _ _ (fun y => View.cover_of_tiledL (kernelRun2_C c i arg2 harg2 arg3 harg3 arg4 harg4 arg5 harg5 arg6 harg6 arg7 harg7 arg8 harg8 hc0 hc1 x0 x1 x2 x3 xs0).2.2.1 S1024x1.size (by sl_kernel_rfl) y)]
  unfold kernelRun2_C
  dsimp only
  sl_unfold_words
  rw [View.canon_unit_zero (S := S1024x1) zero_offsets]
  simp only [View.readAt_eq_ld, harg2.read_unread, harg3.read_unread, harg4.read_unread, harg8.read_unread,
    View.ld_unit_zero (S := S1024x1024) zero_offsets, View.ld_unit_zero (S := S1x1024) zero_offsets,
    View.ld_unit_zero (S := S1024x1) zero_offsets]

/-- and the values' buffer receives the stored value of that accumulator and the bias. -/
theorem values_last (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (hc0 : ¬cond2_0 i) (hc1 : cond2_1 i) (x0 : Vec F S1024x1024 .bf16) (x1 : Vec F S1024x1024 .bf16) (x2 : Vec F S1x1024 .f32) (x3 : Vec F S1x1 .f32) (xs0 : Vec F S1024x1 .f32) :
    VO2_5.read (Elt F) (VO2_5.writes (Elt F) VO2_5.junk (kernelRun2_C c i arg2 harg2 arg3 harg3 arg4 harg4 arg5 harg5 arg6 harg6 arg7 harg7 arg8 harg8 hc0 hc1 x0 x1 x2 x3 xs0).2.1)
      = k2_pay4 (k2_pay3 x0 x1 x2 xs0) x3 := by
  rw [View.read_writes_eq_canon _ _ _ (fun y => View.cover_of_tiledL (kernelRun2_C c i arg2 harg2 arg3 harg3 arg4 harg4 arg5 harg5 arg6 harg6 arg7 harg7 arg8 harg8 hc0 hc1 x0 x1 x2 x3 xs0).2.1 S1024x1.size (by sl_kernel_rfl) y)]
  unfold kernelRun2_C
  dsimp only
  sl_unfold_words
  rw [View.canon_unit_zero (S := S1024x1) zero_offsets, View.readCov_unit_zero (S := S1024x1) _ zero_offsets]
  simp only [View.readAt_eq_ld, harg2.read_unread, harg3.read_unread, harg4.read_unread, harg5.read_unread,
    harg8.read_unread, View.ld_unit_zero (S := S1024x1024) zero_offsets,
    View.ld_unit_zero (S := S1x1024) zero_offsets, View.ld_unit_zero (S := S1024x1) zero_offsets,
    View.ld_unit_zero (S := S1x1) zero_offsets]

end Cert.KernelIdeal.Val

end
-- ==== Proof.KI.CosSum.lean ====
/-
  Two facts about sums on the extended reals, which are a commutative monoid under addition, so no
  finiteness is asked of the terms.

  A sum over 8192 positions is the sum over eight blocks of the sum over the 1024 positions of each
  block, position 1024 * j + q being position q of block j. And adding the blocks' sums one after the
  other, starting from zero, gives the sum over the blocks.
-/
import Mathlib.Data.EReal.Basic
import Mathlib.Algebra.BigOperators.Fin
import Mathlib.Algebra.BigOperators.Group.Finset.Basic
import Mathlib.Logic.Equiv.Fin.Basic

noncomputable section

open scoped BigOperators

namespace Cert.KernelIdeal.Val

/-- A sum over 8192 positions, taken block by block: eight blocks of 1024 positions. -/
theorem sum_blocks (f : Fin 8192 → EReal) :
    ∑ n : Fin 8192, f n
      = ∑ j : Fin 8, ∑ q : Fin 1024,
          f ⟨1024 * j.val + q.val, by have := j.isLt; have := q.isLt; omega⟩ := by
  have e : ∑ n : Fin 8192, f n
      = ∑ x : Fin 8 × Fin 1024, f ((finProdFinEquiv : Fin 8 × Fin 1024 ≃ Fin (8 * 1024)) x) :=
    (Equiv.sum_comp (finProdFinEquiv : Fin 8 × Fin 1024 ≃ Fin (8 * 1024)) f).symm
  rw [e, Fintype.sum_prod_type]
  refine Finset.sum_congr rfl fun j _ => Finset.sum_congr rfl fun q _ => congrArg f (Fin.ext ?_)
  show q.val + 1024 * j.val = 1024 * j.val + q.val
  omega

/-- The running total after step `k`: zero plus the first term, then each later term added on the
    right. -/
def acc (g : ℕ → EReal) : ℕ → EReal
  | 0 => 0 + g 0
  | k + 1 => acc g k + g (k + 1)

theorem acc_zero (g : ℕ → EReal) : acc g 0 = 0 + g 0 := rfl

theorem acc_succ (g : ℕ → EReal) (k : ℕ) : acc g (k + 1) = acc g k + g (k + 1) := rfl

/-- The running total after step `k` is the sum of the terms up to `k`. -/
theorem acc_eq_sum_range (g : ℕ → EReal) (k : ℕ) : acc g k = ∑ j ∈ Finset.range (k + 1), g j := by
  induction k with
  | zero => rw [acc_zero, zero_add, Finset.sum_range_one]
  | succ k ih => rw [acc_succ, ih, Finset.sum_range_succ _ (k + 1)]

/-- After eight steps the running total is the sum over the eight blocks. -/
theorem acc_seven (g : ℕ → EReal) : acc g 7 = ∑ j : Fin 8, g j.val := by
  rw [acc_eq_sum_range, Fin.sum_univ_eq_sum_range]

end Cert.KernelIdeal.Val

end
-- ==== Proof.KI.CosValue.lean ====
/-
  The values the cosine/value call leaves in its second output array.

  Along a row of the grid (eight points, one per block of 1024 speaker rows) the accumulator at row
  p holds, after point j, zero plus the first block's sum, then each later block's sum added on the
  right, a block's sum being the sum over its speaker rows of the logit with message row p times
  the row's value weight. After the eighth point this is the sum over all 8192 speaker rows, and
  the kernel stores the logistic function of it plus the bias. The eight rows' last points write
  back the two halves of the array.
-/
import proofs.«168271_j46969762349635_2_alg».proof.Proof.KI.Cos
import proofs.«168271_j46969762349635_2_alg».proof.Proof.KI.CosPieces
import proofs.«168271_j46969762349635_2_alg».proof.Proof.KI.CosBlocks
import proofs.«168271_j46969762349635_2_alg».proof.Proof.KI.CosSum
import Idealize.ShloMosaic.Lib.Pipeline.Value

set_option maxRecDepth 16384

noncomputable section

open scoped BigOperators

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

-- the contents of the core's buffers when the call is entered
variable (V : (c : Dev nD) → (b : Ref sig .tc) → Buf (Elt Ideal) ((c : Thread nD τ).loc b))

/-! ## The accumulator along a row -/

set_option maxHeartbeats 2000000 in
/-- At the first point of a row the accumulator ends at zero plus the point's sums. -/
theorem acc_step_first (c : Dev nD) (t : Fin cfg2.N) (h0 : t.val % 8 = 0) (p : Fin 1024) :
    ((outsAt2 V c t.val t.isLt).2.2 : Vec Ideal S1024x1 .f32) (ix2 p (0 : Fin 1))
      = 0 + blockTerm V c (t.val / 8) (t.val % 8) p := by
  have h1 : ¬t.val % 8 = 7 := by omega
  have e := congrArg (fun x => x.2.2) (outsAt2_A V c t h0 h1)
  refine (congrFun e (ix2 p (0 : Fin 1))).trans ?_
  refine (congrFun (acc_first (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t)) (ix2 p (0 : Fin 1))).trans ?_
  refine (pay3_at V c t k2_pay1 p).trans ?_
  rw [pay2_1_apply]

set_option maxHeartbeats 2000000 in
/-- At a later point of a row the accumulator gains the point's sums on top of what the point
    before left. -/
theorem acc_step_later (c : Dev nD) (t : Fin cfg2.N) (h0 : ¬t.val % 8 = 0) (p : Fin 1024) :
    ((outsAt2 V c t.val t.isLt).2.2 : Vec Ideal S1024x1 .f32) (ix2 p (0 : Fin 1))
      = ((outsAt2 V c (t.val - 1) (Nat.lt_of_le_of_lt (Nat.sub_le _ _) t.isLt)).2.2 : Vec Ideal S1024x1 .f32) (ix2 p (0 : Fin 1))
        + blockTerm V c (t.val / 8) (t.val % 8) p := by
  by_cases h1 : t.val % 8 = 7
  · have e := congrArg (fun x => x.2.2) (outsAt2_C V c t h0 h1)
    refine (congrFun e (ix2 p (0 : Fin 1))).trans ?_
    refine (congrFun (acc_last (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2) (ix2 p (0 : Fin 1))).trans ?_
    exact pay3_at V c t (outsAt2 V c (t.val - 1) (Nat.lt_of_le_of_lt (Nat.sub_le _ _) t.isLt)).2.2 p
  · have e := congrArg (fun x => x.2.2) (outsAt2_B V c t h0 h1)
    refine (congrFun e (ix2 p (0 : Fin 1))).trans ?_
    refine (congrFun (acc_inner (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2) (ix2 p (0 : Fin 1))).trans ?_
    exact pay3_at V c t (outsAt2 V c (t.val - 1) (Nat.lt_of_le_of_lt (Nat.sub_le _ _) t.isLt)).2.2 p

/-- THE RUNNING SUM. After the point at position `n` of the grid, the accumulator at row `p` is
    the running total, over the speaker blocks up to the point's, of the blocks' sums. -/
theorem acc_at (c : Dev nD) : ∀ (n : ℕ) (hn : n < cfg2.N) (p : Fin 1024),
    ((outsAt2 V c n hn).2.2 : Vec Ideal S1024x1 .f32) (ix2 p (0 : Fin 1))
      = acc (fun j => blockTerm V c (n / 8) j p) (n % 8)
  | 0, hn, p => (acc_step_first V c ⟨0, hn⟩ rfl p).trans rfl
  | n + 1, hn, p => by
    by_cases h0 : (n + 1) % 8 = 0
    · refine (acc_step_first V c ⟨n + 1, hn⟩ h0 p).trans ?_
      show 0 + blockTerm V c ((n + 1) / 8) ((n + 1) % 8) p = acc _ ((n + 1) % 8)
      rw [h0]
      rfl
    · refine (acc_step_later V c ⟨n + 1, hn⟩ h0 p).trans ?_
      show ((outsAt2 V c n (Nat.lt_of_succ_lt hn)).2.2 : Vec Ideal S1024x1 .f32) (ix2 p (0 : Fin 1))
          + blockTerm V c ((n + 1) / 8) ((n + 1) % 8) p = acc _ ((n + 1) % 8)
      rw [acc_at c n (Nat.lt_of_succ_lt hn) p]
      have hd : n / 8 = (n + 1) / 8 := by omega
      have hm : (n + 1) % 8 = n % 8 + 1 := by omega
      rw [hm, acc_succ, hd]

/-! ## The stored values -/

set_option maxHeartbeats 2000000 in
/-- At the last point of a row the values' buffer receives, at row `p`, the logistic function of
    the accumulator there plus the bias. -/
theorem values_at (c : Dev nD) (t : Fin cfg2.N) (h1 : t.val % 8 = 7) (p : Fin 1024) :
    ((outsAt2 V c t.val t.isLt).2.1 : Vec Ideal S1024x1 .f32) (ix2 p (0 : Fin 1))
      = Ideal.logistic (((outsAt2 V c t.val t.isLt).2.2 : Vec Ideal S1024x1 .f32) (ix2 p (0 : Fin 1))
          + arrB V c (ix2 (0 : Fin 1) (0 : Fin 1))) := by
  have h0 : ¬t.val % 8 = 0 := by omega
  have e1 := congrArg (fun x => x.2.1) (outsAt2_C V c t h0 h1)
  have e2 := congrArg (fun x => x.2.2) (outsAt2_C V c t h0 h1)
  have a2 := acc_last (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2
  have a1 := values_last (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2
  have s : ((outsAt2 V c t.val t.isLt).2.2 : Vec Ideal S1024x1 .f32)
      = k2_pay3 (F := Ideal) (iblk2 V c 0 t) (iblk2 V c 1 t) (iblk2 V c 2 t) (outsAt2 V c (t.val - 1) (Nat.lt_of_le_of_lt (Nat.sub_le _ _) t.isLt)).2.2 := e2.trans a2
  refine (congrFun (e1.trans a1) (ix2 p (0 : Fin 1))).trans ?_
  refine (pay4_at V c t (k2_pay3 (F := Ideal) (iblk2 V c 0 t) (iblk2 V c 1 t) (iblk2 V c 2 t) (outsAt2 V c (t.val - 1) (Nat.lt_of_le_of_lt (Nat.sub_le _ _) t.isLt)).2.2) p).trans ?_
  rw [← s]

/-- The value of message row `b`: the logistic function of its 8192 logits paired with the value
    weights, plus the bias. -/
def valueOf (c : Dev nD) (b : Fin 2048) : EReal :=
  Cert.Spec.value (fun n => lg V c b n) (fun n => arrW V c (ix2 (0 : Fin 1) n))
    (arrB V c (ix2 (0 : Fin 1) (0 : Fin 1)))

/-- After the eighth point of a row the running total is the sum over all the speaker rows. -/
theorem row_sum (c : Dev nD) (i : ℕ) (p : Fin 1024) :
    acc (fun j => blockTerm V c i j p) 7
      = ∑ n : Fin 8192, lg V c (mrow i p) n * arrW V c (ix2 (0 : Fin 1) n) := by
  rw [acc_seven, sum_blocks (fun n => lg V c (mrow i p) n * arrW V c (ix2 (0 : Fin 1) n))]
  refine Finset.sum_congr rfl fun j _ => ?_
  show blockTerm V c i j.val p = _
  unfold blockTerm
  refine Finset.sum_congr rfl fun q _ => ?_
  have hc : crow j.val q = ⟨1024 * j.val + q.val, by have := j.isLt; have := q.isLt; omega⟩ :=
    Fin.ext (crow_val j.val j.isLt q)
  rw [hc]

/-- So the last point of row `i` of the grid stores, at row `p`, the value of message row
    `1024 i + p`. -/
theorem values_last_point (c : Dev nD) (t : Fin cfg2.N) (h1 : t.val % 8 = 7) (p : Fin 1024) :
    ((outsAt2 V c t.val t.isLt).2.1 : Vec Ideal S1024x1 .f32) (ix2 p (0 : Fin 1))
      = valueOf V c (mrow (t.val / 8) p) := by
  rw [values_at V c t h1 p, acc_at V c t.val t.isLt p, h1, row_sum]
  rfl

/-! ## The array -/

/-- What the values' array ends holding: at row `b` the value of message row `b`. -/
def valuesArr (c : Dev nD) : S2048x1.Idx → EReal := fun i => valueOf V c ⟨(i 0).val, idx2_lt0 i⟩

/-- An index of the array is in point `t`'s block iff each coordinate is in the block's range. -/
theorem mem_blk5 (t : Fin cfg2.N) (i : S2048x1.Idx) :
    i ∈ ((cfg2.win 5).blk t).view.set ↔ ∀ a : Fin 2, win2_5.index t a * S1024x1.size a ≤ (i a).val ∧ (i a).val < win2_5.index t a * S1024x1.size a + S1024x1.size a := by
  show i ∈ ((View.whole main_v12_1).slice (win2_5.rect t)).set ↔ _
  rw [View.set_slice_whole, Rect.mem_set_unit]
  exact Iff.rfl

/-- What the last point of a row writes back is its block of the values. -/
theorem flushed5_eq (c : Dev nD) (t : Fin cfg2.N) (hf : (cfg2.win 5).flush t = true) :
    (dat2 V c).flushed 5 t = ((cfg2.win 5).blk t).view.read (Elt Ideal) (valuesArr V c) := by
  have h7 : t.val % 8 = 7 := (flush2_5 t).mp hf
  have ht := point_lt t
  obtain ⟨-, -, -, -, -, -, -, -, -, -, e0, e1⟩ := idx_facts2 t
  show (cfg2.win 5).cut (grid2.coords t) ((dat2 V c).after 5 t) = _
  rw [after2_5]
  funext y
  have hy0 : (y 0).val < 1024 := (y 0).isLt
  have hy1 : (y 1).val < 1 := (y 1).isLt
  have hx : (cfg2.win 5).xinj (grid2.coords t) y = ix2 (⟨(y 0).val, hy0⟩ : Fin 1024) (0 : Fin 1) :=
    funext fun a => Fin.ext (by
      match a with
      | ⟨0, _⟩ => rfl
      | ⟨1, _⟩ => show (y 1).val = 0; omega)
  show ((outsAt2 V c t.val t.isLt).2.1 : Vec Ideal S1024x1 .f32) ((cfg2.win 5).xinj (grid2.coords t) y)
      = valuesArr V c (((cfg2.win 5).blk t).view.emb y)
  rw [hx, values_last_point V c t h7]
  unfold valuesArr
  refine congrArg (valueOf V c) (Fin.ext ?_)
  show (mrow (t.val / 8) ⟨(y 0).val, hy0⟩).val = win2_5.index t (0 : Fin 2) * 1024 + 1 * (y 0).val
  rw [mrow_val (t.val / 8) (by omega), e0]
  show 1024 * (t.val / 8) + (y 0).val = _
  omega

/-- THE VALUES ARRAY after the call: at row `b` the value of message row `b`. -/
theorem values_final (c : Dev nD) : (dat2 V c).arrAt 5 cfg2.N = valuesArr V c :=
  (dat2 V c).arrAt_eq_of_cover 5 (valuesArr V c) (flushed5_eq V c) fun i => by
    have hi0 : (i 0).val < 2048 := idx2_lt0 i
    have hi1 : (i 1).val < 1 := idx2_lt1 i
    have hlt : 8 * ((i 0).val / 1024) + 7 < cfg2.N := lt_of_lt_of_eq (by omega : _ < 16) N_2.symm
    refine ⟨⟨8 * ((i 0).val / 1024) + 7, hlt⟩, (flush2_5 _).mpr (by show (8 * ((i 0).val / 1024) + 7) % 8 = 7; omega), ?_⟩
    obtain ⟨-, -, -, -, -, -, -, -, -, -, e0, e1⟩ := idx_facts2 ⟨8 * ((i 0).val / 1024) + 7, hlt⟩
    rw [mem_blk5]
    intro a
    match a with
    | ⟨0, _⟩ =>
      show win2_5.index _ (0 : Fin 2) * 1024 ≤ (i 0).val ∧ (i 0).val < win2_5.index _ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win2_5.index _ (1 : Fin 2) * 1 ≤ (i 1).val ∧ (i 1).val < win2_5.index _ (1 : Fin 2) * 1 + 1
      rw [e1]
      omega

/-- The same, index by index, in the words of the specification. -/
theorem cos_values_final (c : Dev nD) (b : Fin 2048) :
    ((dat2 V c).arrAt 5 cfg2.N : S2048x1.Idx → EReal) (ix2 b (0 : Fin 1))
      = Cert.Spec.value
          (fun n => Cert.Spec.logit
            (fun e => (V c (Pipeline.arrRef spec2 0) : S2048x1024.Idx → EReal) (ix2 b e))
            (fun e => (V c (Pipeline.arrRef spec2 1) : S8192x1024.Idx → EReal) (ix2 n e)))
          (fun n => (V c (Pipeline.arrRef spec2 2) : S1x8192.Idx → EReal) (ix2 (0 : Fin 1) n))
          ((V c (Pipeline.arrRef spec2 3) : S1x1.Idx → EReal) (ix2 (0 : Fin 1) (0 : Fin 1))) := by
  rw [values_final V c]
  rfl

end Cert.KernelIdeal.Val

end
-- ==== Proof.BridgeValues.lean ====
/-
  The kernel's second result array, index by index: the logistic function of row b's logits paired with the value
  weights, plus the bias; the weights and the bias reach the last pallas_call through reshapes, which move no element.
-/
import proofs.«168271_j46969762349635_2_alg».proof.Proof.BridgeEnc
import proofs.«168271_j46969762349635_2_alg».proof.Proof.KI.CosValue

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's values are the specification's. -/
theorem kernel_values (c : Dev nD) (b : Fin 2048) :
    (out1 m ρ c : S2048x1.Idx → EReal) (ix2 b (0 : Fin 1))
      = Cert.Spec.values (Cert.Spec.logits (Cert.Spec.encM (m ((c : Thread nD τ).loc main_arg0)) (m ((c : Thread nD τ).loc main_arg2)) (m ((c : Thread nD τ).loc main_arg3)) (m ((c : Thread nD τ).loc main_arg4)) (m ((c : Thread nD τ).loc main_arg5))) (Cert.Spec.encC (m ((c : Thread nD τ).loc main_arg1)) (m ((c : Thread nD τ).loc main_arg6)) (m ((c : Thread nD τ).loc main_arg7)) (m ((c : Thread nD τ).loc main_arg8)) (m ((c : Thread nD τ).loc main_arg9)))) (m ((c : Thread nD τ).loc main_arg10)) (m ((c : Thread nD τ).loc main_arg11)) b := by
  have h := W6_out1 m ρ half0 half1 half2 c
  show (W6 m ρ half0 half1 half2 c (Proc.devRef .tc main_v12_1) : S2048x1.Idx → EReal) (ix2 b (0 : Fin 1)) = _
  rw [h]
  refine (cos_values_final (V5 m ρ half0 half1) c b).trans ?_
  show Cert.Spec.value (fun n => Cert.Spec.logit (fun e => (V5 m ρ half0 half1 c main_v4 : S2048x1024.Idx → EReal) (ix2 b e))
        (fun e => (V5 m ρ half0 half1 c main_v9 : S8192x1024.Idx → EReal) (ix2 n e)))
      (fun n => (V5 m ρ half0 half1 c main_v10 : S1x8192.Idx → EReal) (ix2 (0 : Fin 1) n))
      ((V5 m ρ half0 half1 c main_v11 : S1x1.Idx → EReal) (ix2 (0 : Fin 1) (0 : Fin 1))) = _
  have e2 : (fun n : Fin 8192 => (V5 m ρ half0 half1 c main_v10 : S1x8192.Idx → EReal) (ix2 (0 : Fin 1) n))
      = fun n => (m ((c : Thread nD τ).loc main_arg10) : S8192x1.Idx → EReal) (ix2 n (0 : Fin 1)) :=
    funext fun n => entry2_vw m ρ half0 half1 c n
  have e1 : (fun n : Fin 8192 => Cert.Spec.logit (fun e => (V5 m ρ half0 half1 c main_v4 : S2048x1024.Idx → EReal) (ix2 b e))
        (fun e => (V5 m ρ half0 half1 c main_v9 : S8192x1024.Idx → EReal) (ix2 n e)))
      = fun n => Cert.Spec.logits (Cert.Spec.encM (m ((c : Thread nD τ).loc main_arg0)) (m ((c : Thread nD τ).loc main_arg2)) (m ((c : Thread nD τ).loc main_arg3)) (m ((c : Thread nD τ).loc main_arg4)) (m ((c : Thread nD τ).loc main_arg5))) (Cert.Spec.encC (m ((c : Thread nD τ).loc main_arg1)) (m ((c : Thread nD τ).loc main_arg6)) (m ((c : Thread nD τ).loc main_arg7)) (m ((c : Thread nD τ).loc main_arg8)) (m ((c : Thread nD τ).loc main_arg9))) b n :=
    funext fun n => by rw [enc_m_row, enc_c_row]; rfl
  rw [e1, e2, entry2_vb]
  rfl

end Cert.KernelIdeal.Val

end
-- ==== Proof.Ref.Enc.lean ====
/-
  The reference program's two encoders, read entry by entry, are the specification's encoders.

  Each stage of the reference (a matrix product, a bias broadcast along rows, a positive part,
  a row sum of squares, a square root bounded below, a division) is read at an index built from
  literal coordinates, and the composite is identified with the specification's row encoding.
-/
import proofs.«168271_j46969762349635_2_alg».proof.Proof.Gen.ReferenceIdeal.Read
import proofs.«168271_j46969762349635_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RefSpec

open Cert.ReferenceIdeal Cert.ReferenceIdeal.Read Idealize.ShloMosaic Idealize.ShloMosaic.ValueIdx

/-! ## The message encoder: 2048 rows -/

section Msg

variable (x0 : (⟨S2048x1024, .f32⟩ : BufTy).Contents (Elt Ideal))
  (x2 : (⟨S1024x4096, .f32⟩ : BufTy).Contents (Elt Ideal))
  (x3 : (⟨S4096, .f32⟩ : BufTy).Contents (Elt Ideal))
  (x4 : (⟨S4096x1024, .f32⟩ : BufTy).Contents (Elt Ideal))
  (x5 : (⟨S1024, .f32⟩ : BufTy).Contents (Elt Ideal))

/-- Entry (r, k) of the first product reads row r of the left factor. -/
theorem lidx_v0 (r : Fin 2048) (k : Fin 4096) (d : Fin 1024) :
    lidx_main_v0 (ix2 r k) d = ix2 r d :=
  funext fun a => Fin.ext (by match a with | ⟨0, _⟩ => rfl | ⟨1, _⟩ => rfl)

/-- Entry (r, k) of the first product reads column k of the right factor. -/
theorem ridx_v0 (r : Fin 2048) (k : Fin 4096) (d : Fin 1024) :
    ridx_main_v0 (ix2 r k) d = ix2 d k :=
  funext fun a => Fin.ext (by match a with | ⟨0, _⟩ => rfl | ⟨1, _⟩ => rfl)

/-- The first bias, broadcast along rows, is read at the column. -/
theorem idx_v1_v2 (r : Fin 2048) (k : Fin 4096) :
    idx_main_v1 (idx_main_v2 (ix2 r k)) = ix1 k :=
  funext fun a => Fin.ext (by match a with | ⟨0, _⟩ => rfl)

/-- The hidden layer of row r at unit k. -/
theorem hid_msg (r : Fin 2048) (k : Fin 4096) :
    val_main_v4 (F := Ideal) x0 x2 x3 (ix2 r k)
      = Cert.Spec.hid (fun d => x0 (ix2 r d)) (fun d k => x2 (ix2 d k)) (fun k => x3 (ix1 k)) k := by
  rw [val_main_v4_apply, val_main_v3_apply, val_main_v0_apply, val_main_v2_apply, val_main_v1_apply,
    val_main_call0_v0_apply, val_main_call0_cst_apply]
  simp only [lidx_v0, ridx_v0, idx_v1_v2, Ideal.addf_def, Ideal.maximumf_def, Ideal.ofBits_def]
  rfl

/-- Entry (r, e) of the second product reads row r of the hidden layer. -/
theorem lidx_v5 (r : Fin 2048) (e : Fin 1024) (k : Fin 4096) :
    lidx_main_v5 (ix2 r e) k = ix2 r k :=
  funext fun a => Fin.ext (by match a with | ⟨0, _⟩ => rfl | ⟨1, _⟩ => rfl)

/-- Entry (r, e) of the second product reads column e of the right factor. -/
theorem ridx_v5 (r : Fin 2048) (e : Fin 1024) (k : Fin 4096) :
    ridx_main_v5 (ix2 r e) k = ix2 k e :=
  funext fun a => Fin.ext (by match a with | ⟨0, _⟩ => rfl | ⟨1, _⟩ => rfl)

/-- The second bias, broadcast along rows, is read at the column. -/
theorem idx_v6_v7 (r : Fin 2048) (e : Fin 1024) :
    idx_main_v6 (idx_main_v7 (ix2 r e)) = ix1 e :=
  funext fun a => Fin.ext (by match a with | ⟨0, _⟩ => rfl)

/-- The unscaled encoding of row r at coordinate e. -/
theorem pre_msg (r : Fin 2048) (e : Fin 1024) :
    val_main_v8 (F := Ideal) x0 x2 x3 x4 x5 (ix2 r e)
      = Cert.Spec.pre (fun d => x0 (ix2 r d)) (fun d k => x2 (ix2 d k)) (fun k => x3 (ix1 k))
          (fun k e => x4 (ix2 k e)) (fun e => x5 (ix1 e)) e := by
  rw [val_main_v8_apply, val_main_v5_apply, val_main_v7_apply, val_main_v6_apply]
  simp only [lidx_v5, ridx_v5, idx_v6_v7, hid_msg, Ideal.addf_def]
  rfl

/-- The row length is kept in a column of width one: entry (r, e) of its broadcast reads (r, 0). -/
theorem idx_v21 (r : Fin 2048) (e : Fin 1024) :
    idx_main_v21 (ix2 r e) = ix2 r (0 : Fin 1) :=
  funext fun a => Fin.ext (by match a with | ⟨0, _⟩ => rfl | ⟨1, _⟩ => rfl)

/-- The column of width one at (r, 0) reads the vector of row sums at r. -/
theorem idx_call2_v2 (r : Fin 2048) :
    idx_main_call2_v2 (ix2 r (0 : Fin 1)) = ix1 r :=
  funext fun a => Fin.ext (by match a with | ⟨0, _⟩ => rfl)

/-- The row sum at r runs over the entries (r, k). -/
theorem idx_call2_v1 (r : Fin 2048) (k : Fin 1024) :
    idx_main_call2_v1 (ix1 r) k = ix2 r k :=
  funext fun a => Fin.ext (by match a with | ⟨0, _⟩ => rfl | ⟨1, _⟩ => rfl)

/-- The bounded length of row r's unscaled encoding. -/
theorem len_msg (r : Fin 2048) :
    val_main_v20 (F := Ideal) x0 x2 x3 x4 x5 (ix2 r (0 : Fin 1))
      = Cert.Spec.len (Cert.Spec.pre (fun d => x0 (ix2 r d)) (fun d k => x2 (ix2 d k)) (fun k => x3 (ix1 k))
          (fun k e => x4 (ix2 k e)) (fun e => x5 (ix1 e))) := by
  rw [val_main_v20_apply, val_main_v18_apply, val_main_call2_v2_apply, idx_call2_v2, val_main_call2_v1_apply,
    val_main_call2_cst_apply, val_main_v19_apply, val_main_cst_apply]
  simp only [idx_call2_v1, val_main_call2_v0_apply, pre_msg, Ideal.mulf_def, Ideal.maximumf_def,
    Ideal.hostUnary_sqrt_def, Ideal.ofBits_def]
  rw [show Ideal.ofBits .f32 0x00000000#32 = (0 : EReal) from Cert.Spec.zeroW_eq, zero_add]
  rfl

/-- Entry (r, e) of the encoded messages. -/
theorem enc_msg (r : Fin 2048) (e : Fin 1024) :
    val_main_v22 (F := Ideal) x0 x2 x3 x4 x5 (ix2 r e) = Cert.Spec.encM x0 x2 x3 x4 x5 r e := by
  rw [val_main_v22_apply, val_main_v21_apply, idx_v21, pre_msg, len_msg, Ideal.hostDivf_def]
  rfl

end Msg

/-! ## The speaker encoder: 8192 rows, the same stages -/

section Spk

variable (x1 : (⟨S8192x1024, .f32⟩ : BufTy).Contents (Elt Ideal))
  (x6 : (⟨S1024x4096, .f32⟩ : BufTy).Contents (Elt Ideal))
  (x7 : (⟨S4096, .f32⟩ : BufTy).Contents (Elt Ideal))
  (x8 : (⟨S4096x1024, .f32⟩ : BufTy).Contents (Elt Ideal))
  (x9 : (⟨S1024, .f32⟩ : BufTy).Contents (Elt Ideal))

/-- Entry (n, k) of the first product reads row n of the left factor. -/
theorem lidx_v9 (n : Fin 8192) (k : Fin 4096) (d : Fin 1024) :
    lidx_main_v9 (ix2 n k) d = ix2 n d :=
  funext fun a => Fin.ext (by match a with | ⟨0, _⟩ => rfl | ⟨1, _⟩ => rfl)

/-- Entry (n, k) of the first product reads column k of the right factor. -/
theorem ridx_v9 (n : Fin 8192) (k : Fin 4096) (d : Fin 1024) :
    ridx_main_v9 (ix2 n k) d = ix2 d k :=
  funext fun a => Fin.ext (by match a with | ⟨0, _⟩ => rfl | ⟨1, _⟩ => rfl)

/-- The first bias, broadcast along rows, is read at the column. -/
theorem idx_v10_v11 (n : Fin 8192) (k : Fin 4096) :
    idx_main_v10 (idx_main_v11 (ix2 n k)) = ix1 k :=
  funext fun a => Fin.ext (by match a with | ⟨0, _⟩ => rfl)

/-- The hidden layer of row n at unit k. -/
theorem hid_spk (n : Fin 8192) (k : Fin 4096) :
    val_main_v13 (F := Ideal) x1 x6 x7 (ix2 n k)
      = Cert.Spec.hid (fun d => x1 (ix2 n d)) (fun d k => x6 (ix2 d k)) (fun k => x7 (ix1 k)) k := by
  rw [val_main_v13_apply, val_main_v12_apply, val_main_v9_apply, val_main_v11_apply, val_main_v10_apply,
    val_main_call1_v0_apply, val_main_call1_cst_apply]
  simp only [lidx_v9, ridx_v9, idx_v10_v11, Ideal.addf_def, Ideal.maximumf_def, Ideal.ofBits_def]
  rfl

/-- Entry (n, e) of the second product reads row n of the hidden layer. -/
theorem lidx_v14 (n : Fin 8192) (e : Fin 1024) (k : Fin 4096) :
    lidx_main_v14 (ix2 n e) k = ix2 n k :=
  funext fun a => Fin.ext (by match a with | ⟨0, _⟩ => rfl | ⟨1, _⟩ => rfl)

/-- Entry (n, e) of the second product reads column e of the right factor. -/
theorem ridx_v14 (n : Fin 8192) (e : Fin 1024) (k : Fin 4096) :
    ridx_main_v14 (ix2 n e) k = ix2 k e :=
  funext fun a => Fin.ext (by match a with | ⟨0, _⟩ => rfl | ⟨1, _⟩ => rfl)

/-- The second bias, broadcast along rows, is read at the column. -/
theorem idx_v15_v16 (n : Fin 8192) (e : Fin 1024) :
    idx_main_v15 (idx_main_v16 (ix2 n e)) = ix1 e :=
  funext fun a => Fin.ext (by match a with | ⟨0, _⟩ => rfl)

/-- The unscaled encoding of row n at coordinate e. -/
theorem pre_spk (n : Fin 8192) (e : Fin 1024) :
    val_main_v17 (F := Ideal) x1 x6 x7 x8 x9 (ix2 n e)
      = Cert.Spec.pre (fun d => x1 (ix2 n d)) (fun d k => x6 (ix2 d k)) (fun k => x7 (ix1 k))
          (fun k e => x8 (ix2 k e)) (fun e => x9 (ix1 e)) e := by
  rw [val_main_v17_apply, val_main_v14_apply, val_main_v16_apply, val_main_v15_apply]
  simp only [lidx_v14, ridx_v14, idx_v15_v16, hid_spk, Ideal.addf_def]
  rfl

/-- Entry (n, e) of the broadcast row length reads (n, 0). -/
theorem idx_v26 (n : Fin 8192) (e : Fin 1024) :
    idx_main_v26 (ix2 n e) = ix2 n (0 : Fin 1) :=
  funext fun a => Fin.ext (by match a with | ⟨0, _⟩ => rfl | ⟨1, _⟩ => rfl)

/-- The column of width one at (n, 0) reads the vector of row sums at n. -/
theorem idx_call3_v2 (n : Fin 8192) :
    idx_main_call3_v2 (ix2 n (0 : Fin 1)) = ix1 n :=
  funext fun a => Fin.ext (by match a with | ⟨0, _⟩ => rfl)

/-- The row sum at n runs over the entries (n, k). -/
theorem idx_call3_v1 (n : Fin 8192) (k : Fin 1024) :
    idx_main_call3_v1 (ix1 n) k = ix2 n k :=
  funext fun a => Fin.ext (by match a with | ⟨0, _⟩ => rfl | ⟨1, _⟩ => rfl)

/-- The bounded length of row n's unscaled encoding. -/
theorem len_spk (n : Fin 8192) :
    val_main_v25 (F := Ideal) x1 x6 x7 x8 x9 (ix2 n (0 : Fin 1))
      = Cert.Spec.len (Cert.Spec.pre (fun d => x1 (ix2 n d)) (fun d k => x6 (ix2 d k)) (fun k => x7 (ix1 k))
          (fun k e => x8 (ix2 k e)) (fun e => x9 (ix1 e))) := by
  rw [val_main_v25_apply, val_main_v23_apply, val_main_call3_v2_apply, idx_call3_v2, val_main_call3_v1_apply,
    val_main_call3_cst_apply, val_main_v24_apply, val_main_cst_0_apply]
  simp only [idx_call3_v1, val_main_call3_v0_apply, pre_spk, Ideal.mulf_def, Ideal.maximumf_def,
    Ideal.hostUnary_sqrt_def, Ideal.ofBits_def]
  rw [show Ideal.ofBits .f32 0x00000000#32 = (0 : EReal) from Cert.Spec.zeroW_eq, zero_add]
  rfl

/-- Entry (n, e) of the encoded speakers. -/
theorem enc_spk (n : Fin 8192) (e : Fin 1024) :
    val_main_v27 (F := Ideal) x1 x6 x7 x8 x9 (ix2 n e) = Cert.Spec.encC x1 x6 x7 x8 x9 n e := by
  rw [val_main_v27_apply, val_main_v26_apply, idx_v26, pre_spk, len_spk, Ideal.hostDivf_def]
  rfl

end Spk

end Cert.RefSpec

end
-- ==== Proof.Ref.lean ====
/-
  The reference is the specification.

  With the two encoders read entry by entry, a logit is the product of a message row and a
  speaker row (the transposed speaker array read with its coordinates exchanged), one added and
  halved; a value is the reciprocal of one plus the exponential of the negated pairing of a row
  of logits with the value weights plus the value bias, which is the logistic function of that
  pairing.
-/
import proofs.«168271_j46969762349635_2_alg».proof.Proof.Ref.Enc

noncomputable section

open scoped BigOperators

namespace Cert.RefSpec

open Cert.ReferenceIdeal Cert.ReferenceIdeal.Read Idealize.ShloMosaic Idealize.ShloMosaic.ValueIdx
open Idealize.ShloMosaic.TcCoe Idealize.SL.Sem

section Stages

variable (x0 : (⟨S2048x1024, .f32⟩ : BufTy).Contents (Elt Ideal))
  (x1 : (⟨S8192x1024, .f32⟩ : BufTy).Contents (Elt Ideal))
  (x2 : (⟨S1024x4096, .f32⟩ : BufTy).Contents (Elt Ideal))
  (x3 : (⟨S4096, .f32⟩ : BufTy).Contents (Elt Ideal))
  (x4 : (⟨S4096x1024, .f32⟩ : BufTy).Contents (Elt Ideal))
  (x5 : (⟨S1024, .f32⟩ : BufTy).Contents (Elt Ideal))
  (x6 : (⟨S1024x4096, .f32⟩ : BufTy).Contents (Elt Ideal))
  (x7 : (⟨S4096, .f32⟩ : BufTy).Contents (Elt Ideal))
  (x8 : (⟨S4096x1024, .f32⟩ : BufTy).Contents (Elt Ideal))
  (x9 : (⟨S1024, .f32⟩ : BufTy).Contents (Elt Ideal))
  (x10 : (⟨S8192x1, .f32⟩ : BufTy).Contents (Elt Ideal))
  (x11 : (⟨S1, .f32⟩ : BufTy).Contents (Elt Ideal))

/-- Entry (b, n) of the product of the encodings reads row b of the encoded messages. -/
theorem lidx_v29 (b : Fin 2048) (n : Fin 8192) (e : Fin 1024) :
    lidx_main_v29 (ix2 b n) e = ix2 b e :=
  funext fun a => Fin.ext (by match a with | ⟨0, _⟩ => rfl | ⟨1, _⟩ => rfl)

/-- Entry (b, n) of the product reads column n of the transposed speakers: row n of the speakers. -/
theorem idx_v28_ridx_v29 (b : Fin 2048) (n : Fin 8192) (e : Fin 1024) :
    idx_main_v28 (ridx_main_v29 (ix2 b n) e) = ix2 n e :=
  funext fun a => Fin.ext (by match a with | ⟨0, _⟩ => rfl | ⟨1, _⟩ => rfl)

/-- Entry (b, n) of the logits. -/
theorem logits_stage (b : Fin 2048) (n : Fin 8192) :
    val_main_v33 (F := Ideal) x0 x1 x2 x3 x4 x5 x6 x7 x8 x9 (ix2 b n)
      = Cert.Spec.logits (Cert.Spec.encM x0 x2 x3 x4 x5) (Cert.Spec.encC x1 x6 x7 x8 x9) b n := by
  rw [val_main_v33_apply, val_main_v31_apply, val_main_v30_apply, val_main_cst_1_apply, val_main_v29_apply,
    val_main_v32_apply, val_main_cst_2_apply]
  simp only [lidx_v29, val_main_v28_apply, idx_v28_ridx_v29, enc_msg, enc_spk, Ideal.addf_def, Ideal.mulf_def,
    Ideal.ofBits_def]
  rfl

/-- Entry (b, 0) of the pairing with the value weights reads row b of the logits. -/
theorem lidx_v34 (b : Fin 2048) (n : Fin 8192) :
    lidx_main_v34 (ix2 b (0 : Fin 1)) n = ix2 b n :=
  funext fun a => Fin.ext (by match a with | ⟨0, _⟩ => rfl | ⟨1, _⟩ => rfl)

/-- Entry (b, 0) of the pairing reads the single column of the value weights. -/
theorem ridx_v34 (b : Fin 2048) (n : Fin 8192) :
    ridx_main_v34 (ix2 b (0 : Fin 1)) n = ix2 n (0 : Fin 1) :=
  funext fun a => Fin.ext (by match a with | ⟨0, _⟩ => rfl | ⟨1, _⟩ => rfl)

/-- The value bias, broadcast to a column, is read at its only entry. -/
theorem idx_v35_v36 (b : Fin 2048) :
    idx_main_v35 (idx_main_v36 (ix2 b (0 : Fin 1))) = ix1 (0 : Fin 1) :=
  funext fun a => Fin.ext (by match a with | ⟨0, _⟩ => rfl)

/-- Entry (b, 0) of the values. -/
theorem values_stage (b : Fin 2048) :
    val_main_v43 (F := Ideal) x0 x1 x2 x3 x4 x5 x6 x7 x8 x9 x10 x11 (ix2 b (0 : Fin 1))
      = Cert.Spec.values (Cert.Spec.logits (Cert.Spec.encM x0 x2 x3 x4 x5) (Cert.Spec.encC x1 x6 x7 x8 x9))
          x10 x11 b := by
  rw [val_main_v43_apply, val_main_v42_apply, val_main_cst_4_apply, val_main_v41_apply, val_main_v40_apply,
    val_main_cst_3_apply, val_main_v39_apply, val_main_v38_apply, val_main_v37_apply, val_main_v34_apply,
    val_main_v36_apply, val_main_v35_apply, idx_v35_v36]
  simp only [lidx_v34, ridx_v34, logits_stage, Ideal.addf_def, Ideal.hostDivf_def, Ideal.hostNegf_def,
    Ideal.negf_def, Ideal.hostUnary_exp_def, Ideal.ofBits_def]
  rw [show Ideal.ofBits .f32 0x3F800000#32 = (1 : EReal) from Cert.Spec.oneW_eq]
  rfl

end Stages

/-! ## The two results of the run -/

/-- The first result of the reference's run, read at (b, n), is the specification's logit. -/
theorem ref_logits (m : (ℓ : Loc nD τ sig) → Buf (Elt Ideal) ℓ) (c : Dev nD) (b : Fin 2048) (n : Fin 8192) :
    Cert.ReferenceIdeal.Value.res_main_v33 (F := Ideal) m c (ix2 b n)
      = Cert.Spec.logits
          (Cert.Spec.encM (m ((c.tc : Thread nD τ).loc main_arg0)) (m ((c.tc : Thread nD τ).loc main_arg2))
            (m ((c.tc : Thread nD τ).loc main_arg3)) (m ((c.tc : Thread nD τ).loc main_arg4))
            (m ((c.tc : Thread nD τ).loc main_arg5)))
          (Cert.Spec.encC (m ((c.tc : Thread nD τ).loc main_arg1)) (m ((c.tc : Thread nD τ).loc main_arg6))
            (m ((c.tc : Thread nD τ).loc main_arg7)) (m ((c.tc : Thread nD τ).loc main_arg8))
            (m ((c.tc : Thread nD τ).loc main_arg9))) b n := by
  rw [val_main_v33_eq]
  exact logits_stage _ _ _ _ _ _ _ _ _ _ b n

/-- The second result of the reference's run, read at (b, 0), is the specification's value. -/
theorem ref_values (m : (ℓ : Loc nD τ sig) → Buf (Elt Ideal) ℓ) (c : Dev nD) (b : Fin 2048) :
    Cert.ReferenceIdeal.Value.res_main_v43 (F := Ideal) m c (ix2 b (0 : Fin 1))
      = Cert.Spec.values
          (Cert.Spec.logits
            (Cert.Spec.encM (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)))
            (Cert.Spec.encC (m ((c.tc : Thread nD τ).loc main_arg1)) (m ((c.tc : Thread nD τ).loc main_arg6))
              (m ((c.tc : Thread nD τ).loc main_arg7)) (m ((c.tc : Thread nD τ).loc main_arg8))
              (m ((c.tc : Thread nD τ).loc main_arg9))))
          (m ((c.tc : Thread nD τ).loc main_arg10)) (m ((c.tc : Thread nD τ).loc main_arg11)) b := by
  rw [val_main_v43_eq]
  exact values_stage _ _ _ _ _ _ _ _ _ _ _ _ b

end Cert.RefSpec

end
-- ==== Proof.lean ====
/-
  The certificate's five claims.

  Both printed kernels run as six segments — host stretch, first encoder, host stretch, second encoder, host stretch,
  cosine/value call — and no segment writes an argument: the two frame claims. The reference is a straight line of
  host operations, its frame its run with the results dropped. The idealization rewrote nothing. At the ideal
  instance the kernel's two result arrays are what the last call's write-backs leave: index by index the logit
  (1 + <m_b, c_n>) / 2 of the encoded message row b and speaker row n, and the logistic function of the row of
  logits paired with the value weights plus the bias — the same two functions of the twelve arguments the
  reference's run ends at; the kernel's sum over eight blocks of 1024 speakers and the reference's single sum
  over 8192 are one sum, addition on the extended reals being commutative and associative.
-/
import proofs.«168271_j46969762349635_2_alg».proof.Defs
import proofs.«168271_j46969762349635_2_alg».proof.Proof.Gen.Kernel
import proofs.«168271_j46969762349635_2_alg».proof.Proof.Gen.KernelIdeal
import proofs.«168271_j46969762349635_2_alg».proof.Proof.Gen.ReferenceIdeal
import proofs.«168271_j46969762349635_2_alg».proof.Proof.Gen.ReferenceIdeal.Run
import proofs.«168271_j46969762349635_2_alg».proof.Proof.Gen.Pre_finite_inputs
import proofs.«168271_j46969762349635_2_alg».proof.Proof.K.Inst
import proofs.«168271_j46969762349635_2_alg».proof.Proof.KI.Inst
import proofs.«168271_j46969762349635_2_alg».proof.Proof.BridgeLogits
import proofs.«168271_j46969762349635_2_alg».proof.Proof.BridgeValues
import proofs.«168271_j46969762349635_2_alg».proof.Proof.Ref
import Idealize.ShloMosaic.Lib.ValueIdx

noncomputable section

namespace Cert.Proof

open Idealize.ShloMosaic Idealize.SL.Sem

/-- The word-level kernel runs and leaves its arguments as launched. -/
theorem frame_k : @Cert.frame_Kernel Cert.Kernel.Gen.facts Cert.Pre_finite_inputs.Gen.facts :=
  fun m ρ _ => Cert.Kernel.Fr.frameF (F := Bits) m ρ

/-- So does the idealized kernel. -/
theorem frame_ki : @Cert.frame_KernelIdeal Cert.KernelIdeal.Gen.facts Cert.Pre_finite_inputs.Gen.facts :=
  fun m ρ _ => Cert.KernelIdeal.Fr.frameF (F := Ideal) m ρ

/-- The reference's frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- With the arguments agreeing, the kernel's logits are the reference's: both are the specification's. -/
theorem logits_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v33 (F := Ideal) m' c = Cert.KernelIdeal.Val.out0 m ρ c := by
  funext i
  obtain ⟨b, n, rfl⟩ : ∃ (b : Fin 2048) (n : Fin 8192), i = ValueIdx.ix2 b n := ⟨i 0, i 1, ValueIdx.eq_ix2 i⟩
  refine (Cert.RefSpec.ref_logits m' c b n).trans ?_
  obtain ⟨h0, h1, h2, h3, h4, h5, h6, h7, h8, h9, h10, h11⟩ := hag
  rw [h0, h1, h2, h3, h4, h5, h6, h7, h8, h9]
  exact (Cert.KernelIdeal.Val.kernel_logits m ρ c b n).symm

/-- With the arguments agreeing, the kernel's values are the reference's. -/
theorem values_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v43 (F := Ideal) m' c = Cert.KernelIdeal.Val.out1 m ρ c := by
  funext i
  obtain ⟨b, u, rfl⟩ : ∃ (b : Fin 2048) (u : Fin 1), i = ValueIdx.ix2 b u := ⟨i 0, i 1, ValueIdx.eq_ix2 i⟩
  obtain rfl : u = 0 := Subsingleton.elim _ _
  refine (Cert.RefSpec.ref_values m' c b).trans ?_
  obtain ⟨h0, h1, h2, h3, h4, h5, h6, h7, h8, h9, h10, h11⟩ := hag
  rw [h0, h1, h2, h3, h4, h5, h6, h7, h8, h9, h10, h11]
  exact (Cert.KernelIdeal.Val.kernel_values m ρ c b).symm

/-- The two programs end with equal results at the ideal instance. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Val.kernel_run m ρ, ?_⟩
  exact (θ_run Cert.ReferenceIdeal.defs _ _).mono
    (fun _ h c => ⟨(h c).1.trans (logits_eq m ρ m' c (hagree c)), (h c).2.1.trans (values_eq m ρ m' c (hagree c)), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
